-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x640000 : Shape := ⟨2, ![1, 640000]⟩
abbrev S640000 : Shape := ⟨1, ![640000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part4 {F : FTy → Type} [FloatOps F] (main_v63 : IVec S_ 1) (main_v67 : IVec S640000 1) (main_c_25 : IVec S_ 1) : IVec S_ 1 :=
  let main_v68 : IVec S_ 1 := (fun x v => Host.reduce IntOp.andi x v reducesTo_S640000_S_d0 h_S_) main_v67 main_c_25
  let main_v69 : IVec S_ 1 := andi main_v63 main_v68
  main_v69

def fn_part3 {F : FTy → Type} [FloatOps F] (main_arg1 : IVec S2x640000 32) (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : IVec S1x640000 32 := (extractStridedSlice S1x640000 ![1, 0] · slices_S2x640000_S1x640000_1_0) main_arg1
  let main_v65 : IVec S640000 32 := shapeCast S640000 main_v64 shapeCasts_S1x640000_S640000
  let main_c_24 : IVec S_ 32 := constantI S_ 32 0#32
  let main_v66 : IVec S640000 32 := broadcastInDim S640000 ![] bcast_S_S640000 main_c_24
  let main_v67 : IVec S640000 1 := cmpi .sge main_v65 main_v66
  let main_c_25 : IVec S_ 1 := constantI S_ 1 1#1
  fn_part4 (F := F) main_v63 main_v67 main_c_25

def fn_part2 {F : FTy → Type} [FloatOps F] (main_arg1 : IVec S2x640000 32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_arg13 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S1x128 : Shape := ⟨2, ![1, 128]⟩
abbrev S5000x128 : Shape := ⟨2, ![5000, 128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S5000x1 : Shape := ⟨2, ![5000, 1]⟩
abbrev S1x1 : Shape := ⟨2, ![1, 1]⟩

abbrev nBuf : Space → Nat
  | .hbm => 111
  | .vmem => 60
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S1x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S1x128, .f32⟩
  | .hbm, ⟨23, _⟩ => ⟨S100000x128, .f32⟩
  | .hbm, ⟨24, _⟩ => ⟨S_, .f32⟩
  | .hbm, ⟨25, _⟩ => ⟨S640000, .f32⟩
  | .hbm, ⟨26, _⟩ => ⟨S_, .f32⟩
  | .hbm, ⟨27, _⟩ => ⟨S100000, .f32⟩
  | .hbm, ⟨28, _⟩ => ⟨S640000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000, .f32⟩
  | .hbm, ⟨52, _⟩ => ⟨S640000, .f32⟩
  | .hbm, ⟨53, _⟩ => ⟨S100000, .f32⟩
  | .hbm, ⟨54, _⟩ => ⟨S100000x1, .f32⟩
  | .hbm, ⟨55, _⟩ => ⟨S100000x128, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x128, .f32⟩
  | .hbm, ⟨65, _⟩ => ⟨S640000x1, .f32⟩
  | .hbm, ⟨66, _⟩ => ⟨S640000x128, .f32⟩
  | .hbm, ⟨67, _⟩ => ⟨S640000x128, .f32⟩
  | .hbm, ⟨68, _⟩ => ⟨S_, .f32⟩
  | .hbm, ⟨69, _⟩ => ⟨S100000x128, .f32⟩
  | .hbm, ⟨70, _⟩ => ⟨S640000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S640000, .i32⟩
  | .hbm, ⟨77, _⟩ => ⟨S640000, .i1⟩
  | .hbm, ⟨78, _⟩ => ⟨S_, .i32⟩
  | .hbm, ⟨79, _⟩ => ⟨S640000, .i32⟩
  | .hbm, ⟨80, _⟩ => ⟨S640000, .i32⟩
  | .hbm, ⟨81, _⟩ => ⟨S640000, .i32⟩
  | .hbm, ⟨82, _⟩ => ⟨S640000x1, .i32⟩
  | .hbm, ⟨83, _⟩ => ⟨S640000x128, .f32⟩
  | .hbm, ⟨84, _⟩ => ⟨S640000x1, .f32⟩
  | .hbm, ⟨85, _⟩ => ⟨S640000x128, .f32⟩
  | .hbm, ⟨86, _⟩ => ⟨S640000x128, .f32⟩
  | .hbm, ⟨87, _⟩ => ⟨S_, .f32⟩
  | .hbm, ⟨88, _⟩ => ⟨S100000x128, .f32⟩
  | .hbm, ⟨89, _⟩ => ⟨S640000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x1, .f32⟩
  | .hbm, ⟨94, _⟩ => ⟨S_, .i32⟩
  | .hbm, ⟨95, _⟩ => ⟨S640000, .i32⟩
  | .hbm, ⟨96, _⟩ => ⟨S640000, .i1⟩
  | .hbm, ⟨97, _⟩ => ⟨S_, .i32⟩
  | .hbm, ⟨98, _⟩ => ⟨S640000, .i32⟩
  | .hbm, ⟨99, _⟩ => ⟨S640000, .i32⟩
  | .hbm, ⟨100, _⟩ => ⟨S640000, .i32⟩
  | .hbm, ⟨101, _⟩ => ⟨S640000x1, .i32⟩
  | .hbm, ⟨102, _⟩ => ⟨S640000x1, .f32⟩
  | .hbm, ⟨103, _⟩ => ⟨S640000x1, .f32⟩
  | .hbm, ⟨104, _⟩ => ⟨S640000x1, .f32⟩
  | .hbm, ⟨105, _⟩ => ⟨S_, .f32⟩
  | .hbm, ⟨106, _⟩ => ⟨S100000x1, .f32⟩
  | .hbm, ⟨107, _⟩ => ⟨S640000x1, .i32⟩
  | .hbm, ⟨108, _⟩ => ⟨S100000x1, .f32⟩
  | .hbm, ⟨109, _⟩ => ⟨S1x1, .f32⟩
  | .hbm, ⟨110, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x1, .f32⟩
  | .local _ .vmem, ⟨42, _⟩ => ⟨S5000x1, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x1, .f32⟩
  | .local _ .vmem, ⟨49, _⟩ => ⟨S5000x1, .f32⟩
  | .local _ .vmem, ⟨50, _⟩ => ⟨S5000x1, .f32⟩
  | .local _ .vmem, ⟨51, _⟩ => ⟨S5000x1, .f32⟩
  | .local _ .vmem, ⟨52, _⟩ => ⟨S5000x1, .f32⟩
  | .local _ .vmem, ⟨53, _⟩ => ⟨S5000x1, .f32⟩
  | .local _ .vmem, ⟨54, _⟩ => ⟨S5000x1, .f32⟩
  | .local _ .vmem, ⟨55, _⟩ => ⟨S5000x1, .f32⟩
  | .local _ .vmem, ⟨56, _⟩ => ⟨S5000x1, .f32⟩
  | .local _ .vmem, ⟨57, _⟩ => ⟨S1x1, .f32⟩
  | .local _ .vmem, ⟨58, _⟩ => ⟨S5000x1, .f32⟩
  | .local _ .vmem, ⟨59, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_11 : Ref sig .tc := ⟨.hbm, 94, rfl⟩
abbrev main_v67 : Ref sig .tc := ⟨.hbm, 95, rfl⟩
abbrev main_v68 : Ref sig .tc := ⟨.hbm, 96, rfl⟩
abbrev main_c_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg4_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg4_0 : Ref sig .tc := ⟨.vmem, 58, rfl⟩
abbrev cc8_stg4_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem4_0 : DmaSem sig := 30
abbrev cc4_sem4_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42
abbrev cc6_sem3_0 : DmaSem sig := 43
abbrev cc6_sem4_0 : DmaSem sig := 44
abbrev cc6_sem4_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem4_0 : DmaSem sig := 58
abbrev cc8_sem4_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  dot_S5000x128_S128x128_S5000x128_1_0_0_1_n_n_wf : DotDims.WF S5000x128 S128x128 S5000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x1_S5000x1_1_0_0_1_n_n_wf : DotDims.WF S5000x128 S128x1 S5000x1 [1] [0] [0] [1] [] []
  gather_S100000x1_S640000x1_S640000x1_1_0_n_n_0_1_11_wf : GatherDims.WF S100000x1 S640000x1 S640000x1 [1] [0] [] [0] [] 1 ![1, 1]
  scatter_S100000x1_S640000x1_S640000x1_1_0_0_1_wf : ScatterDims.WF S100000x1 S640000x1 S640000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x1.size a ≤ S128x1.size a
  hwx7_1 : ∀ i : grid7.Coords, EltTy.bits .f32 = 32 ∨ (Rect.block (s := S128x1) S128x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x1.size a ≤ S100000x1.size a
  hwx8_0 : ∀ i : grid8.Coords, EltTy.bits .f32 = 32 ∨ (Rect.block (s := S100000x1) S5000x1.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .f32 = 32 ∨ (Rect.block (s := S100000x1) S5000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x1.size a ≤ S100000x1.size a
  hwx8_4 : ∀ i : grid8.Coords, EltTy.bits .f32 = 32 ∨ (Rect.block (s := S100000x1) S5000x1.size (cc8_transform_4 i) (hinb8_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S640000x1_S640000x1_1_0_n_n_0_1_11 : GatherDims S100000x1 S640000x1 S640000x1 where
  offsetDims := [1]
  collapsedSliceDims := [0]
  operandBatchingDims := []
  startIndicesBatchingDims := []
  startIndexMap := [0]
  indexVectorDim := 1
  sliceSizes := ![1, 1]
  wf := gather_S100000x1_S640000x1_S640000x1_1_0_n_n_0_1_11_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v47) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v49) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v63) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v50) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v33) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v64) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v65) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v65) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S128x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v66) S5000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v78) S5000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v66) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v33) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v79) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v80) S5000x1.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x1 : Shape := ⟨2, ![1, 1]⟩

abbrev nBuf : Space → Nat
  | .hbm => 246
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S1x640000, .i32⟩
  | 15 => ⟨S640000, .i32⟩
  | 16 => ⟨S1x640000, .i32⟩
  | 17 => ⟨S640000, .i32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .i1⟩
  | 25 => ⟨S_, .f32⟩
  | 26 => ⟨S100000x128, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .i1⟩
  | 36 => ⟨S_, .f32⟩
  | 37 => ⟨S100000x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .i1⟩
  | 47 => ⟨S_, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S_, .f32⟩
  | 63 => ⟨S640000, .f32⟩
  | 64 => ⟨S100000, .f32⟩
  | 65 => ⟨S_, .f32⟩
  | 66 => ⟨S100000, .f32⟩
  | 67 => ⟨S100000, .f32⟩
  | 68 => ⟨S100000, .f32⟩
  | 69 => ⟨S_, .i32⟩
  | 70 => ⟨S640000, .i32⟩
  | 71 => ⟨S640000, .i1⟩
  | 72 => ⟨S_, .i32⟩
  | 73 => ⟨S640000, .i32⟩
  | 74 => ⟨S640000, .i32⟩
  | 75 => ⟨S640000, .i32⟩
  | 76 => ⟨S640000x1, .i32⟩
  | 77 => ⟨S640000, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000, .f32⟩
  | 87 => ⟨S640000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x128, .f32⟩
  | 97 => ⟨S640000x1, .f32⟩
  | 98 => ⟨S640000x128, .f32⟩
  | 99 => ⟨S640000x128, .f32⟩
  | 100 => ⟨S_, .f32⟩
  | 101 => ⟨S100000x128, .f32⟩
  | 102 => ⟨S640000x1, .i32⟩
  | 103 => ⟨S100000x128, .f32⟩
  | 104 => ⟨S100000, .f32⟩
  | 105 => ⟨S100000x1, .f32⟩
  | 106 => ⟨S100000x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .i1⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S_, .f32⟩
  | 121 => ⟨S100000, .f32⟩
  | 122 => ⟨S_, .i32⟩
  | 123 => ⟨S640000, .i32⟩
  | 124 => ⟨S640000, .i1⟩
  | 125 => ⟨S_, .i32⟩
  | 126 => ⟨S640000, .i32⟩
  | 127 => ⟨S640000, .i32⟩
  | _ => ⟨S100000x128, .f32⟩

abbrev hbmTy0_1 (i : Nat) : BufTy := match i % 128 with
  | 0 => ⟨S640000, .i32⟩
  | 1 => ⟨S640000x1, .i32⟩
  | 2 => ⟨S_, .f32⟩
  | 3 => ⟨S640000, .f32⟩
  | 4 => ⟨S100000, .f32⟩
  | 5 => ⟨S_, .f32⟩
  | 6 => ⟨S100000, .f32⟩
  | 7 => ⟨S100000, .f32⟩
  | 8 => ⟨S100000, .f32⟩
  | 9 => ⟨S_, .i32⟩
  | 10 => ⟨S640000, .i32⟩
  | 11 => ⟨S640000, .i1⟩
  | 12 => ⟨S_, .i32⟩
  | 13 => ⟨S640000, .i32⟩
  | 14 => ⟨S640000, .i32⟩
  | 15 => ⟨S640000, .i32⟩
  | 16 => ⟨S640000x1, .i32⟩
  | 17 => ⟨S640000, .f32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000, .f32⟩
  | 27 => ⟨S640000, .f32⟩
  | 28 => ⟨S_, .i32⟩
  | 29 => ⟨S640000, .i32⟩
  | 30 => ⟨S640000, .i1⟩
  | 31 => ⟨S_, .i32⟩
  | 32 => ⟨S640000, .i32⟩
  | 33 => ⟨S640000, .i32⟩
  | 34 => ⟨S640000, .i32⟩
  | 35 => ⟨S640000x1, .i32⟩
  | 36 => ⟨S640000x128, .f32⟩
  | 37 => ⟨S640000x1, .f32⟩
  | 38 => ⟨S640000x128, .f32⟩
  | 39 => ⟨S640000x128, .f32⟩
  | 40 => ⟨S_, .f32⟩
  | 41 => ⟨S100000x128, .f32⟩
  | 42 => ⟨S640000x1, .i32⟩
  | 43 => ⟨S100000x128, .f32⟩
  | 44 => ⟨S100000, .f32⟩
  | 45 => ⟨S100000x1, .f32⟩
  | 46 => ⟨S100000x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S100000x1, .f32⟩
  | 60 => ⟨S_, .f32⟩
  | 61 => ⟨S100000, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S_, .f32⟩
  | 71 => ⟨S640000, .f32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S640000, .i32⟩
  | 79 => ⟨S640000, .i1⟩
  | 80 => ⟨S_, .i32⟩
  | 81 => ⟨S640000, .i32⟩
  | 82 => ⟨S640000, .i32⟩
  | 83 => ⟨S640000, .i32⟩
  | 84 => ⟨S640000x1, .i32⟩
  | 85 => ⟨S640000, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000, .f32⟩
  | 95 => ⟨S640000, .f32⟩
  | 96 => ⟨S_, .i32⟩
  | 97 => ⟨S640000, .i32⟩
  | 98 => ⟨S640000, .i1⟩
  | 99 => ⟨S_, .i32⟩
  | 100 => ⟨S640000, .i32⟩
  | 101 => ⟨S640000, .i32⟩
  | 102 => ⟨S640000, .i32⟩
  | 103 => ⟨S640000x1, .i32⟩
  | 104 => ⟨S640000x1, .f32⟩
  | 105 => ⟨S640000x1, .f32⟩
  | 106 => ⟨S640000x1, .f32⟩
  | 107 => ⟨S_, .f32⟩
  | 108 => ⟨S100000x1, .f32⟩
  | 109 => ⟨S640000x1, .i32⟩
  | 110 => ⟨S100000x1, .f32⟩
  | 111 => ⟨S100000, .f32⟩
  | 112 => ⟨S100000x1, .f32⟩
  | 113 => ⟨S100000x1, .f32⟩
  | 114 => ⟨S100000x1, .f32⟩
  | 115 => ⟨S1x1, .f32⟩
  | 116 => ⟨S100000x1, .f32⟩
  | 117 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_cst_0 : Ref sig .tc := ⟨.hbm, 36, rfl⟩
abbrev main_call1_v2 : Ref sig .tc := ⟨.hbm, 37, rfl⟩
abbrev main_call1_v3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_cst_0 : Ref sig .tc := ⟨.hbm, 47, rfl⟩
abbrev main_call2_v2 : Ref sig .tc := ⟨.hbm, 48, rfl⟩
abbrev main_call2_v3 : Ref sig .tc := ⟨.hbm, 49, rfl⟩
abbrev main_v18 : Ref sig .tc := ⟨.hbm, 50, rfl⟩
abbrev main_v19 : Ref sig .tc := ⟨.hbm, 51, rfl⟩
abbrev main_cst : Ref sig .tc := ⟨.hbm, 52, rfl⟩
abbrev main_v20 : Ref sig .tc := ⟨.hbm, 53, rfl⟩
abbrev main_c : Ref sig .tc := ⟨.hbm, 54, rfl⟩
abbrev main_v21 : Ref sig .tc := ⟨.hbm, 55, rfl⟩
abbrev main_v22 : Ref sig .tc := ⟨.hbm, 56, rfl⟩
abbrev main_c_0 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_1 : Ref sig .tc := ⟨.hbm, 62, rfl⟩
abbrev main_v27 : Ref sig .tc := ⟨.hbm, 63, rfl⟩
abbrev main_v28 : Ref sig .tc := ⟨.hbm, 64, rfl⟩
abbrev main_cst_2 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_c_3 : Ref sig .tc := ⟨.hbm, 69, rfl⟩
abbrev main_v32 : Ref sig .tc := ⟨.hbm, 70, rfl⟩
abbrev main_v33 : Ref sig .tc := ⟨.hbm, 71, rfl⟩
abbrev main_c_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_5 : Ref sig .tc := ⟨.hbm, 78, rfl⟩
abbrev main_v39 : Ref sig .tc := ⟨.hbm, 79, rfl⟩
abbrev main_v40 : Ref sig .tc := ⟨.hbm, 80, rfl⟩
abbrev main_c_6 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_7 : Ref sig .tc := ⟨.hbm, 88, rfl⟩
abbrev main_v47 : Ref sig .tc := ⟨.hbm, 89, rfl⟩
abbrev main_v48 : Ref sig .tc := ⟨.hbm, 90, rfl⟩
abbrev main_c_8 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_9 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_v68 : Ref sig .tc := ⟨.hbm, 118, rfl⟩
abbrev main_v69 : Ref sig .tc := ⟨.hbm, 119, rfl⟩
abbrev main_cst_10 : Ref sig .tc := ⟨.hbm, 120, rfl⟩
abbrev main_v70 : Ref sig .tc := ⟨.hbm, 121, rfl⟩
abbrev main_c_11 : Ref sig .tc := ⟨.hbm, 122, rfl⟩
abbrev main_v71 : Ref sig .tc := ⟨.hbm, 123, rfl⟩
abbrev main_v72 : Ref sig .tc := ⟨.hbm, 124, rfl⟩
abbrev main_c_12 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_13 : Ref sig .tc := ⟨.hbm, 130, rfl⟩
abbrev main_v77 : Ref sig .tc := ⟨.hbm, 131, rfl⟩
abbrev main_v78 : Ref sig .tc := ⟨.hbm, 132, rfl⟩
abbrev main_cst_14 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_c_15 : Ref sig .tc := ⟨.hbm, 137, rfl⟩
abbrev main_v82 : Ref sig .tc := ⟨.hbm, 138, rfl⟩
abbrev main_v83 : Ref sig .tc := ⟨.hbm, 139, rfl⟩
abbrev main_c_16 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_c_17 : Ref sig .tc := ⟨.hbm, 146, rfl⟩
abbrev main_v89 : Ref sig .tc := ⟨.hbm, 147, rfl⟩
abbrev main_v90 : Ref sig .tc := ⟨.hbm, 148, rfl⟩
abbrev main_c_18 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_c_19 : Ref sig .tc := ⟨.hbm, 156, rfl⟩
abbrev main_v97 : Ref sig .tc := ⟨.hbm, 157, rfl⟩
abbrev main_v98 : Ref sig .tc := ⟨.hbm, 158, rfl⟩
abbrev main_c_20 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_21 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_call4_cst : Ref sig .tc := ⟨.hbm, 180, rfl⟩
abbrev main_call4_v0 : Ref sig .tc := ⟨.hbm, 181, rfl⟩
abbrev main_call4_v1 : Ref sig .tc := ⟨.hbm, 182, rfl⟩
abbrev main_call4_cst_0 : Ref sig .tc := ⟨.hbm, 183, rfl⟩
abbrev main_call4_v2 : Ref sig .tc := ⟨.hbm, 184, rfl⟩
abbrev main_call4_v3 : Ref sig .tc := ⟨.hbm, 185, rfl⟩
abbrev main_v118 : Ref sig .tc := ⟨.hbm, 186, rfl⟩
abbrev main_v119 : Ref sig .tc := ⟨.hbm, 187, rfl⟩
abbrev main_cst_22 : Ref sig .tc := ⟨.hbm, 188, rfl⟩
abbrev main_v120 : Ref sig .tc := ⟨.hbm, 189, rfl⟩
abbrev main_c_23 : Ref sig .tc := ⟨.hbm, 190, rfl⟩
abbrev main_v121 : Ref sig .tc := ⟨.hbm, 191, rfl⟩
abbrev main_v122 : Ref sig .tc := ⟨.hbm, 192, rfl⟩
abbrev main_c_24 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_25 : Ref sig .tc := ⟨.hbm, 198, rfl⟩
abbrev main_v127 : Ref sig .tc := ⟨.hbm, 199, rfl⟩
abbrev main_v128 : Ref sig .tc := ⟨.hbm, 200, rfl⟩
abbrev main_cst_26 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_c_27 : Ref sig .tc := ⟨.hbm, 205, rfl⟩
abbrev main_v132 : Ref sig .tc := ⟨.hbm, 206, rfl⟩
abbrev main_v133 : Ref sig .tc := ⟨.hbm, 207, rfl⟩
abbrev main_c_28 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_c_29 : Ref sig .tc := ⟨.hbm, 214, rfl⟩
abbrev main_v139 : Ref sig .tc := ⟨.hbm, 215, rfl⟩
abbrev main_v140 : Ref sig .tc := ⟨.hbm, 216, rfl⟩
abbrev main_c_30 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_c_31 : Ref sig .tc := ⟨.hbm, 224, rfl⟩
abbrev main_v147 : Ref sig .tc := ⟨.hbm, 225, rfl⟩
abbrev main_v148 : Ref sig .tc := ⟨.hbm, 226, rfl⟩
abbrev main_c_32 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_cst_33 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S100000 : S_.BroadcastsInDim S100000 (![] : Fin 0 → Fin S100000.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x1_S100000x1_1_0_0_1_n_n_wf : DotDims.WF S100000x128 S128x1 S100000x1 [1] [0] [0] [1] [] []
  gather_S100000x1_S640000x1_S640000x1_1_0_n_n_0_1_11_wf : GatherDims.WF S100000x1 S640000x1 S640000x1 [1] [0] [] [0] [] 1 ![1, 1]
  scatter_S100000x1_S640000x1_S640000x1_1_0_0_1_wf : ScatterDims.WF S100000x1 S640000x1 S640000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S640000x1_S640000x1_1_0_n_n_0_1_11 : GatherDims S100000x1 S640000x1 S640000x1 where
  offsetDims := [1]
  collapsedSliceDims := [0]
  operandBatchingDims := []
  startIndicesBatchingDims := []
  startIndexMap := [0]
  indexVectorDim := 1
  sliceSizes := ![1, 1]
  wf := gather_S100000x1_S640000x1_S640000x1_1_0_n_n_0_1_11_wf
def scatter_S100000x1_S640000x1_S640000x1_1_0_0_1 : ScatterDims S100000x1 S640000x1 S640000x1 where
  updateWindowDims := [1]
  insertedWindowDims := [0]
  scatterDimsToOperandDims := [0]
  indexVectorDim := 1
  wf := scatter_S100000x1_S640000x1_S640000x1_1_0_0_1_wf

class Facts : Prop extends Facts₀ where

variable [Facts]
-- ==== Proof.KRun.lean ====
/-
  The kernel's program run with its result named: every weakly fair execution of @main terminates without a
  fault, the result array ends at the contents the last region's write-backs leave (the fold of the sixteen
  segments from the launch memory, read at the result buffer) and the argument arrays end as launched.
-/
import proofs.«130695_j11355893531404_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the sixteen segments, the last thread state read against the final state: the result buffer at
    the last boundary's contents, each argument back at its launch contents. -/
theorem run_named : θ_run defs (onTc (τ := τ) (main (F := F))) ⟨m, fun _ => 0, ρ⟩ (fun r => ∀ c : Dev nD,
      r.2.mem ((c.tc : Thread nD τ).loc main_v80) = W16 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v80 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.RunNamed

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The network both programs compute, as one function of the argument arrays, index by index, at the
  ideal values (extended reals).

  A dense layer is  act (x · W + b)  with  act y = y  if  y ≥ 0  and  slope · y  otherwise  (the slope the
  f32 word 0x3C23D70A); a graph-convolution layer is  act? (agg (x · W) + (x · W) · d² + b)  where  agg  sums,
  for every node, the normalised messages of its incoming edges and  d²  is the squared inverse square
  root of the node's degree.  The three graph-dependent pieces ( agg  on 128 columns,  agg  on one column,
   d² ) enter as parameters: they are the same host operations in both programs and are never opened.
-/
import Idealize.ShloMosaic.PureOps.Ideal
import Idealize.ShloMosaic.Lib.ValueIdx
import proofs.«130695_j11355893531404_1_alg».proof.Proof.LibMatmul

noncomputable section

open scoped BigOperators

namespace Cert.Gnn

open Idealize.ShloMosaic Idealize.ShloMosaic.ValueIdx Cert.LibMatmul

abbrev SNxD : Shape := ⟨2, ![100000, 128]⟩
abbrev SNx1 : Shape := ⟨2, ![100000, 1]⟩
abbrev SDxD : Shape := ⟨2, ![128, 128]⟩
abbrev SDx1 : Shape := ⟨2, ![128, 1]⟩
abbrev S1xD : Shape := ⟨2, ![1, 128]⟩
abbrev S1x1 : Shape := ⟨2, ![1, 1]⟩
abbrev SD : Shape := ⟨1, ![128]⟩
abbrev S1 : Shape := ⟨1, ![1]⟩

/-- The activation on one extended real: `y` where the float comparison `y ≥ 0` holds, `slope · y` elsewhere. -/
def act (y : EReal) : EReal :=
  Scalar.select (FloatOps.cmpf (F := Ideal) (φ := .f32) .oge y (Ideal.ofBits .f32 0x00000000#32)) y
    (Ideal.ofBits .f32 0x3C23D70A#32 * y)

/-- A bias vector laid out as one row. -/
def rowOf (b : SD.Idx → EReal) : S1xD.Idx → EReal := fun j => b (ix1 (j 1))

/-- A one-entry bias vector laid out as a 1×1 matrix. -/
def rowOf1 (b : S1.Idx → EReal) : S1x1.Idx → EReal := fun j => b (ix1 (j 1))

/-- A dense layer with activation: entry (p, q) is `act (∑ₖ x(p,k) · w(k,q) + r(0,q))`. -/
def dense (x : SNxD.Idx → EReal) (w : SDxD.Idx → EReal) (r : S1xD.Idx → EReal) : SNxD.Idx → EReal :=
  fun i => act (MM x w i + r (ix2 0 (i 1)))

/-- The node update of a graph layer with activation: entry (p, q) is
    `act (agg(p,q) + h(p,q) · d2(p,0) + r(0,q))`. -/
def comb (agg h : SNxD.Idx → EReal) (d2 : SNx1.Idx → EReal) (r : S1xD.Idx → EReal) : SNxD.Idx → EReal :=
  fun i => act (agg i + h i * d2 (ix2 (i 0) 0) + r (ix2 0 (i 1)))

/-- The node update of the last graph layer (one column, no activation): entry (p, 0) is
    `agg(p,0) + h(p,0) · d2(p,0) + r(0,0)`. -/
def comb1 (agg h d2 : SNx1.Idx → EReal) (r : S1x1.Idx → EReal) : SNx1.Idx → EReal :=
  fun i => agg i + h i * d2 i + r (ix2 0 (i 1))

/-- What depends on the graph: the neighbourhood sum on 128 columns and on one column, and the squared
    inverse square root of the degrees. -/
structure Graph where
  agg : (SNxD.Idx → EReal) → (SNxD.Idx → EReal)
  agg1 : (SNx1.Idx → EReal) → (SNx1.Idx → EReal)
  d2 : SNx1.Idx → EReal

/-- The whole network: three dense layers, two graph layers with activation, one without. -/
def net (g : Graph) (x : SNxD.Idx → EReal)
    (W1 : SDxD.Idx → EReal) (b1 : SD.Idx → EReal) (W2 : SDxD.Idx → EReal) (b2 : SD.Idx → EReal)
    (W3 : SDxD.Idx → EReal) (b3 : SD.Idx → EReal) (Wg0 : SDxD.Idx → EReal) (bg0 : SD.Idx → EReal)
    (Wg1 : SDxD.Idx → EReal) (bg1 : SD.Idx → EReal) (Wo : SDx1.Idx → EReal) (bo : S1.Idx → EReal) :
    SNx1.Idx → EReal :=
  let h1 := dense x W1 (rowOf b1)
  let h2 := dense h1 W2 (rowOf b2)
  let h3 := dense h2 W3 (rowOf b3)
  let l0 := MM h3 Wg0
  let h4 := comb (g.agg l0) l0 g.d2 (rowOf bg0)
  let l1 := MM h4 Wg1
  let h5 := comb (g.agg l1) l1 g.d2 (rowOf bg1)
  let l2 := MM h5 Wo
  comb1 (g.agg1 l2) l2 g.d2 (rowOf1 bo)

end Cert.Gnn

end
-- ==== Proof.GraphK.lean ====
/-
  The graph-dependent part of the network as the kernel's host program computes it from the edge array: the two index rows, the
  inverse square roots of the node degrees (a scatter-add of ones at the destination indices, plus one, under rsqrt),
  the edge coefficients (the product of the two gathered inverse roots), the neighbourhood sum of a feature array
  (gather the source rows, scale by the coefficients, scatter-add at the destinations) and the squared inverse roots
  as one column.  The degrees are scattered at the destination indices as they are.
-/
import proofs.«130695_j11355893531404_1_alg».proof.Proof.Gen.KernelIdeal
import proofs.«130695_j11355893531404_1_alg».proof.Proof.Spec

noncomputable section

namespace Cert.KernelIdeal.GraphDefs

open Cert.KernelIdeal Cert.KernelIdeal.Gen Idealize.ShloMosaic

/-- Row 0 of the edge array: the source node of every edge. -/
def srcOf (e : IVec S2x640000 32) : IVec S640000 32 :=
  shapeCast S640000 (extractStridedSlice S1x640000 ![0, 0] e slices_S2x640000_S1x640000_0_0) shapeCasts_S1x640000_S640000

/-- Row 1 of the edge array: the destination node of every edge. -/
def dstOf (e : IVec S2x640000 32) : IVec S640000 32 :=
  shapeCast S640000 (extractStridedSlice S1x640000 ![1, 0] e slices_S2x640000_S1x640000_1_0) shapeCasts_S1x640000_S640000

/-- A negative index counted from the end: `v + 100000` where `v < 0` (signed), `v` elsewhere. -/
def wrap (v : IVec S640000 32) : IVec S640000 32 :=
  select (cmpi .slt v (broadcastInDim S640000 ![] bcast_S_S640000 (constantI S_ 32 0#32)))
    (addi v (broadcastInDim S640000 ![] bcast_S_S640000 (constantI S_ 32 100000#32))) v

/-- A vector of indices as the one-column array a gather or scatter takes. -/
def col (v : IVec S640000 32) : IVec S640000x1 32 := broadcastInDim S640000x1 ![0] bcast_S640000_S640000x1_0 v

/-- The inverse square roots of the degrees (self-loop counted), from the column of indices the ones are scattered at. -/
def disOf (idx : IVec S640000x1 32) : FVec Ideal S100000 .f32 :=
  Host.rsqrt (addf
    (Host.scatterAdd scatter_S100000_S640000x1_S640000_n_0_0_1
      (broadcastInDim S100000 ![] bcast_S_S100000 (constant S_ .f32 0x00000000#32)) idx
      (broadcastInDim S640000 ![] bcast_S_S640000 (constant S_ .f32 0x3F800000#32)))
    (broadcastInDim S100000 ![] bcast_S_S100000 (constant S_ .f32 0x3F800000#32)))

/-- The coefficient of every edge: the inverse root at its source times the inverse root at its destination. -/
def coefOf (dis : FVec Ideal S100000 .f32) (s d : IVec S640000 32) : FVec Ideal S640000 .f32 :=
  mulf (Host.gather gather_S100000_S640000x1_S640000_n_0_n_n_0_1_1 dis (col (wrap s)))
    (Host.gather gather_S100000_S640000x1_S640000_n_0_n_n_0_1_1 dis (col (wrap d)))

/-- The neighbourhood sum of a 128-column feature array. -/
def aggOf (coef : FVec Ideal S640000 .f32) (s d : IVec S640000 32) (h : FVec Ideal S100000x128 .f32) : FVec Ideal S100000x128 .f32 :=
  Host.scatterAdd scatter_S100000x128_S640000x1_S640000x128_1_0_0_1
    (broadcastInDim S100000x128 ![] bcast_S_S100000x128 (constant S_ .f32 0x00000000#32)) (col d)
    (mulf (Host.gather gather_S100000x128_S640000x1_S640000x128_1_0_n_n_0_1_1128 h (col (wrap s)))
      (broadcastInDim S640000x128 ![0, 1] bcast_S640000x1_S640000x128_0_1 (broadcastInDim S640000x1 ![0] bcast_S640000_S640000x1_0 coef)))

/-- The neighbourhood sum of a one-column feature array. -/
def aggOf1 (coef : FVec Ideal S640000 .f32) (s d : IVec S640000 32) (h : FVec Ideal S100000x1 .f32) : FVec Ideal S100000x1 .f32 :=
  Host.scatterAdd scatter_S100000x1_S640000x1_S640000x1_1_0_0_1
    (broadcastInDim S100000x1 ![] bcast_S_S100000x1 (constant S_ .f32 0x00000000#32)) (col d)
    (mulf (Host.gather gather_S100000x1_S640000x1_S640000x1_1_0_n_n_0_1_11 h (col (wrap s)))
      (broadcastInDim S640000x1 ![0] bcast_S640000_S640000x1_0 coef))

/-- The squared inverse roots as one column. -/
def d2Of (dis : FVec Ideal S100000 .f32) : FVec Ideal S100000x1 .f32 :=
  shapeCast S100000x1 (mulf dis dis) shapeCasts_S100000_S100000x1

/-- The three graph-dependent pieces of the network, from the edge array. -/
def graph (e : IVec S2x640000 32) : Cert.Gnn.Graph :=
  let s := srcOf e
  let d := dstOf e
  let dis := disOf (col (d))
  let coef := coefOf dis s d
  { agg := aggOf coef s d, agg1 := aggOf1 coef s d, d2 := d2Of dis }

end Cert.KernelIdeal.GraphDefs

end
-- ==== Proof.KSteps.lean ====
/-
  How the buffer contents move from one segment boundary of the kernel's program to the next: a stretch of host
  operations changes only the buffers its operations write, a region only its output array.  From these steps: an
  argument array is at its launch contents at every boundary, the two index rows keep what the first stretch left,
  and the edge coefficients and squared inverse roots keep what the fourth stretch left.
-/
import proofs.«130695_j11355893531404_1_alg».proof.Proof.Gen.KernelIdeal.Frame

set_option maxRecDepth 16384

noncomputable section

namespace Cert.KernelIdeal.Steps

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The buffers host stretch 0 writes. -/
abbrev wr0 : List (Ref sig .tc) := [main_v0, main_v1, main_v2, main_v3, main_v4]
theorem wr0_sub : (hostOps0 : List (HloOp τ sig (Elt F))).Forall fun op => op.writes ⊆ ((wr0).map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers host stretch 1 writes. -/
abbrev wr1 : List (Ref sig .tc) := [main_v6]
theorem wr1_sub : (hostOps1 : List (HloOp τ sig (Elt F))).Forall fun op => op.writes ⊆ ((wr1).map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers host stretch 2 writes. -/
abbrev wr2 : List (Ref sig .tc) := [main_v8]
theorem wr2_sub : (hostOps2 : List (HloOp τ sig (Elt F))).Forall fun op => op.writes ⊆ ((wr2).map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers host stretch 3 writes. -/
abbrev wr3 : List (Ref sig .tc) := [main_cst, main_v10, main_cst_0, main_v11, main_v12, main_v13, main_cst_1, main_v14, main_v15, main_v16, main_c, main_v17, main_v18, main_c_2, main_v19, main_v20, main_v21, main_v22, main_v23, main_c_3, main_v24, main_v25, main_c_4, main_v26, main_v27, main_v28, main_v29, main_v30, main_v31, main_v32, main_v33]
theorem wr3_sub : (hostOps3 : List (HloOp τ sig (Elt F))).Forall fun op => op.writes ⊆ ((wr3).map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers host stretch 4 writes. -/
abbrev wr4 : List (Ref sig .tc) := [main_c_5, main_v35, main_v36, main_c_6, main_v37, main_v38, main_v39, main_v40, main_v41, main_v42, main_v43, main_v44, main_cst_7, main_v45, main_v46, main_v47, main_v48]
theorem wr4_sub : (hostOps4 : List (HloOp τ sig (Elt F))).Forall fun op => op.writes ⊆ ((wr4).map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers host stretch 6 writes. -/
abbrev wr6 : List (Ref sig .tc) := [main_c_8, main_v51, main_v52, main_c_9, main_v53, main_v54, main_v55, main_v56, main_v57, main_v58, main_v59, main_v60, main_cst_10, main_v61, main_v62, main_v63, main_v64]
theorem wr6_sub : (hostOps6 : List (HloOp τ sig (Elt F))).Forall fun op => op.writes ⊆ ((wr6).map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers host stretch 8 writes. -/
abbrev wr8 : List (Ref sig .tc) := [main_c_11, main_v67, main_v68, main_c_12, main_v69, main_v70, main_v71, main_v72, main_v73, main_v74, main_v75, main_cst_13, main_v76, main_v77, main_v78, main_v79]
theorem wr8_sub : (hostOps8 : List (HloOp τ sig (Elt F))).Forall fun op => op.writes ⊆ ((wr8).map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

theorem step1 (b : Ref sig .tc) (hb : b ∉ wr0) : W1 m ρ c (Proc.devRef .tc b) = W0 m ρ c (Proc.devRef .tc b) :=
  StableHlo.after_of_writes_sub (hostOps0 : List (HloOp τ sig (Elt F))) (W0 m ρ c) wr0_sub hb

theorem step2 (b : Ref sig .tc) (hb : b ≠ main_v5) : W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    have hw' : Pipeline.arrRef spec0 w = b := not_not.mp hw
    subst hw'
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hb

theorem step3 (b : Ref sig .tc) (hb : b ∉ wr1) : W3 m ρ c (Proc.devRef .tc b) = W2 m ρ c (Proc.devRef .tc b) :=
  StableHlo.after_of_writes_sub (hostOps1 : List (HloOp τ sig (Elt F))) (W2 m ρ c) wr1_sub hb

theorem step4 (b : Ref sig .tc) (hb : b ≠ main_v7) : W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    have hw' : Pipeline.arrRef spec1 w = b := not_not.mp hw
    subst hw'
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb

theorem step5 (b : Ref sig .tc) (hb : b ∉ wr2) : W5 m ρ c (Proc.devRef .tc b) = W4 m ρ c (Proc.devRef .tc b) :=
  StableHlo.after_of_writes_sub (hostOps2 : List (HloOp τ sig (Elt F))) (W4 m ρ c) wr2_sub hb

theorem step6 (b : Ref sig .tc) (hb : b ≠ main_v9) : W6 m ρ c (Proc.devRef .tc b) = W5 m ρ c (Proc.devRef .tc b) := by
  by_cases h : ∀ w, Pipeline.arrRef spec2 w ≠ b
  · exact W6_of_ne m ρ c b h
  · obtain ⟨w, hw⟩ := not_forall.mp h
    have hw' : Pipeline.arrRef spec2 w = b := not_not.mp hw
    subst hw'
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl hb

theorem step7 (b : Ref sig .tc) (hb : b ∉ wr3) : W7 m ρ c (Proc.devRef .tc b) = W6 m ρ c (Proc.devRef .tc b) :=
  StableHlo.after_of_writes_sub (hostOps3 : List (HloOp τ sig (Elt F))) (W6 m ρ c) wr3_sub hb

theorem step8 (b : Ref sig .tc) (hb : b ≠ main_v34) : W8 m ρ c (Proc.devRef .tc b) = W7 m ρ c (Proc.devRef .tc b) := by
  by_cases h : ∀ w, Pipeline.arrRef spec3 w ≠ b
  · exact W8_of_ne m ρ c b h
  · obtain ⟨w, hw⟩ := not_forall.mp h
    have hw' : Pipeline.arrRef spec3 w = b := not_not.mp hw
    subst hw'
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact absurd rfl hb

theorem step9 (b : Ref sig .tc) (hb : b ∉ wr4) : W9 m ρ c (Proc.devRef .tc b) = W8 m ρ c (Proc.devRef .tc b) :=
  StableHlo.after_of_writes_sub (hostOps4 : List (HloOp τ sig (Elt F))) (W8 m ρ c) wr4_sub hb

theorem step10 (b : Ref sig .tc) (hb : b ≠ main_v49) : W10 m ρ c (Proc.devRef .tc b) = W9 m ρ c (Proc.devRef .tc b) := by
  by_cases h : ∀ w, Pipeline.arrRef spec4 w ≠ b
  · exact W10_of_ne m ρ c b h
  · obtain ⟨w, hw⟩ := not_forall.mp h
    have hw' : Pipeline.arrRef spec4 w = b := not_not.mp hw
    subst hw'
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (W10_arr m ρ c 3).trans (((dat4 (V9 m ρ) c).arrAt_in 3 rfl _).trans (A_eq4 (V9 m ρ) c 3))
    | ⟨4, _⟩ => exact absurd rfl hb

theorem step11 (b : Ref sig .tc) (hb : b ≠ main_v50) : W11 m ρ c (Proc.devRef .tc b) = W10 m ρ c (Proc.devRef .tc b) := by
  by_cases h : ∀ w, Pipeline.arrRef spec5 w ≠ b
  · exact W11_of_ne m ρ c b h
  · obtain ⟨w, hw⟩ := not_forall.mp h
    have hw' : Pipeline.arrRef spec5 w = b := not_not.mp hw
    subst hw'
    match w with
    | ⟨0, _⟩ => exact (W11_arr m ρ c 0).trans (((dat5 (V10 m ρ) c).arrAt_in 0 rfl _).trans (A_eq5 (V10 m ρ) c 0))
    | ⟨1, _⟩ => exact (W11_arr m ρ c 1).trans (((dat5 (V10 m ρ) c).arrAt_in 1 rfl _).trans (A_eq5 (V10 m ρ) c 1))
    | ⟨2, _⟩ => exact absurd rfl hb

theorem step12 (b : Ref sig .tc) (hb : b ∉ wr6) : W12 m ρ c (Proc.devRef .tc b) = W11 m ρ c (Proc.devRef .tc b) :=
  StableHlo.after_of_writes_sub (hostOps6 : List (HloOp τ sig (Elt F))) (W11 m ρ c) wr6_sub hb

theorem step13 (b : Ref sig .tc) (hb : b ≠ main_v65) : W13 m ρ c (Proc.devRef .tc b) = W12 m ρ c (Proc.devRef .tc b) := by
  by_cases h : ∀ w, Pipeline.arrRef spec6 w ≠ b
  · exact W13_of_ne m ρ c b h
  · obtain ⟨w, hw⟩ := not_forall.mp h
    have hw' : Pipeline.arrRef spec6 w = b := not_not.mp hw
    subst hw'
    match w with
    | ⟨0, _⟩ => exact (W13_arr m ρ c 0).trans (((dat6 (V12 m ρ) c).arrAt_in 0 rfl _).trans (A_eq6 (V12 m ρ) c 0))
    | ⟨1, _⟩ => exact (W13_arr m ρ c 1).trans (((dat6 (V12 m ρ) c).arrAt_in 1 rfl _).trans (A_eq6 (V12 m ρ) c 1))
    | ⟨2, _⟩ => exact (W13_arr m ρ c 2).trans (((dat6 (V12 m ρ) c).arrAt_in 2 rfl _).trans (A_eq6 (V12 m ρ) c 2))
    | ⟨3, _⟩ => exact (W13_arr m ρ c 3).trans (((dat6 (V12 m ρ) c).arrAt_in 3 rfl _).trans (A_eq6 (V12 m ρ) c 3))
    | ⟨4, _⟩ => exact absurd rfl hb

theorem step14 (b : Ref sig .tc) (hb : b ≠ main_v66) : W14 m ρ c (Proc.devRef .tc b) = W13 m ρ c (Proc.devRef .tc b) := by
  by_cases h : ∀ w, Pipeline.arrRef spec7 w ≠ b
  · exact W14_of_ne m ρ c b h
  · obtain ⟨w, hw⟩ := not_forall.mp h
    have hw' : Pipeline.arrRef spec7 w = b := not_not.mp hw
    subst hw'
    match w with
    | ⟨0, _⟩ => exact (W14_arr m ρ c 0).trans (((dat7 (V13 m ρ) c).arrAt_in 0 rfl _).trans (A_eq7 (V13 m ρ) c 0))
    | ⟨1, _⟩ => exact (W14_arr m ρ c 1).trans (((dat7 (V13 m ρ) c).arrAt_in 1 rfl _).trans (A_eq7 (V13 m ρ) c 1))
    | ⟨2, _⟩ => exact absurd rfl hb

theorem step15 (b : Ref sig .tc) (hb : b ∉ wr8) : W15 m ρ c (Proc.devRef .tc b) = W14 m ρ c (Proc.devRef .tc b) :=
  StableHlo.after_of_writes_sub (hostOps8 : List (HloOp τ sig (Elt F))) (W14 m ρ c) wr8_sub hb

theorem step16 (b : Ref sig .tc) (hb : b ≠ main_v80) : W16 m ρ c (Proc.devRef .tc b) = W15 m ρ c (Proc.devRef .tc b) := by
  by_cases h : ∀ w, Pipeline.arrRef spec8 w ≠ b
  · exact W16_of_ne m ρ c b h
  · obtain ⟨w, hw⟩ := not_forall.mp h
    have hw' : Pipeline.arrRef spec8 w = b := not_not.mp hw
    subst hw'
    match w with
    | ⟨0, _⟩ => exact (W16_arr m ρ c 0).trans (((dat8 (V15 m ρ) c).arrAt_in 0 rfl _).trans (A_eq8 (V15 m ρ) c 0))
    | ⟨1, _⟩ => exact (W16_arr m ρ c 1).trans (((dat8 (V15 m ρ) c).arrAt_in 1 rfl _).trans (A_eq8 (V15 m ρ) c 1))
    | ⟨2, _⟩ => exact (W16_arr m ρ c 2).trans (((dat8 (V15 m ρ) c).arrAt_in 2 rfl _).trans (A_eq8 (V15 m ρ) c 2))
    | ⟨3, _⟩ => exact (W16_arr m ρ c 3).trans (((dat8 (V15 m ρ) c).arrAt_in 3 rfl _).trans (A_eq8 (V15 m ρ) c 3))
    | ⟨4, _⟩ => exact absurd rfl hb

/-- The argument arrays. -/
abbrev args : List (Ref sig .tc) := [main_arg0, main_arg1, main_arg2, main_arg3, main_arg4, main_arg5, main_arg6, main_arg7, main_arg8, main_arg9, main_arg10, main_arg11, main_arg12, main_arg13]

theorem arg_at0 (b : Ref sig .tc) (hb : b ∈ args) : W0 m ρ c (Proc.devRef .tc b) = m ((c : Thread nD τ).loc b) := rfl
theorem arg_at1 (b : Ref sig .tc) (hb : b ∈ args) : W1 m ρ c (Proc.devRef .tc b) = m ((c : Thread nD τ).loc b) :=
  (step1 m ρ c b ((by decide : ∀ b ∈ args, b ∉ wr0) b hb)).trans (arg_at0 m ρ c b hb)
theorem arg_at2 (b : Ref sig .tc) (hb : b ∈ args) : W2 m ρ c (Proc.devRef .tc b) = m ((c : Thread nD τ).loc b) :=
  (step2 m ρ c b ((by decide : ∀ b ∈ args, b ≠ main_v5) b hb)).trans (arg_at1 m ρ c b hb)
theorem arg_at3 (b : Ref sig .tc) (hb : b ∈ args) : W3 m ρ c (Proc.devRef .tc b) = m ((c : Thread nD τ).loc b) :=
  (step3 m ρ c b ((by decide : ∀ b ∈ args, b ∉ wr1) b hb)).trans (arg_at2 m ρ c b hb)
theorem arg_at4 (b : Ref sig .tc) (hb : b ∈ args) : W4 m ρ c (Proc.devRef .tc b) = m ((c : Thread nD τ).loc b) :=
  (step4 m ρ c b ((by decide : ∀ b ∈ args, b ≠ main_v7) b hb)).trans (arg_at3 m ρ c b hb)
theorem arg_at5 (b : Ref sig .tc) (hb : b ∈ args) : W5 m ρ c (Proc.devRef .tc b) = m ((c : Thread nD τ).loc b) :=
  (step5 m ρ c b ((by decide : ∀ b ∈ args, b ∉ wr2) b hb)).trans (arg_at4 m ρ c b hb)
theorem arg_at6 (b : Ref sig .tc) (hb : b ∈ args) : W6 m ρ c (Proc.devRef .tc b) = m ((c : Thread nD τ).loc b) :=
  (step6 m ρ c b ((by decide : ∀ b ∈ args, b ≠ main_v9) b hb)).trans (arg_at5 m ρ c b hb)
theorem arg_at7 (b : Ref sig .tc) (hb : b ∈ args) : W7 m ρ c (Proc.devRef .tc b) = m ((c : Thread nD τ).loc b) :=
  (step7 m ρ c b ((by decide : ∀ b ∈ args, b ∉ wr3) b hb)).trans (arg_at6 m ρ c b hb)
theorem arg_at8 (b : Ref sig .tc) (hb : b ∈ args) : W8 m ρ c (Proc.devRef .tc b) = m ((c : Thread nD τ).loc b) :=
  (step8 m ρ c b ((by decide : ∀ b ∈ args, b ≠ main_v34) b hb)).trans (arg_at7 m ρ c b hb)
theorem arg_at9 (b : Ref sig .tc) (hb : b ∈ args) : W9 m ρ c (Proc.devRef .tc b) = m ((c : Thread nD τ).loc b) :=
  (step9 m ρ c b ((by decide : ∀ b ∈ args, b ∉ wr4) b hb)).trans (arg_at8 m ρ c b hb)
theorem arg_at10 (b : Ref sig .tc) (hb : b ∈ args) : W10 m ρ c (Proc.devRef .tc b) = m ((c : Thread nD τ).loc b) :=
  (step10 m ρ c b ((by decide : ∀ b ∈ args, b ≠ main_v49) b hb)).trans (arg_at9 m ρ c b hb)
theorem arg_at11 (b : Ref sig .tc) (hb : b ∈ args) : W11 m ρ c (Proc.devRef .tc b) = m ((c : Thread nD τ).loc b) :=
  (step11 m ρ c b ((by decide : ∀ b ∈ args, b ≠ main_v50) b hb)).trans (arg_at10 m ρ c b hb)
theorem arg_at12 (b : Ref sig .tc) (hb : b ∈ args) : W12 m ρ c (Proc.devRef .tc b) = m ((c : Thread nD τ).loc b) :=
  (step12 m ρ c b ((by decide : ∀ b ∈ args, b ∉ wr6) b hb)).trans (arg_at11 m ρ c b hb)
theorem arg_at13 (b : Ref sig .tc) (hb : b ∈ args) : W13 m ρ c (Proc.devRef .tc b) = m ((c : Thread nD τ).loc b) :=
  (step13 m ρ c b ((by decide : ∀ b ∈ args, b ≠ main_v65) b hb)).trans (arg_at12 m ρ c b hb)
theorem arg_at14 (b : Ref sig .tc) (hb : b ∈ args) : W14 m ρ c (Proc.devRef .tc b) = m ((c : Thread nD τ).loc b) :=
  (step14 m ρ c b ((by decide : ∀ b ∈ args, b ≠ main_v66) b hb)).trans (arg_at13 m ρ c b hb)
theorem arg_at15 (b : Ref sig .tc) (hb : b ∈ args) : W15 m ρ c (Proc.devRef .tc b) = m ((c : Thread nD τ).loc b) :=
  (step15 m ρ c b ((by decide : ∀ b ∈ args, b ∉ wr8) b hb)).trans (arg_at14 m ρ c b hb)
theorem arg_at16 (b : Ref sig .tc) (hb : b ∈ args) : W16 m ρ c (Proc.devRef .tc b) = m ((c : Thread nD τ).loc b) :=
  (step16 m ρ c b ((by decide : ∀ b ∈ args, b ≠ main_v80) b hb)).trans (arg_at15 m ρ c b hb)

/-- The two index rows: written by the first stretch only. -/
abbrev rows : List (Ref sig .tc) := [main_v1, main_v3]
theorem rows_at1 (b : Ref sig .tc) (hb : b ∈ rows) : W1 m ρ c (Proc.devRef .tc b) = W1 m ρ c (Proc.devRef .tc b) := rfl
theorem rows_at2 (b : Ref sig .tc) (hb : b ∈ rows) : W2 m ρ c (Proc.devRef .tc b) = W1 m ρ c (Proc.devRef .tc b) :=
  (step2 m ρ c b ((by decide : ∀ b ∈ rows, b ≠ main_v5) b hb)).trans (rows_at1 m ρ c b hb)
theorem rows_at3 (b : Ref sig .tc) (hb : b ∈ rows) : W3 m ρ c (Proc.devRef .tc b) = W1 m ρ c (Proc.devRef .tc b) :=
  (step3 m ρ c b ((by decide : ∀ b ∈ rows, b ∉ wr1) b hb)).trans (rows_at2 m ρ c b hb)
theorem rows_at4 (b : Ref sig .tc) (hb : b ∈ rows) : W4 m ρ c (Proc.devRef .tc b) = W1 m ρ c (Proc.devRef .tc b) :=
  (step4 m ρ c b ((by decide : ∀ b ∈ rows, b ≠ main_v7) b hb)).trans (rows_at3 m ρ c b hb)
theorem rows_at5 (b : Ref sig .tc) (hb : b ∈ rows) : W5 m ρ c (Proc.devRef .tc b) = W1 m ρ c (Proc.devRef .tc b) :=
  (step5 m ρ c b ((by decide : ∀ b ∈ rows, b ∉ wr2) b hb)).trans (rows_at4 m ρ c b hb)
theorem rows_at6 (b : Ref sig .tc) (hb : b ∈ rows) : W6 m ρ c (Proc.devRef .tc b) = W1 m ρ c (Proc.devRef .tc b) :=
  (step6 m ρ c b ((by decide : ∀ b ∈ rows, b ≠ main_v9) b hb)).trans (rows_at5 m ρ c b hb)
theorem rows_at7 (b : Ref sig .tc) (hb : b ∈ rows) : W7 m ρ c (Proc.devRef .tc b) = W1 m ρ c (Proc.devRef .tc b) :=
  (step7 m ρ c b ((by decide : ∀ b ∈ rows, b ∉ wr3) b hb)).trans (rows_at6 m ρ c b hb)
theorem rows_at8 (b : Ref sig .tc) (hb : b ∈ rows) : W8 m ρ c (Proc.devRef .tc b) = W1 m ρ c (Proc.devRef .tc b) :=
  (step8 m ρ c b ((by decide : ∀ b ∈ rows, b ≠ main_v34) b hb)).trans (rows_at7 m ρ c b hb)
theorem rows_at9 (b : Ref sig .tc) (hb : b ∈ rows) : W9 m ρ c (Proc.devRef .tc b) = W1 m ρ c (Proc.devRef .tc b) :=
  (step9 m ρ c b ((by decide : ∀ b ∈ rows, b ∉ wr4) b hb)).trans (rows_at8 m ρ c b hb)
theorem rows_at10 (b : Ref sig .tc) (hb : b ∈ rows) : W10 m ρ c (Proc.devRef .tc b) = W1 m ρ c (Proc.devRef .tc b) :=
  (step10 m ρ c b ((by decide : ∀ b ∈ rows, b ≠ main_v49) b hb)).trans (rows_at9 m ρ c b hb)
theorem rows_at11 (b : Ref sig .tc) (hb : b ∈ rows) : W11 m ρ c (Proc.devRef .tc b) = W1 m ρ c (Proc.devRef .tc b) :=
  (step11 m ρ c b ((by decide : ∀ b ∈ rows, b ≠ main_v50) b hb)).trans (rows_at10 m ρ c b hb)
theorem rows_at12 (b : Ref sig .tc) (hb : b ∈ rows) : W12 m ρ c (Proc.devRef .tc b) = W1 m ρ c (Proc.devRef .tc b) :=
  (step12 m ρ c b ((by decide : ∀ b ∈ rows, b ∉ wr6) b hb)).trans (rows_at11 m ρ c b hb)
theorem rows_at13 (b : Ref sig .tc) (hb : b ∈ rows) : W13 m ρ c (Proc.devRef .tc b) = W1 m ρ c (Proc.devRef .tc b) :=
  (step13 m ρ c b ((by decide : ∀ b ∈ rows, b ≠ main_v65) b hb)).trans (rows_at12 m ρ c b hb)
theorem rows_at14 (b : Ref sig .tc) (hb : b ∈ rows) : W14 m ρ c (Proc.devRef .tc b) = W1 m ρ c (Proc.devRef .tc b) :=
  (step14 m ρ c b ((by decide : ∀ b ∈ rows, b ≠ main_v66) b hb)).trans (rows_at13 m ρ c b hb)

/-- The edge coefficients and the squared inverse roots: written by the fourth stretch only. -/
abbrev norms : List (Ref sig .tc) := [main_v31, main_v33]
theorem norms_at7 (b : Ref sig .tc) (hb : b ∈ norms) : W7 m ρ c (Proc.devRef .tc b) = W7 m ρ c (Proc.devRef .tc b) := rfl
theorem norms_at8 (b : Ref sig .tc) (hb : b ∈ norms) : W8 m ρ c (Proc.devRef .tc b) = W7 m ρ c (Proc.devRef .tc b) :=
  (step8 m ρ c b ((by decide : ∀ b ∈ norms, b ≠ main_v34) b hb)).trans (norms_at7 m ρ c b hb)
theorem norms_at9 (b : Ref sig .tc) (hb : b ∈ norms) : W9 m ρ c (Proc.devRef .tc b) = W7 m ρ c (Proc.devRef .tc b) :=
  (step9 m ρ c b ((by decide : ∀ b ∈ norms, b ∉ wr4) b hb)).trans (norms_at8 m ρ c b hb)
theorem norms_at10 (b : Ref sig .tc) (hb : b ∈ norms) : W10 m ρ c (Proc.devRef .tc b) = W7 m ρ c (Proc.devRef .tc b) :=
  (step10 m ρ c b ((by decide : ∀ b ∈ norms, b ≠ main_v49) b hb)).trans (norms_at9 m ρ c b hb)
theorem norms_at11 (b : Ref sig .tc) (hb : b ∈ norms) : W11 m ρ c (Proc.devRef .tc b) = W7 m ρ c (Proc.devRef .tc b) :=
  (step11 m ρ c b ((by decide : ∀ b ∈ norms, b ≠ main_v50) b hb)).trans (norms_at10 m ρ c b hb)
theorem norms_at12 (b : Ref sig .tc) (hb : b ∈ norms) : W12 m ρ c (Proc.devRef .tc b) = W7 m ρ c (Proc.devRef .tc b) :=
  (step12 m ρ c b ((by decide : ∀ b ∈ norms, b ∉ wr6) b hb)).trans (norms_at11 m ρ c b hb)
theorem norms_at13 (b : Ref sig .tc) (hb : b ∈ norms) : W13 m ρ c (Proc.devRef .tc b) = W7 m ρ c (Proc.devRef .tc b) :=
  (step13 m ρ c b ((by decide : ∀ b ∈ norms, b ≠ main_v65) b hb)).trans (norms_at12 m ρ c b hb)
theorem norms_at14 (b : Ref sig .tc) (hb : b ∈ norms) : W14 m ρ c (Proc.devRef .tc b) = W7 m ρ c (Proc.devRef .tc b) :=
  (step14 m ρ c b ((by decide : ∀ b ∈ norms, b ≠ main_v66) b hb)).trans (norms_at13 m ρ c b hb)
theorem norms_at15 (b : Ref sig .tc) (hb : b ∈ norms) : W15 m ρ c (Proc.devRef .tc b) = W7 m ρ c (Proc.devRef .tc b) :=
  (step15 m ρ c b ((by decide : ∀ b ∈ norms, b ∉ wr8) b hb)).trans (norms_at14 m ρ c b hb)

end Cert.KernelIdeal.Steps

end
-- ==== Proof.RegDense0.lean ====
/-
  Region 0 of the kernel, a dense layer with activation: each of the twenty grid points multiplies a block of
  5000 rows of the left operand by the whole weight matrix, adds the bias row and applies the activation, and
  writes the block back; the blocks tile the output array, which therefore ends as the dense layer of the whole
  input arrays.
-/
import proofs.«130695_j11355893531404_1_alg».proof.Proof.Gen.KernelIdeal.Frame
import proofs.«130695_j11355893531404_1_alg».proof.Proof.Spec
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HA

theorem hz0 : (![0, 0] : Fin 2 → Nat) = fun _ => 0 := funext fun a => by fin_cases a <;> rfl

/-- The body's arithmetic at one entry of the block: the activation of the matrix product plus the bias row. -/
theorem pay0 (x0 : Vec Ideal S5000x128 .f32) (x1 : Vec Ideal S128x128 .f32) (x2 : Vec Ideal S1x128 .f32)
    (p : Fin 5000) (q : Fin 128) :
    k0_pay1 x0 x1 x2 (ix2 p q) = Cert.Gnn.act (Cert.LibMatmul.MM x0 x1 (ix2 p q) + x2 (ix2 0 q)) := by
  have hmm : matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) = Cert.LibMatmul.MM x0 x1 :=
    Cert.LibMatmul.matmul_zero_eq dot_S5000x128_S128x128_S5000x128_1_0_0_1_n_n rfl rfl rfl rfl rfl rfl none _ _
  have hb : broadcastTo S5000x128 x2 broadcasts_S1x128_S5000x128 (ix2 p q) = x2 (ix2 0 q) := by
    refine broadcastTo_apply _ _ _ _ fun a => ?_
    match a with
    | ⟨0, _⟩ => rfl
    | ⟨1, _⟩ => rfl
  unfold k0_pay1 Cert.Gnn.act
  simp only [shapeCast_self]
  rw [hmm]
  rw [select_apply, cmpf_apply, mulf_apply, addf_apply, hb]
  rfl

variable (V : (c : Dev nD) → (b : Ref sig .tc) → Buf (Elt Ideal) ((c : Thread nD τ).loc b)) (c : Dev nD)

/-- The printed index maps over the grid: the row-block windows sit at block (t, 0), the weight and bias windows at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at point t is rows 5000·t … 5000·t + 4999 of its array. -/
theorem rd0_0 (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -⟩ := idx0 t
  unfold iblk0
  rw [View.read_apply]
  show V c main_arg0 _ = V c main_arg0 _
  congr 1
  funext a; apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight window's block at every point is the whole weight array. -/
theorem rd0_1 (t : Fin cfg0.N) (y : S128x128.Idx) :
    (iblk0 V c 1 t : Vec Ideal S128x128 .f32) y = (V c main_arg2 : S128x128.Idx → EReal) y := by
  obtain ⟨-, -, e0, e1, -⟩ := idx0 t
  unfold iblk0
  rw [View.read_apply]
  show V c main_arg2 _ = V c main_arg2 _
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias window's block at every point is the whole bias row. -/
theorem rd0_2 (t : Fin cfg0.N) (y : S1x128.Idx) :
    (iblk0 V c 2 t : Vec Ideal S1x128 .f32) y = (V c main_v4 : S1x128.Idx → EReal) y := by
  obtain ⟨-, -, -, -, e0, e1, -⟩ := idx0 t
  unfold iblk0
  rw [View.read_apply]
  show V c main_v4 _ = V c main_v4 _
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point t writes back is block t of the dense layer of the arrays as the region finds them. -/
theorem flushed0_eq (t : Fin cfg0.N) :
    (dat0 (F := Ideal) V c).flushed 3 t = ((cfg0.win 3).blk t).view.read (Elt Ideal)
      (Cert.Gnn.dense (V c main_arg0) (V c main_arg2) (V c main_v4)) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S1x128) hz0]
  funext j
  obtain ⟨p, q, rfl⟩ : ∃ (p : Fin 5000) (q : Fin 128), j = ix2 p q := ⟨j 0, j 1, eq_ix2 j⟩
  refine (pay0 _ _ _ p q).trans ?_
  obtain ⟨-, -, -, -, -, -, e0, e1⟩ := idx0 t
  have hN : t.val < 20 := Nat.lt_of_lt_of_eq t.isLt N_0
  have hp : p.val < 5000 := p.isLt
  have hemb : ((cfg0.win 3).blk t).view.emb (ix2 p q) = (ix2 ⟨t.val * 5000 + p.val, by omega⟩ q : S100000x128.Idx) := by
    funext a; apply Fin.ext
    match a with
    | ⟨0, _⟩ => show win0_3.index t (0 : Fin 2) * 5000 + 1 * p.val = t.val * 5000 + p.val; rw [e0]; omega
    | ⟨1, _⟩ => show win0_3.index t (1 : Fin 2) * 128 + 1 * q.val = q.val; rw [e1]; omega
  show _ = Cert.Gnn.dense (V c main_arg0) (V c main_arg2) (V c main_v4) (((cfg0.win 3).blk t).view.emb (ix2 p q))
  rw [hemb]
  show Cert.Gnn.act (_ + _) = Cert.Gnn.act (_ + _)
  refine congrArg Cert.Gnn.act (congrArg₂ (· + ·) ?_ ?_)
  · rw [Cert.LibMatmul.MM_apply, Cert.LibMatmul.MM_apply]
    exact Finset.sum_congr rfl fun k _ => by
      rw [rd0_0 V c t (ix2 p k) (ix2 ⟨t.val * 5000 + p.val, by omega⟩ k) rfl rfl, rd0_1 V c t (ix2 k q)]
  · exact rd0_2 V c t (ix2 0 q)

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Row r of the output array is in the block of point r / 5000: the twenty row blocks tile the array. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (by omega) N_0.symm⟩, rfl⟩
  obtain ⟨-, -, -, -, -, -, e0, e1⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0]; omega
  | ⟨1, _⟩ =>
    show win0_3.index t (1 : Fin 2) * 128 ≤ (i 1).val ∧ (i 1).val < win0_3.index t (1 : Fin 2) * 128 + 128
    rw [e1]; omega

end HA

variable (V : (c : Dev nD) → (b : Ref sig .tc) → Buf (Elt Ideal) ((c : Thread nD τ).loc b)) (c : Dev nD)

/-- After the region the output array is the dense layer of the input arrays as the region finds them. -/
theorem final0 : (dat0 (F := Ideal) V c).arrAt 3 cfg0.N = Cert.Gnn.dense (V c main_arg0) (V c main_arg2) (V c main_v4) :=
  (dat0 V c).arrAt_eq_of_cover 3 (Cert.Gnn.dense (V c main_arg0) (V c main_arg2) (V c main_v4))
    (fun t _ => HA.flushed0_eq V c t) HA.cover0

end Cert.KernelIdeal.Regions

end
-- ==== Proof.RegDense1.lean ====
/-
  Region 1 of the kernel, a dense layer with activation: each of the twenty grid points multiplies a block of
  5000 rows of the left operand by the whole weight matrix, adds the bias row and applies the activation, and
  writes the block back; the blocks tile the output array, which therefore ends as the dense layer of the whole
  input arrays.
-/
import proofs.«130695_j11355893531404_1_alg».proof.Proof.Gen.KernelIdeal.Frame
import proofs.«130695_j11355893531404_1_alg».proof.Proof.Spec
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HA

theorem hz1 : (![0, 0] : Fin 2 → Nat) = fun _ => 0 := funext fun a => by fin_cases a <;> rfl

/-- The body's arithmetic at one entry of the block: the activation of the matrix product plus the bias row. -/
theorem pay1 (x0 : Vec Ideal S5000x128 .f32) (x1 : Vec Ideal S128x128 .f32) (x2 : Vec Ideal S1x128 .f32)
    (p : Fin 5000) (q : Fin 128) :
    k1_pay1 x0 x1 x2 (ix2 p q) = Cert.Gnn.act (Cert.LibMatmul.MM x0 x1 (ix2 p q) + x2 (ix2 0 q)) := by
  have hmm : matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) = Cert.LibMatmul.MM x0 x1 :=
    Cert.LibMatmul.matmul_zero_eq dot_S5000x128_S128x128_S5000x128_1_0_0_1_n_n rfl rfl rfl rfl rfl rfl none _ _
  have hb : broadcastTo S5000x128 x2 broadcasts_S1x128_S5000x128 (ix2 p q) = x2 (ix2 0 q) := by
    refine broadcastTo_apply _ _ _ _ fun a => ?_
    match a with
    | ⟨0, _⟩ => rfl
    | ⟨1, _⟩ => rfl
  unfold k1_pay1 Cert.Gnn.act
  simp only [shapeCast_self]
  rw [hmm]
  rw [select_apply, cmpf_apply, mulf_apply, addf_apply, hb]
  rfl

variable (V : (c : Dev nD) → (b : Ref sig .tc) → Buf (Elt Ideal) ((c : Thread nD τ).loc b)) (c : Dev nD)

/-- The printed index maps over the grid: the row-block windows sit at block (t, 0), the weight and bias windows at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left operand's block at point t is rows 5000·t … 5000·t + 4999 of its array. -/
theorem rd1_0 (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v5 : S100000x128.Idx → EReal) i := by
  obtain ⟨e0, e1, -⟩ := idx1 t
  unfold iblk1
  rw [View.read_apply]
  show V c main_v5 _ = V c main_v5 _
  congr 1
  funext a; apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight window's block at every point is the whole weight array. -/
theorem rd1_1 (t : Fin cfg1.N) (y : S128x128.Idx) :
    (iblk1 V c 1 t : Vec Ideal S128x128 .f32) y = (V c main_arg4 : S128x128.Idx → EReal) y := by
  obtain ⟨-, -, e0, e1, -⟩ := idx1 t
  unfold iblk1
  rw [View.read_apply]
  show V c main_arg4 _ = V c main_arg4 _
  congr 1
  funext a; apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias window's block at every point is the whole bias row. -/
theorem rd1_2 (t : Fin cfg1.N) (y : S1x128.Idx) :
    (iblk1 V c 2 t : Vec Ideal S1x128 .f32) y = (V c main_v6 : S1x128.Idx → EReal) y := by
  obtain ⟨-, -, -, -, e0, e1, -⟩ := idx1 t
  unfold iblk1
  rw [View.read_apply]
  show V c main_v6 _ = V c main_v6 _
  congr 1
  funext a; apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What point t writes back is block t of the dense layer of the arrays as the region finds them. -/
theorem flushed1_eq (t : Fin cfg1.N) :
    (dat1 (F := Ideal) V c).flushed 3 t = ((cfg1.win 3).blk t).view.read (Elt Ideal)
      (Cert.Gnn.dense (V c main_v5) (V c main_arg4) (V c main_v6)) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S128x128) hz1, View.ld_unit_zero (S := S1x128) hz1]
  funext j
  obtain ⟨p, q, rfl⟩ : ∃ (p : Fin 5000) (q : Fin 128), j = ix2 p q := ⟨j 0, j 1, eq_ix2 j⟩
  refine (pay1 _ _ _ p q).trans ?_
  obtain ⟨-, -, -, -, -, -, e0, e1⟩ := idx1 t
  have hN : t.val < 20 := Nat.lt_of_lt_of_eq t.isLt N_1
  have hp : p.val < 5000 := p.isLt
  have hemb : ((cfg1.win 3).blk t).view.emb (ix2 p q) = (ix2 ⟨t.val * 5000 + p.val, by omega⟩ q : S100000x128.Idx) := by
    funext a; apply Fin.ext
    match a with
    | ⟨0, _⟩ => show win1_3.index t (0 : Fin 2) * 5000 + 1 * p.val = t.val * 5000 + p.val; rw [e0]; omega
    | ⟨1, _⟩ => show win1_3.index t (1 : Fin 2) * 128 + 1 * q.val = q.val; rw [e1]; omega
  show _ = Cert.Gnn.dense (V c main_v5) (V c main_arg4) (V c main_v6) (((cfg1.win 3).blk t).view.emb (ix2 p q))
  rw [hemb]
  show Cert.Gnn.act (_ + _) = Cert.Gnn.act (_ + _)
  refine congrArg Cert.Gnn.act (congrArg₂ (· + ·) ?_ ?_)
  · rw [Cert.LibMatmul.MM_apply, Cert.LibMatmul.MM_apply]
    exact Finset.sum_congr rfl fun k _ => by
      rw [rd1_0 V c t (ix2 p k) (ix2 ⟨t.val * 5000 + p.val, by omega⟩ k) rfl rfl, rd1_1 V c t (ix2 k q)]
  · exact rd1_2 V c t (ix2 0 q)

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v7).slice (win1_3.rect t)).set ↔ _
  rw [View.set_slice_whole, Rect.mem_set_unit]
  exact Iff.rfl

/-- Row r of the output array is in the block of point r / 5000: the twenty row blocks tile the array. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, Nat.lt_of_lt_of_eq (by omega) N_1.symm⟩, rfl⟩
  obtain ⟨-, -, -, -, -, -, e0, e1⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0]; omega
  | ⟨1, _⟩ =>
    show win1_3.index t (1 : Fin 2) * 128 ≤ (i 1).val ∧ (i 1).val < win1_3.index t (1 : Fin 2) * 128 + 128
    rw [e1]; omega

end HA

variable (V : (c : Dev nD) → (b : Ref sig .tc) → Buf (Elt Ideal) ((c : Thread nD τ).loc b)) (c : Dev nD)

/-- After the region the output array is the dense layer of the input arrays as the region finds them. -/
theorem final1 : (dat1 (F := Ideal) V c).arrAt 3 cfg1.N = Cert.Gnn.dense (V c main_v5) (V c main_arg4) (V c main_v6) :=
  (dat1 V c).arrAt_eq_of_cover 3 (Cert.Gnn.dense (V c main_v5) (V c main_arg4) (V c main_v6))
    (fun t _ => HA.flushed1_eq V c t) HA.cover1

end Cert.KernelIdeal.Regions

end
-- ==== Proof.RegDense2.lean ====
/-
  Region 2 of the kernel, a dense layer with activation: each of the twenty grid points multiplies a block of
  5000 rows of the left operand by the whole weight matrix, adds the bias row and applies the activation, and
  writes the block back; the blocks tile the output array, which therefore ends as the dense layer of the whole
  input arrays.
-/
import proofs.«130695_j11355893531404_1_alg».proof.Proof.Gen.KernelIdeal.Frame
import proofs.«130695_j11355893531404_1_alg».proof.Proof.Spec
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HA

theorem hz2 : (![0, 0] : Fin 2 → Nat) = fun _ => 0 := funext fun a => by fin_cases a <;> rfl

/-- The body's arithmetic at one entry of the block: the activation of the matrix product plus the bias row. -/
theorem pay2 (x0 : Vec Ideal S5000x128 .f32) (x1 : Vec Ideal S128x128 .f32) (x2 : Vec Ideal S1x128 .f32)
    (p : Fin 5000) (q : Fin 128) :
    k2_pay1 x0 x1 x2 (ix2 p q) = Cert.Gnn.act (Cert.LibMatmul.MM x0 x1 (ix2 p q) + x2 (ix2 0 q)) := by
  have hmm : matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) = Cert.LibMatmul.MM x0 x1 :=
    Cert.LibMatmul.matmul_zero_eq dot_S5000x128_S128x128_S5000x128_1_0_0_1_n_n rfl rfl rfl rfl rfl rfl none _ _
  have hb : broadcastTo S5000x128 x2 broadcasts_S1x128_S5000x128 (ix2 p q) = x2 (ix2 0 q) := by
    refine broadcastTo_apply _ _ _ _ fun a => ?_
    match a with
    | ⟨0, _⟩ => rfl
    | ⟨1, _⟩ => rfl
  unfold k2_pay1 Cert.Gnn.act
  simp only [shapeCast_self]
  rw [hmm]
  rw [select_apply, cmpf_apply, mulf_apply, addf_apply, hb]
  rfl

variable (V : (c : Dev nD) → (b : Ref sig .tc) → Buf (Elt Ideal) ((c : Thread nD τ).loc b)) (c : Dev nD)

/-- The printed index maps over the grid: the row-block windows sit at block (t, 0), the weight and bias windows at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point t is rows 5000·t … 5000·t + 4999 of its array. -/
theorem rd2_0 (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v7 : S100000x128.Idx → EReal) i := by
  obtain ⟨e0, e1, -⟩ := idx2 t
  unfold iblk2
  rw [View.read_apply]
  show V c main_v7 _ = V c main_v7 _
  congr 1
  funext a; apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weight window's block at every point is the whole weight array. -/
theorem rd2_1 (t : Fin cfg2.N) (y : S128x128.Idx) :
    (iblk2 V c 1 t : Vec Ideal S128x128 .f32) y = (V c main_arg6 : S128x128.Idx → EReal) y := by
  obtain ⟨-, -, e0, e1, -⟩ := idx2 t
  unfold iblk2
  rw [View.read_apply]
  show V c main_arg6 _ = V c main_arg6 _
  congr 1
  funext a; apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The bias window's block at every point is the whole bias row. -/
theorem rd2_2 (t : Fin cfg2.N) (y : S1x128.Idx) :
    (iblk2 V c 2 t : Vec Ideal S1x128 .f32) y = (V c main_v8 : S1x128.Idx → EReal) y := by
  obtain ⟨-, -, -, -, e0, e1, -⟩ := idx2 t
  unfold iblk2
  rw [View.read_apply]
  show V c main_v8 _ = V c main_v8 _
  congr 1
  funext a; apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- What point t writes back is block t of the dense layer of the arrays as the region finds them. -/
theorem flushed2_eq (t : Fin cfg2.N) :
    (dat2 (F := Ideal) V c).flushed 3 t = ((cfg2.win 3).blk t).view.read (Elt Ideal)
      (Cert.Gnn.dense (V c main_v7) (V c main_arg6) (V c main_v8)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S128x128) hz2, View.ld_unit_zero (S := S1x128) hz2]
  funext j
  obtain ⟨p, q, rfl⟩ : ∃ (p : Fin 5000) (q : Fin 128), j = ix2 p q := ⟨j 0, j 1, eq_ix2 j⟩
  refine (pay2 _ _ _ p q).trans ?_
  obtain ⟨-, -, -, -, -, -, e0, e1⟩ := idx2 t
  have hN : t.val < 20 := Nat.lt_of_lt_of_eq t.isLt N_2
  have hp : p.val < 5000 := p.isLt
  have hemb : ((cfg2.win 3).blk t).view.emb (ix2 p q) = (ix2 ⟨t.val * 5000 + p.val, by omega⟩ q : S100000x128.Idx) := by
    funext a; apply Fin.ext
    match a with
    | ⟨0, _⟩ => show win2_3.index t (0 : Fin 2) * 5000 + 1 * p.val = t.val * 5000 + p.val; rw [e0]; omega
    | ⟨1, _⟩ => show win2_3.index t (1 : Fin 2) * 128 + 1 * q.val = q.val; rw [e1]; omega
  show _ = Cert.Gnn.dense (V c main_v7) (V c main_arg6) (V c main_v8) (((cfg2.win 3).blk t).view.emb (ix2 p q))
  rw [hemb]
  show Cert.Gnn.act (_ + _) = Cert.Gnn.act (_ + _)
  refine congrArg Cert.Gnn.act (congrArg₂ (· + ·) ?_ ?_)
  · rw [Cert.LibMatmul.MM_apply, Cert.LibMatmul.MM_apply]
    exact Finset.sum_congr rfl fun k _ => by
      rw [rd2_0 V c t (ix2 p k) (ix2 ⟨t.val * 5000 + p.val, by omega⟩ k) rfl rfl, rd2_1 V c t (ix2 k q)]
  · exact rd2_2 V c t (ix2 0 q)

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v9).slice (win2_3.rect t)).set ↔ _
  rw [View.set_slice_whole, Rect.mem_set_unit]
  exact Iff.rfl

/-- Row r of the output array is in the block of point r / 5000: the twenty row blocks tile the array. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, Nat.lt_of_lt_of_eq (by omega) N_2.symm⟩, rfl⟩
  obtain ⟨-, -, -, -, -, -, e0, e1⟩ := idx2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e0]; omega
  | ⟨1, _⟩ =>
    show win2_3.index t (1 : Fin 2) * 128 ≤ (i 1).val ∧ (i 1).val < win2_3.index t (1 : Fin 2) * 128 + 128
    rw [e1]; omega

end HA

variable (V : (c : Dev nD) → (b : Ref sig .tc) → Buf (Elt Ideal) ((c : Thread nD τ).loc b)) (c : Dev nD)

/-- After the region the output array is the dense layer of the input arrays as the region finds them. -/
theorem final2 : (dat2 (F := Ideal) V c).arrAt 3 cfg2.N = Cert.Gnn.dense (V c main_v7) (V c main_arg6) (V c main_v8) :=
  (dat2 V c).arrAt_eq_of_cover 3 (Cert.Gnn.dense (V c main_v7) (V c main_arg6) (V c main_v8))
    (fun t _ => HA.flushed2_eq V c t) HA.cover2

end Cert.KernelIdeal.Regions

end
-- ==== Proof.RegLin3.lean ====
/-
  Region 3 of the kernel, a linear layer without bias: each of the twenty grid points multiplies a block of
  5000 rows of the left operand by the whole weight matrix (128 × 128) and writes the block back; the blocks tile
  the output array, which therefore ends as the matrix product of the whole input arrays.
-/
import proofs.«130695_j11355893531404_1_alg».proof.Proof.Gen.KernelIdeal.Frame
import proofs.«130695_j11355893531404_1_alg».proof.Proof.Spec
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HA

theorem hz3 : (![0, 0] : Fin 2 → Nat) = fun _ => 0 := funext fun a => by fin_cases a <;> rfl

/-- The body's arithmetic on a block: the matrix product of the block of rows with the weight matrix. -/
theorem pay3 (x0 : Vec Ideal S5000x128 .f32) (x1 : Vec Ideal S128x128 .f32) :
    k3_pay1 x0 x1 = Cert.LibMatmul.MM x0 x1 := by
  have hmm : matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) = Cert.LibMatmul.MM x0 x1 :=
    Cert.LibMatmul.matmul_zero_eq dot_S5000x128_S128x128_S5000x128_1_0_0_1_n_n rfl rfl rfl rfl rfl rfl none _ _
  unfold k3_pay1
  simp only [shapeCast_self]
  exact hmm

variable (V : (c : Dev nD) → (b : Ref sig .tc) → Buf (Elt Ideal) ((c : Thread nD τ).loc b)) (c : Dev nD)

/-- The printed index maps over the grid: the row-block windows sit at block (t, 0), the weight window at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point t is rows 5000·t … 5000·t + 4999 of its array. -/
theorem rd3_0 (t : Fin cfg3.N) (y : S5000x128.Idx) (i : S100000x128.Idx)
    (h0 : (i 0).val = t.val * 5000 + (y 0).val) (h1 : (i 1).val = (y 1).val) :
    (iblk3 V c 0 t : Vec Ideal S5000x128 .f32) y = (V c main_v9 : S100000x128.Idx → EReal) i := by
  obtain ⟨e0, e1, -⟩ := idx3 t
  unfold iblk3
  rw [View.read_apply]
  show V c main_v9 _ = V c main_v9 _
  congr 1
  funext a; apply Fin.ext
  match a with
  | ⟨0, _⟩ => show win3_0.index t (0 : Fin 2) * 5000 + 1 * (y 0).val = (i 0).val; rw [e0, h0]; omega
  | ⟨1, _⟩ => show win3_0.index t (1 : Fin 2) * 128 + 1 * (y 1).val = (i 1).val; rw [e1, h1]; omega

/-- The weight window's block at every point is the whole weight array. -/
theorem rd3_1 (t : Fin cfg3.N) (y : S128x128.Idx) :
    (iblk3 V c 1 t : Vec Ideal S128x128 .f32) y = (V c main_arg8 : S128x128.Idx → EReal) y := by
  obtain ⟨-, -, e0, e1, -⟩ := idx3 t
  unfold iblk3
  rw [View.read_apply]
  show V c main_arg8 _ = V c main_arg8 _
  congr 1
  funext a; apply Fin.ext
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

/-- What point t writes back is block t of the matrix product of the arrays as the region finds them. -/
theorem flushed3_eq (t : Fin cfg3.N) :
    (dat3 (F := Ideal) V c).flushed 2 t = ((cfg3.win 2).blk t).view.read (Elt Ideal)
      (Cert.LibMatmul.MM (V c main_v9) (V c main_arg8)) := by
  show (cfg3.win 2).cut (grid3.coords t) ((dat3 V c).after 2 t) = _
  rw [after3_2]
  unfold out3_2
  rw [View.canon_unit_zero hz3]
  simp only [View.ld_unit_zero (S := S5000x128) hz3, View.ld_unit_zero (S := S128x128) hz3]
  funext j
  obtain ⟨p, q, rfl⟩ : ∃ (p : Fin 5000) (q : Fin 128), j = ix2 p q := ⟨j 0, j 1, eq_ix2 j⟩
  refine (congrFun (pay3 _ _) (ix2 p q)).trans ?_
  obtain ⟨-, -, -, -, e0, e1⟩ := idx3 t
  have hN : t.val < 20 := Nat.lt_of_lt_of_eq t.isLt N_3
  have hp : p.val < 5000 := p.isLt
  have hemb : ((cfg3.win 2).blk t).view.emb (ix2 p q) = (ix2 ⟨t.val * 5000 + p.val, by omega⟩ q : S100000x128.Idx) := by
    funext a; apply Fin.ext
    match a with
    | ⟨0, _⟩ => show win3_2.index t (0 : Fin 2) * 5000 + 1 * p.val = t.val * 5000 + p.val; rw [e0]; omega
    | ⟨1, _⟩ => show win3_2.index t (1 : Fin 2) * 128 + 1 * q.val = q.val; rw [e1]; omega
  show _ = Cert.LibMatmul.MM (V c main_v9) (V c main_arg8) (((cfg3.win 2).blk t).view.emb (ix2 p q))
  rw [hemb, Cert.LibMatmul.MM_apply, Cert.LibMatmul.MM_apply]
  exact Finset.sum_congr rfl fun k _ => by
    rw [rd3_0 V c t (ix2 p k) (ix2 ⟨t.val * 5000 + p.val, by omega⟩ k) rfl rfl, rd3_1 V c t (ix2 k q)]

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v34).slice (win3_2.rect t)).set ↔ _
  rw [View.set_slice_whole, Rect.mem_set_unit]
  exact Iff.rfl

/-- Row r of the output array is in the block of point r / 5000: the twenty row blocks tile the array. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, Nat.lt_of_lt_of_eq (by omega) N_3.symm⟩, rfl⟩
  obtain ⟨-, -, -, -, e0, e1⟩ := idx3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e0]; omega
  | ⟨1, _⟩ =>
    show win3_2.index t (1 : Fin 2) * 128 ≤ (i 1).val ∧ (i 1).val < win3_2.index t (1 : Fin 2) * 128 + 128
    rw [e1]; omega

end HA

variable (V : (c : Dev nD) → (b : Ref sig .tc) → Buf (Elt Ideal) ((c : Thread nD τ).loc b)) (c : Dev nD)

/-- After the region the output array is the matrix product of the input arrays as the region finds them. -/
theorem final3 : (dat3 (F := Ideal) V c).arrAt 2 cfg3.N = Cert.LibMatmul.MM (V c main_v9) (V c main_arg8) :=
  (dat3 V c).arrAt_eq_of_cover 2 (Cert.LibMatmul.MM (V c main_v9) (V c main_arg8))
    (fun t _ => HA.flushed3_eq V c t) HA.cover3

end Cert.KernelIdeal.Regions

end
-- ==== Proof.RegComb4.lean ====
/-
  The node update of the first graph layer, as one array.  The region's body adds, block by block of 5000
  rows, the neighbourhood sum, the layer's product scaled by the squared inverse square root of the degree
  (one column, broadcast along the row) and the bias row (broadcast along the columns), and applies the
  activation.  Each grid point t writes rows 5000 t … 5000 t + 4999; the twenty blocks tile the array, so
  after the region the output array is the whole-array function  comb agg h d2 r  of the four input arrays.
-/
import proofs.«130695_j11355893531404_1_alg».proof.Proof.Gen.KernelIdeal.Frame
import proofs.«130695_j11355893531404_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HB

/-- The body's arithmetic at one entry (p, q) of a block. -/
theorem pay4_apply (x0 x1 : Vec Ideal S5000x128 .f32) (x2 : Vec Ideal S5000x1 .f32) (x3 : Vec Ideal S1x128 .f32)
    (p : Fin 5000) (q : Fin 128) :
    k4_pay1 x0 x1 x2 x3 (ix2 p q)
      = Cert.Gnn.act (x0 (ix2 p q) + x1 (ix2 p q) * x2 (ix2 p 0) + x3 (ix2 0 q)) := by
  unfold k4_pay1
  simp only [shapeCast_self]
  have b2 : broadcastTo S5000x128 x2 broadcasts_S5000x1_S5000x128 (ix2 p q) = x2 (ix2 p 0) :=
    broadcastTo_apply x2 broadcasts_S5000x1_S5000x128 (ix2 p q) (ix2 p 0) (fun a => by
      match a with
      | ⟨0, _⟩ => rfl
      | ⟨1, _⟩ => rfl)
  have b3 : broadcastTo S5000x128 x3 broadcasts_S1x128_S5000x128 (ix2 p q) = x3 (ix2 0 q) :=
    broadcastTo_apply x3 broadcasts_S1x128_S5000x128 (ix2 p q) (ix2 0 q) (fun a => by
      match a with
      | ⟨0, _⟩ => rfl
      | ⟨1, _⟩ => rfl)
  show Scalar.select (FloatOps.cmpf .oge _ _) _ _ = _
  unfold Cert.Gnn.act
  simp only [addf_apply, mulf_apply, broadcast_apply, b2, b3]
  rfl

theorem hz4 : (![0, 0] : Fin 2 → Nat) = fun _ => 0 := funext fun a => by fin_cases a <;> rfl

/-- The printed index maps over the twenty grid points: the row-block windows sit at block (t, 0), the bias
    window at block (0, 0). -/
theorem idx_facts4 : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = t.val ∧ win4_2.index t (1 : Fin 2) = 0
  ∧ win4_3.index t (0 : Fin 2) = 0 ∧ win4_3.index t (1 : Fin 2) = 0
  ∧ win4_4.index t (0 : Fin 2) = t.val ∧ win4_4.index t (1 : Fin 2) = 0 :=
  (by decide +kernel : ∀ t : Fin grid4.N, _)

/-- Where block t of each window sits in its array: entry (p, q) of a row block is entry (5000 t + p, q) of the
    array; the degree column's entry (p, 0) is (5000 t + p, 0); the bias row is the whole array. -/
theorem emb4_0 (t : Fin cfg4.N) (p : Fin 5000) (q : Fin 128) (h : t.val * 5000 + p.val < 100000) :
    (((cfg4.win 0).blk t).view.emb (ix2 p q) : S100000x128.Idx) = ix2 (⟨t.val * 5000 + p.val, h⟩ : Fin 100000) q := by
  obtain ⟨e00, e01, -⟩ := idx_facts4 t
  funext a; apply Fin.ext
  match a with
  | ⟨0, _⟩ => show win4_0.index t (0 : Fin 2) * 5000 + 1 * p.val = t.val * 5000 + p.val; omega
  | ⟨1, _⟩ => show win4_0.index t (1 : Fin 2) * 128 + 1 * q.val = q.val; omega

theorem emb4_1 (t : Fin cfg4.N) (p : Fin 5000) (q : Fin 128) (h : t.val * 5000 + p.val < 100000) :
    (((cfg4.win 1).blk t).view.emb (ix2 p q) : S100000x128.Idx) = ix2 (⟨t.val * 5000 + p.val, h⟩ : Fin 100000) q := by
  obtain ⟨-, -, e10, e11, -⟩ := idx_facts4 t
  funext a; apply Fin.ext
  match a with
  | ⟨0, _⟩ => show win4_1.index t (0 : Fin 2) * 5000 + 1 * p.val = t.val * 5000 + p.val; omega
  | ⟨1, _⟩ => show win4_1.index t (1 : Fin 2) * 128 + 1 * q.val = q.val; omega

theorem emb4_2 (t : Fin cfg4.N) (p : Fin 5000) (h : t.val * 5000 + p.val < 100000) :
    (((cfg4.win 2).blk t).view.emb (ix2 p (0 : Fin 1)) : S100000x1.Idx) = ix2 (⟨t.val * 5000 + p.val, h⟩ : Fin 100000) (0 : Fin 1) := by
  obtain ⟨-, -, -, -, e20, e21, -⟩ := idx_facts4 t
  funext a; apply Fin.ext
  match a with
  | ⟨0, _⟩ => show win4_2.index t (0 : Fin 2) * 5000 + 1 * p.val = t.val * 5000 + p.val; omega
  | ⟨1, _⟩ => show win4_2.index t (1 : Fin 2) * 1 + 1 * 0 = 0; omega

theorem emb4_3 (t : Fin cfg4.N) (q : Fin 128) :
    (((cfg4.win 3).blk t).view.emb (ix2 (0 : Fin 1) q) : S1x128.Idx) = ix2 (0 : Fin 1) q := by
  obtain ⟨-, -, -, -, -, -, e30, e31, -⟩ := idx_facts4 t
  funext a; apply Fin.ext
  match a with
  | ⟨0, _⟩ => show win4_3.index t (0 : Fin 2) * 1 + 1 * 0 = 0; omega
  | ⟨1, _⟩ => show win4_3.index t (1 : Fin 2) * 128 + 1 * q.val = q.val; omega

theorem emb4_4 (t : Fin cfg4.N) (p : Fin 5000) (q : Fin 128) (h : t.val * 5000 + p.val < 100000) :
    (((cfg4.win 4).blk t).view.emb (ix2 p q) : S100000x128.Idx) = ix2 (⟨t.val * 5000 + p.val, h⟩ : Fin 100000) q := by
  obtain ⟨-, -, -, -, -, -, -, -, e40, e41⟩ := idx_facts4 t
  funext a; apply Fin.ext
  match a with
  | ⟨0, _⟩ => show win4_4.index t (0 : Fin 2) * 5000 + 1 * p.val = t.val * 5000 + p.val; omega
  | ⟨1, _⟩ => show win4_4.index t (1 : Fin 2) * 128 + 1 * q.val = q.val; omega

/-- Block t of the four input arrays, combined entry by entry, is block t of the combined arrays. -/
theorem blk_comb4 (A0 A1 : S100000x128.Idx → EReal) (A2 : S100000x1.Idx → EReal) (A3 : S1x128.Idx → EReal)
    (t : Fin cfg4.N) (p : Fin 5000) (q : Fin 128) :
    Cert.Gnn.act (A0 (((cfg4.win 0).blk t).view.emb (ix2 p q))
        + A1 (((cfg4.win 1).blk t).view.emb (ix2 p q)) * A2 (((cfg4.win 2).blk t).view.emb (ix2 p (0 : Fin 1)))
        + A3 (((cfg4.win 3).blk t).view.emb (ix2 (0 : Fin 1) q)))
      = Cert.Gnn.comb A0 A1 A2 A3 (((cfg4.win 4).blk t).view.emb (ix2 p q)) := by
  have ht : t.val < 20 := lt_of_lt_of_eq t.isLt N_4
  have hp : p.val < 5000 := p.isLt
  have h : t.val * 5000 + p.val < 100000 := by omega
  rw [emb4_0 t p q h, emb4_1 t p q h, emb4_2 t p h, emb4_3 t q, emb4_4 t p q h]
  rfl

/-- An index of the output array is in point t's block iff each coordinate is in the block's range on its axis. -/
theorem mem_blk4 (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v49).slice (win4_4.rect t)).set ↔ _
  rw [View.set_slice_whole, Rect.mem_set_unit]
  exact Iff.rfl

/-- Row r of the output array is in the block of point r / 5000: the twenty blocks cover the array. -/
theorem cover4 (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 :=
    ⟨⟨(i 0).val / 5000, by show _ < grid4.N; rw [hN]; omega⟩, rfl⟩
  refine ⟨t, flush4_4 t, ?_⟩
  rw [mem_blk4]
  obtain ⟨-, -, -, -, -, -, -, -, e40, e41⟩ := idx_facts4 t
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

variable (V : (c : Dev nD) → (b : Ref sig .tc) → Buf (Elt Ideal) ((c : Thread nD τ).loc b)) (c : Dev nD)

set_option maxHeartbeats 400000 in
/-- What grid point t writes back is block t of the combined arrays. -/
theorem flushed4_eq (t : Fin cfg4.N) :
    (dat4 (F := Ideal) V c).flushed 4 t
      = ((cfg4.win 4).blk t).view.read (Elt Ideal)
          (Cert.Gnn.comb (V c main_v47) (V c main_v34) (V c main_v33) (V c main_v48)) := by
  show (cfg4.win 4).cut (grid4.coords t) ((dat4 V c).after 4 t) = _
  rw [after4_4]
  unfold out4_4
  rw [View.canon_unit_zero hz4]
  simp only [View.ld_unit_zero (S := S5000x128) hz4, View.ld_unit_zero (S := S5000x1) hz4, View.ld_unit_zero (S := S1x128) hz4]
  funext j
  obtain ⟨p, q, rfl⟩ : ∃ (p : Fin 5000) (q : Fin 128), j = ix2 p q := ⟨j 0, j 1, eq_ix2 j⟩
  refine (pay4_apply _ _ _ _ p q).trans ?_
  exact blk_comb4 (V c main_v47) (V c main_v34) (V c main_v33) (V c main_v48) t p q

end HB

variable (V : (c : Dev nD) → (b : Ref sig .tc) → Buf (Elt Ideal) ((c : Thread nD τ).loc b)) (c : Dev nD)

/-- After the region the output array is the node update of the four input arrays. -/
theorem final4 : (dat4 (F := Ideal) V c).arrAt 4 cfg4.N
    = Cert.Gnn.comb (V c main_v47) (V c main_v34) (V c main_v33) (V c main_v48) :=
  (dat4 V c).arrAt_eq_of_cover 4 (Cert.Gnn.comb (V c main_v47) (V c main_v34) (V c main_v33) (V c main_v48))
    (fun t _ => HB.flushed4_eq V c t) HB.cover4

end Cert.KernelIdeal.Regions

end
-- ==== Proof.RegLin5.lean ====
/-
  Region 5 of the kernel, a linear layer without bias: each of the twenty grid points multiplies a block of
  5000 rows of the left operand by the whole weight matrix (128 × 128) and writes the block back; the blocks tile
  the output array, which therefore ends as the matrix product of the whole input arrays.
-/
import proofs.«130695_j11355893531404_1_alg».proof.Proof.Gen.KernelIdeal.Frame
import proofs.«130695_j11355893531404_1_alg».proof.Proof.Spec
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HA

theorem hz5 : (![0, 0] : Fin 2 → Nat) = fun _ => 0 := funext fun a => by fin_cases a <;> rfl

/-- The body's arithmetic on a block: the matrix product of the block of rows with the weight matrix. -/
theorem pay5 (x0 : Vec Ideal S5000x128 .f32) (x1 : Vec Ideal S128x128 .f32) :
    k5_pay1 x0 x1 = Cert.LibMatmul.MM x0 x1 := by
  have hmm : matmul dot_S5000x128_S128x128_S5000x128_1_0_0_1_n_n none (truncf .bf16 x0 bitsLt_bf16_f32 : FVec Ideal S5000x128 .bf16)
      (truncf .bf16 x1 bitsLt_bf16_f32 : FVec Ideal S128x128 .bf16) (constant S5000x128 .f32 0x00000000#32) = Cert.LibMatmul.MM x0 x1 :=
    Cert.LibMatmul.matmul_zero_eq dot_S5000x128_S128x128_S5000x128_1_0_0_1_n_n rfl rfl rfl rfl rfl rfl none _ _
  unfold k5_pay1
  simp only [shapeCast_self]
  exact hmm

variable (V : (c : Dev nD) → (b : Ref sig .tc) → Buf (Elt Ideal) ((c : Thread nD τ).loc b)) (c : Dev nD)

/-- The printed index maps over the grid: the row-block windows sit at block (t, 0), the weight window at (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The left operand's block at point t is rows 5000·t … 5000·t + 4999 of its array. -/
theorem rd5_0 (t : Fin cfg5.N) (y : S5000x128.Idx) (i : S100000x128.Idx)
    (h0 : (i 0).val = t.val * 5000 + (y 0).val) (h1 : (i 1).val = (y 1).val) :
    (iblk5 V c 0 t : Vec Ideal S5000x128 .f32) y = (V c main_v49 : S100000x128.Idx → EReal) i := by
  obtain ⟨e0, e1, -⟩ := idx5 t
  unfold iblk5
  rw [View.read_apply]
  show V c main_v49 _ = V c main_v49 _
  congr 1
  funext a; apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- The weight window's block at every point is the whole weight array. -/
theorem rd5_1 (t : Fin cfg5.N) (y : S128x128.Idx) :
    (iblk5 V c 1 t : Vec Ideal S128x128 .f32) y = (V c main_arg10 : S128x128.Idx → EReal) y := by
  obtain ⟨-, -, e0, e1, -⟩ := idx5 t
  unfold iblk5
  rw [View.read_apply]
  show V c main_arg10 _ = V c main_arg10 _
  congr 1
  funext a; apply Fin.ext
  match a with
  | ⟨0, _⟩ => show win5_1.index t (0 : Fin 2) * 128 + 1 * (y 0).val = (y 0).val; rw [e0]; omega
  | ⟨1, _⟩ => show win5_1.index t (1 : Fin 2) * 128 + 1 * (y 1).val = (y 1).val; rw [e1]; omega

/-- What point t writes back is block t of the matrix product of the arrays as the region finds them. -/
theorem flushed5_eq (t : Fin cfg5.N) :
    (dat5 (F := Ideal) V c).flushed 2 t = ((cfg5.win 2).blk t).view.read (Elt Ideal)
      (Cert.LibMatmul.MM (V c main_v49) (V c main_arg10)) := by
  show (cfg5.win 2).cut (grid5.coords t) ((dat5 V c).after 2 t) = _
  rw [after5_2]
  unfold out5_2
  rw [View.canon_unit_zero hz5]
  simp only [View.ld_unit_zero (S := S5000x128) hz5, View.ld_unit_zero (S := S128x128) hz5]
  funext j
  obtain ⟨p, q, rfl⟩ : ∃ (p : Fin 5000) (q : Fin 128), j = ix2 p q := ⟨j 0, j 1, eq_ix2 j⟩
  refine (congrFun (pay5 _ _) (ix2 p q)).trans ?_
  obtain ⟨-, -, -, -, e0, e1⟩ := idx5 t
  have hN : t.val < 20 := Nat.lt_of_lt_of_eq t.isLt N_5
  have hp : p.val < 5000 := p.isLt
  have hemb : ((cfg5.win 2).blk t).view.emb (ix2 p q) = (ix2 ⟨t.val * 5000 + p.val, by omega⟩ q : S100000x128.Idx) := by
    funext a; apply Fin.ext
    match a with
    | ⟨0, _⟩ => show win5_2.index t (0 : Fin 2) * 5000 + 1 * p.val = t.val * 5000 + p.val; rw [e0]; omega
    | ⟨1, _⟩ => show win5_2.index t (1 : Fin 2) * 128 + 1 * q.val = q.val; rw [e1]; omega
  show _ = Cert.LibMatmul.MM (V c main_v49) (V c main_arg10) (((cfg5.win 2).blk t).view.emb (ix2 p q))
  rw [hemb, Cert.LibMatmul.MM_apply, Cert.LibMatmul.MM_apply]
  exact Finset.sum_congr rfl fun k _ => by
    rw [rd5_0 V c t (ix2 p k) (ix2 ⟨t.val * 5000 + p.val, by omega⟩ k) rfl rfl, rd5_1 V c t (ix2 k q)]

/-- An index of the output array is in point t's block iff each coordinate is in the block's range on its axis. -/
theorem mem_blk5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v50).slice (win5_2.rect t)).set ↔ _
  rw [View.set_slice_whole, Rect.mem_set_unit]
  exact Iff.rfl

/-- Row r of the output array is in the block of point r / 5000: the twenty row blocks tile the array. -/
theorem cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, Nat.lt_of_lt_of_eq (by omega) N_5.symm⟩, rfl⟩
  obtain ⟨-, -, -, -, e0, e1⟩ := idx5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    rw [e0]; omega
  | ⟨1, _⟩ =>
    show win5_2.index t (1 : Fin 2) * 128 ≤ (i 1).val ∧ (i 1).val < win5_2.index t (1 : Fin 2) * 128 + 128
    rw [e1]; omega

end HA

variable (V : (c : Dev nD) → (b : Ref sig .tc) → Buf (Elt Ideal) ((c : Thread nD τ).loc b)) (c : Dev nD)

/-- After the region the output array is the matrix product of the input arrays as the region finds them. -/
theorem final5 : (dat5 (F := Ideal) V c).arrAt 2 cfg5.N = Cert.LibMatmul.MM (V c main_v49) (V c main_arg10) :=
  (dat5 V c).arrAt_eq_of_cover 2 (Cert.LibMatmul.MM (V c main_v49) (V c main_arg10))
    (fun t _ => HA.flushed5_eq V c t) HA.cover5

end Cert.KernelIdeal.Regions

end
-- ==== Proof.RegComb6.lean ====
/-
  The node update of the second graph layer, as one array.  The region's body adds, block by block of 5000
  rows, the neighbourhood sum, the layer's product scaled by the squared inverse square root of the degree
  (one column, broadcast along the row) and the bias row (broadcast along the columns), and applies the
  activation.  Each grid point t writes rows 5000 t … 5000 t + 4999; the twenty blocks tile the array, so
  after the region the output array is the whole-array function  comb agg h d2 r  of the four input arrays.
-/
import proofs.«130695_j11355893531404_1_alg».proof.Proof.Gen.KernelIdeal.Frame
import proofs.«130695_j11355893531404_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HB

/-- The body's arithmetic at one entry (p, q) of a block. -/
theorem pay6_apply (x0 x1 : Vec Ideal S5000x128 .f32) (x2 : Vec Ideal S5000x1 .f32) (x3 : Vec Ideal S1x128 .f32)
    (p : Fin 5000) (q : Fin 128) :
    k6_pay1 x0 x1 x2 x3 (ix2 p q)
      = Cert.Gnn.act (x0 (ix2 p q) + x1 (ix2 p q) * x2 (ix2 p 0) + x3 (ix2 0 q)) := by
  unfold k6_pay1
  simp only [shapeCast_self]
  have b2 : broadcastTo S5000x128 x2 broadcasts_S5000x1_S5000x128 (ix2 p q) = x2 (ix2 p 0) :=
    broadcastTo_apply x2 broadcasts_S5000x1_S5000x128 (ix2 p q) (ix2 p 0) (fun a => by
      match a with
      | ⟨0, _⟩ => rfl
      | ⟨1, _⟩ => rfl)
  have b3 : broadcastTo S5000x128 x3 broadcasts_S1x128_S5000x128 (ix2 p q) = x3 (ix2 0 q) :=
    broadcastTo_apply x3 broadcasts_S1x128_S5000x128 (ix2 p q) (ix2 0 q) (fun a => by
      match a with
      | ⟨0, _⟩ => rfl
      | ⟨1, _⟩ => rfl)
  show Scalar.select (FloatOps.cmpf .oge _ _) _ _ = _
  unfold Cert.Gnn.act
  simp only [addf_apply, mulf_apply, broadcast_apply, b2, b3]
  rfl

theorem hz6 : (![0, 0] : Fin 2 → Nat) = fun _ => 0 := funext fun a => by fin_cases a <;> rfl

/-- The printed index maps over the twenty grid points: the row-block windows sit at block (t, 0), the bias
    window at block (0, 0). -/
theorem idx_facts6 : ∀ t : Fin cfg6.N,
    win6_0.index t (0 : Fin 2) = t.val ∧ win6_0.index t (1 : Fin 2) = 0
  ∧ win6_1.index t (0 : Fin 2) = t.val ∧ win6_1.index t (1 : Fin 2) = 0
  ∧ win6_2.index t (0 : Fin 2) = t.val ∧ win6_2.index t (1 : Fin 2) = 0
  ∧ win6_3.index t (0 : Fin 2) = 0 ∧ win6_3.index t (1 : Fin 2) = 0
  ∧ win6_4.index t (0 : Fin 2) = t.val ∧ win6_4.index t (1 : Fin 2) = 0 :=
  (by decide +kernel : ∀ t : Fin grid6.N, _)

/-- Where block t of each window sits in its array: entry (p, q) of a row block is entry (5000 t + p, q) of the
    array; the degree column's entry (p, 0) is (5000 t + p, 0); the bias row is the whole array. -/
theorem emb6_0 (t : Fin cfg6.N) (p : Fin 5000) (q : Fin 128) (h : t.val * 5000 + p.val < 100000) :
    (((cfg6.win 0).blk t).view.emb (ix2 p q) : S100000x128.Idx) = ix2 (⟨t.val * 5000 + p.val, h⟩ : Fin 100000) q := by
  obtain ⟨e00, e01, -⟩ := idx_facts6 t
  funext a; apply Fin.ext
  match a with
  | ⟨0, _⟩ => show win6_0.index t (0 : Fin 2) * 5000 + 1 * p.val = t.val * 5000 + p.val; omega
  | ⟨1, _⟩ => show win6_0.index t (1 : Fin 2) * 128 + 1 * q.val = q.val; omega

theorem emb6_1 (t : Fin cfg6.N) (p : Fin 5000) (q : Fin 128) (h : t.val * 5000 + p.val < 100000) :
    (((cfg6.win 1).blk t).view.emb (ix2 p q) : S100000x128.Idx) = ix2 (⟨t.val * 5000 + p.val, h⟩ : Fin 100000) q := by
  obtain ⟨-, -, e10, e11, -⟩ := idx_facts6 t
  funext a; apply Fin.ext
  match a with
  | ⟨0, _⟩ => show win6_1.index t (0 : Fin 2) * 5000 + 1 * p.val = t.val * 5000 + p.val; omega
  | ⟨1, _⟩ => show win6_1.index t (1 : Fin 2) * 128 + 1 * q.val = q.val; omega

theorem emb6_2 (t : Fin cfg6.N) (p : Fin 5000) (h : t.val * 5000 + p.val < 100000) :
    (((cfg6.win 2).blk t).view.emb (ix2 p (0 : Fin 1)) : S100000x1.Idx) = ix2 (⟨t.val * 5000 + p.val, h⟩ : Fin 100000) (0 : Fin 1) := by
  obtain ⟨-, -, -, -, e20, e21, -⟩ := idx_facts6 t
  funext a; apply Fin.ext
  match a with
  | ⟨0, _⟩ => show win6_2.index t (0 : Fin 2) * 5000 + 1 * p.val = t.val * 5000 + p.val; omega
  | ⟨1, _⟩ => show win6_2.index t (1 : Fin 2) * 1 + 1 * 0 = 0; omega

theorem emb6_3 (t : Fin cfg6.N) (q : Fin 128) :
    (((cfg6.win 3).blk t).view.emb (ix2 (0 : Fin 1) q) : S1x128.Idx) = ix2 (0 : Fin 1) q := by
  obtain ⟨-, -, -, -, -, -, e30, e31, -⟩ := idx_facts6 t
  funext a; apply Fin.ext
  match a with
  | ⟨0, _⟩ => show win6_3.index t (0 : Fin 2) * 1 + 1 * 0 = 0; omega
  | ⟨1, _⟩ => show win6_3.index t (1 : Fin 2) * 128 + 1 * q.val = q.val; omega

theorem emb6_4 (t : Fin cfg6.N) (p : Fin 5000) (q : Fin 128) (h : t.val * 5000 + p.val < 100000) :
    (((cfg6.win 4).blk t).view.emb (ix2 p q) : S100000x128.Idx) = ix2 (⟨t.val * 5000 + p.val, h⟩ : Fin 100000) q := by
  obtain ⟨-, -, -, -, -, -, -, -, e40, e41⟩ := idx_facts6 t
  funext a; apply Fin.ext
  match a with
  | ⟨0, _⟩ => show win6_4.index t (0 : Fin 2) * 5000 + 1 * p.val = t.val * 5000 + p.val; omega
  | ⟨1, _⟩ => show win6_4.index t (1 : Fin 2) * 128 + 1 * q.val = q.val; omega

/-- Block t of the four input arrays, combined entry by entry, is block t of the combined arrays. -/
theorem blk_comb6 (A0 A1 : S100000x128.Idx → EReal) (A2 : S100000x1.Idx → EReal) (A3 : S1x128.Idx → EReal)
    (t : Fin cfg6.N) (p : Fin 5000) (q : Fin 128) :
    Cert.Gnn.act (A0 (((cfg6.win 0).blk t).view.emb (ix2 p q))
        + A1 (((cfg6.win 1).blk t).view.emb (ix2 p q)) * A2 (((cfg6.win 2).blk t).view.emb (ix2 p (0 : Fin 1)))
        + A3 (((cfg6.win 3).blk t).view.emb (ix2 (0 : Fin 1) q)))
      = Cert.Gnn.comb A0 A1 A2 A3 (((cfg6.win 4).blk t).view.emb (ix2 p q)) := by
  have ht : t.val < 20 := lt_of_lt_of_eq t.isLt N_6
  have hp : p.val < 5000 := p.isLt
  have h : t.val * 5000 + p.val < 100000 := by omega
  rw [emb6_0 t p q h, emb6_1 t p q h, emb6_2 t p h, emb6_3 t q, emb6_4 t p q h]
  rfl

/-- An index of the output array is in point t's block iff each coordinate is in the block's range on its axis. -/
theorem mem_blk6 (t : Fin cfg6.N) (i : S100000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole main_v65).slice (win6_4.rect t)).set ↔ _
  rw [View.set_slice_whole, Rect.mem_set_unit]
  exact Iff.rfl

/-- Row r of the output array is in the block of point r / 5000: the twenty blocks cover the array. -/
theorem cover6 (i : S100000x128.Idx) :
    ∃ t : Fin cfg6.N, (cfg6.win 4).flush t = true ∧ i ∈ ((cfg6.win 4).blk t).view.set := by
  have hi0 : (i 0).val < 100000 := (i 0).isLt
  have hi1 : (i 1).val < 128 := (i 1).isLt
  have hN : grid6.N = 20 := N_6
  obtain ⟨t, ht⟩ : ∃ t : Fin cfg6.N, t.val = (i 0).val / 5000 :=
    ⟨⟨(i 0).val / 5000, by show _ < grid6.N; rw [hN]; omega⟩, rfl⟩
  refine ⟨t, flush6_4 t, ?_⟩
  rw [mem_blk6]
  obtain ⟨-, -, -, -, -, -, -, -, e40, e41⟩ := idx_facts6 t
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 128 ≤ (i 1).val ∧ (i 1).val < win6_4.index t (1 : Fin 2) * 128 + 128
    omega

variable (V : (c : Dev nD) → (b : Ref sig .tc) → Buf (Elt Ideal) ((c : Thread nD τ).loc b)) (c : Dev nD)

set_option maxHeartbeats 400000 in
/-- What grid point t writes back is block t of the combined arrays. -/
theorem flushed6_eq (t : Fin cfg6.N) :
    (dat6 (F := Ideal) V c).flushed 4 t
      = ((cfg6.win 4).blk t).view.read (Elt Ideal)
          (Cert.Gnn.comb (V c main_v63) (V c main_v50) (V c main_v33) (V c main_v64)) := by
  show (cfg6.win 4).cut (grid6.coords t) ((dat6 V c).after 4 t) = _
  rw [after6_4]
  unfold out6_4
  rw [View.canon_unit_zero hz6]
  simp only [View.ld_unit_zero (S := S5000x128) hz6, View.ld_unit_zero (S := S5000x1) hz6, View.ld_unit_zero (S := S1x128) hz6]
  funext j
  obtain ⟨p, q, rfl⟩ : ∃ (p : Fin 5000) (q : Fin 128), j = ix2 p q := ⟨j 0, j 1, eq_ix2 j⟩
  refine (pay6_apply _ _ _ _ p q).trans ?_
  exact blk_comb6 (V c main_v63) (V c main_v50) (V c main_v33) (V c main_v64) t p q

end HB

variable (V : (c : Dev nD) → (b : Ref sig .tc) → Buf (Elt Ideal) ((c : Thread nD τ).loc b)) (c : Dev nD)

/-- After the region the output array is the node update of the four input arrays. -/
theorem final6 : (dat6 (F := Ideal) V c).arrAt 4 cfg6.N
    = Cert.Gnn.comb (V c main_v63) (V c main_v50) (V c main_v33) (V c main_v64) :=
  (dat6 V c).arrAt_eq_of_cover 4 (Cert.Gnn.comb (V c main_v63) (V c main_v50) (V c main_v33) (V c main_v64))
    (fun t _ => HB.flushed6_eq V c t) HB.cover6

end Cert.KernelIdeal.Regions

end
-- ==== Proof.RegLin7.lean ====
/-
  Region 7 of the kernel, a linear layer without bias: each of the twenty grid points multiplies a block of
  5000 rows of the left operand by the whole weight matrix (128 × 1) and writes the block back; the blocks tile
  the output array, which therefore ends as the matrix product of the whole input arrays.
-/
import proofs.«130695_j11355893531404_1_alg».proof.Proof.Gen.KernelIdeal.Frame
import proofs.«130695_j11355893531404_1_alg».proof.Proof.Spec
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HA

theorem hz7 : (![0, 0] : Fin 2 → Nat) = fun _ => 0 := funext fun a => by fin_cases a <;> rfl

/-- The body's arithmetic on a block: the matrix product of the block of rows with the weight matrix. -/
theorem pay7 (x0 : Vec Ideal S5000x128 .f32) (x1 : Vec Ideal S128x1 .f32) :
    k7_pay1 x0 x1 = Cert.LibMatmul.MM x0 x1 := by
  have hmm : matmul dot_S5000x128_S128x1_S5000x1_1_0_0_1_n_n none (truncf .bf16 x0 bitsLt_bf16_f32 : FVec Ideal S5000x128 .bf16)
      (truncf .bf16 x1 bitsLt_bf16_f32 : FVec Ideal S128x1 .bf16) (constant S5000x1 .f32 0x00000000#32) = Cert.LibMatmul.MM x0 x1 :=
    Cert.LibMatmul.matmul_zero_eq dot_S5000x128_S128x1_S5000x1_1_0_0_1_n_n rfl rfl rfl rfl rfl rfl none _ _
  unfold k7_pay1
  simp only [shapeCast_self]
  exact hmm

variable (V : (c : Dev nD) → (b : Ref sig .tc) → Buf (Elt Ideal) ((c : Thread nD τ).loc b)) (c : Dev nD)

/-- The printed index maps over the grid: the row-block windows sit at block (t, 0), the weight window at (0, 0). -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The left operand's block at point t is rows 5000·t … 5000·t + 4999 of its array. -/
theorem rd7_0 (t : Fin cfg7.N) (y : S5000x128.Idx) (i : S100000x128.Idx)
    (h0 : (i 0).val = t.val * 5000 + (y 0).val) (h1 : (i 1).val = (y 1).val) :
    (iblk7 V c 0 t : Vec Ideal S5000x128 .f32) y = (V c main_v65 : S100000x128.Idx → EReal) i := by
  obtain ⟨e0, e1, -⟩ := idx7 t
  unfold iblk7
  rw [View.read_apply]
  show V c main_v65 _ = V c main_v65 _
  congr 1
  funext a; apply Fin.ext
  match a with
  | ⟨0, _⟩ => show win7_0.index t (0 : Fin 2) * 5000 + 1 * (y 0).val = (i 0).val; rw [e0, h0]; omega
  | ⟨1, _⟩ => show win7_0.index t (1 : Fin 2) * 128 + 1 * (y 1).val = (i 1).val; rw [e1, h1]; omega

/-- The weight window's block at every point is the whole weight array. -/
theorem rd7_1 (t : Fin cfg7.N) (y : S128x1.Idx) :
    (iblk7 V c 1 t : Vec Ideal S128x1 .f32) y = (V c main_arg12 : S128x1.Idx → EReal) y := by
  obtain ⟨-, -, e0, e1, -⟩ := idx7 t
  unfold iblk7
  rw [View.read_apply]
  show V c main_arg12 _ = V c main_arg12 _
  congr 1
  funext a; apply Fin.ext
  match a with
  | ⟨0, _⟩ => show win7_1.index t (0 : Fin 2) * 128 + 1 * (y 0).val = (y 0).val; rw [e0]; omega
  | ⟨1, _⟩ => show win7_1.index t (1 : Fin 2) * 1 + 1 * (y 1).val = (y 1).val; rw [e1]; omega

/-- What point t writes back is block t of the matrix product of the arrays as the region finds them. -/
theorem flushed7_eq (t : Fin cfg7.N) :
    (dat7 (F := Ideal) V c).flushed 2 t = ((cfg7.win 2).blk t).view.read (Elt Ideal)
      (Cert.LibMatmul.MM (V c main_v65) (V c main_arg12)) := by
  show (cfg7.win 2).cut (grid7.coords t) ((dat7 V c).after 2 t) = _
  rw [after7_2]
  unfold out7_2
  rw [View.canon_unit_zero hz7]
  simp only [View.ld_unit_zero (S := S5000x128) hz7, View.ld_unit_zero (S := S128x1) hz7]
  funext j
  obtain ⟨p, q, rfl⟩ : ∃ (p : Fin 5000) (q : Fin 1), j = ix2 p q := ⟨j 0, j 1, eq_ix2 j⟩
  refine (congrFun (pay7 _ _) (ix2 p q)).trans ?_
  obtain ⟨-, -, -, -, e0, e1⟩ := idx7 t
  have hN : t.val < 20 := Nat.lt_of_lt_of_eq t.isLt N_7
  have hp : p.val < 5000 := p.isLt
  have hemb : ((cfg7.win 2).blk t).view.emb (ix2 p q) = (ix2 ⟨t.val * 5000 + p.val, by omega⟩ q : S100000x1.Idx) := by
    funext a; apply Fin.ext
    match a with
    | ⟨0, _⟩ => show win7_2.index t (0 : Fin 2) * 5000 + 1 * p.val = t.val * 5000 + p.val; rw [e0]; omega
    | ⟨1, _⟩ => show win7_2.index t (1 : Fin 2) * 1 + 1 * q.val = q.val; rw [e1]; omega
  show _ = Cert.LibMatmul.MM (V c main_v65) (V c main_arg12) (((cfg7.win 2).blk t).view.emb (ix2 p q))
  rw [hemb, Cert.LibMatmul.MM_apply, Cert.LibMatmul.MM_apply]
  exact Finset.sum_congr rfl fun k _ => by
    rw [rd7_0 V c t (ix2 p k) (ix2 ⟨t.val * 5000 + p.val, by omega⟩ k) rfl rfl, rd7_1 V c t (ix2 k q)]

/-- An index of the output array is in point t's block iff each coordinate is in the block's range on its axis. -/
theorem mem_blk7 (t : Fin cfg7.N) (i : S100000x1.Idx) :
    i ∈ ((cfg7.win 2).blk t).view.set ↔ ∀ a : Fin 2, win7_2.index t a * S5000x1.size a ≤ (i a).val
      ∧ (i a).val < win7_2.index t a * S5000x1.size a + S5000x1.size a := by
  show i ∈ ((View.whole main_v66).slice (win7_2.rect t)).set ↔ _
  rw [View.set_slice_whole, Rect.mem_set_unit]
  exact Iff.rfl

/-- Row r of the output array is in the block of point r / 5000: the twenty row blocks tile the array. -/
theorem cover7 (i : S100000x1.Idx) :
    ∃ t : Fin cfg7.N, (cfg7.win 2).flush t = true ∧ i ∈ ((cfg7.win 2).blk t).view.set := by
  have hi0 : (i 0).val < 100000 := (i 0).isLt
  have hi1 : (i 1).val < 1 := (i 1).isLt
  obtain ⟨t, ht⟩ : ∃ t : Fin cfg7.N, t.val = (i 0).val / 5000 :=
    ⟨⟨(i 0).val / 5000, Nat.lt_of_lt_of_eq (by omega) N_7.symm⟩, rfl⟩
  obtain ⟨-, -, -, -, e0, e1⟩ := idx7 t
  refine ⟨t, flush7_2 t, ?_⟩
  rw [mem_blk7]
  intro a
  match a with
  | ⟨0, _⟩ =>
    show win7_2.index t (0 : Fin 2) * 5000 ≤ (i 0).val ∧ (i 0).val < win7_2.index t (0 : Fin 2) * 5000 + 5000
    rw [e0]; omega
  | ⟨1, _⟩ =>
    show win7_2.index t (1 : Fin 2) * 1 ≤ (i 1).val ∧ (i 1).val < win7_2.index t (1 : Fin 2) * 1 + 1
    rw [e1]; omega

end HA

variable (V : (c : Dev nD) → (b : Ref sig .tc) → Buf (Elt Ideal) ((c : Thread nD τ).loc b)) (c : Dev nD)

/-- After the region the output array is the matrix product of the input arrays as the region finds them. -/
theorem final7 : (dat7 (F := Ideal) V c).arrAt 2 cfg7.N = Cert.LibMatmul.MM (V c main_v65) (V c main_arg12) :=
  (dat7 V c).arrAt_eq_of_cover 2 (Cert.LibMatmul.MM (V c main_v65) (V c main_arg12))
    (fun t _ => HA.flushed7_eq V c t) HA.cover7

end Cert.KernelIdeal.Regions

end
-- ==== Proof.RegComb8.lean ====
/-
  The node update of the last graph layer, as one array.  The region's body adds, block by block of 5000
  rows of the one column, the neighbourhood sum, the layer's product scaled by the degree factor, and the
  one-entry bias; there is no activation.  Each grid point t writes rows 5000 t … 5000 t + 4999; the twenty
  blocks tile the array, so after the region the output array is the whole-array function  comb1 agg h d2 r
  of the four input arrays.
-/
import proofs.«130695_j11355893531404_1_alg».proof.Proof.Gen.KernelIdeal.Frame
import proofs.«130695_j11355893531404_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

namespace HB

/-- The body's arithmetic at one entry (p, q) of a block (q ranges over the single column). -/
theorem pay8_apply (x0 x1 x2 : Vec Ideal S5000x1 .f32) (x3 : Vec Ideal S1x1 .f32)
    (p : Fin 5000) (q : Fin 1) :
    k8_pay1 x0 x1 x2 x3 (ix2 p q)
      = x0 (ix2 p q) + x1 (ix2 p q) * x2 (ix2 p q) + x3 (ix2 (0 : Fin 1) q) := by
  unfold k8_pay1
  simp only [shapeCast_self]
  have hq : q.val = 0 := by have := q.isLt; omega
  have b3 : broadcastTo S5000x1 x3 broadcasts_S1x1_S5000x1 (ix2 p q) = x3 (ix2 (0 : Fin 1) q) :=
    broadcastTo_apply x3 broadcasts_S1x1_S5000x1 (ix2 p q) (ix2 (0 : Fin 1) q) (fun a => by
      match a with
      | ⟨0, _⟩ => rfl
      | ⟨1, _⟩ => exact hq)
  simp only [addf_apply, mulf_apply, b3]

theorem hz8 : (![0, 0] : Fin 2 → Nat) = fun _ => 0 := funext fun a => by fin_cases a <;> rfl

/-- The printed index maps over the twenty grid points: the row-block windows sit at block (t, 0), the bias
    window at block (0, 0). -/
theorem idx_facts8 : ∀ t : Fin cfg8.N,
    win8_0.index t (0 : Fin 2) = t.val ∧ win8_0.index t (1 : Fin 2) = 0
  ∧ win8_1.index t (0 : Fin 2) = t.val ∧ win8_1.index t (1 : Fin 2) = 0
  ∧ win8_2.index t (0 : Fin 2) = t.val ∧ win8_2.index t (1 : Fin 2) = 0
  ∧ win8_3.index t (0 : Fin 2) = 0 ∧ win8_3.index t (1 : Fin 2) = 0
  ∧ win8_4.index t (0 : Fin 2) = t.val ∧ win8_4.index t (1 : Fin 2) = 0 :=
  (by decide +kernel : ∀ t : Fin grid8.N, _)

/-- Where block t of each window sits in its array: entry (p, q) of a row block is entry (5000 t + p, q) of the
    array; the one-entry bias is the whole array. -/
theorem emb8_0 (t : Fin cfg8.N) (p : Fin 5000) (q : Fin 1) (h : t.val * 5000 + p.val < 100000) :
    (((cfg8.win 0).blk t).view.emb (ix2 p q) : S100000x1.Idx) = ix2 (⟨t.val * 5000 + p.val, h⟩ : Fin 100000) q := by
  obtain ⟨e00, e01, -⟩ := idx_facts8 t
  funext a; apply Fin.ext
  match a with
  | ⟨0, _⟩ => show win8_0.index t (0 : Fin 2) * 5000 + 1 * p.val = t.val * 5000 + p.val; omega
  | ⟨1, _⟩ => show win8_0.index t (1 : Fin 2) * 1 + 1 * q.val = q.val; omega

theorem emb8_1 (t : Fin cfg8.N) (p : Fin 5000) (q : Fin 1) (h : t.val * 5000 + p.val < 100000) :
    (((cfg8.win 1).blk t).view.emb (ix2 p q) : S100000x1.Idx) = ix2 (⟨t.val * 5000 + p.val, h⟩ : Fin 100000) q := by
  obtain ⟨-, -, e10, e11, -⟩ := idx_facts8 t
  funext a; apply Fin.ext
  match a with
  | ⟨0, _⟩ => show win8_1.index t (0 : Fin 2) * 5000 + 1 * p.val = t.val * 5000 + p.val; omega
  | ⟨1, _⟩ => show win8_1.index t (1 : Fin 2) * 1 + 1 * q.val = q.val; omega

theorem emb8_2 (t : Fin cfg8.N) (p : Fin 5000) (q : Fin 1) (h : t.val * 5000 + p.val < 100000) :
    (((cfg8.win 2).blk t).view.emb (ix2 p q) : S100000x1.Idx) = ix2 (⟨t.val * 5000 + p.val, h⟩ : Fin 100000) q := by
  obtain ⟨-, -, -, -, e20, e21, -⟩ := idx_facts8 t
  funext a; apply Fin.ext
  match a with
  | ⟨0, _⟩ => show win8_2.index t (0 : Fin 2) * 5000 + 1 * p.val = t.val * 5000 + p.val; omega
  | ⟨1, _⟩ => show win8_2.index t (1 : Fin 2) * 1 + 1 * q.val = q.val; omega

theorem emb8_3 (t : Fin cfg8.N) (q : Fin 1) :
    (((cfg8.win 3).blk t).view.emb (ix2 (0 : Fin 1) q) : S1x1.Idx) = ix2 (0 : Fin 1) q := by
  obtain ⟨-, -, -, -, -, -, e30, e31, -⟩ := idx_facts8 t
  funext a; apply Fin.ext
  match a with
  | ⟨0, _⟩ => show win8_3.index t (0 : Fin 2) * 1 + 1 * 0 = 0; omega
  | ⟨1, _⟩ => show win8_3.index t (1 : Fin 2) * 1 + 1 * q.val = q.val; omega

theorem emb8_4 (t : Fin cfg8.N) (p : Fin 5000) (q : Fin 1) (h : t.val * 5000 + p.val < 100000) :
    (((cfg8.win 4).blk t).view.emb (ix2 p q) : S100000x1.Idx) = ix2 (⟨t.val * 5000 + p.val, h⟩ : Fin 100000) q := by
  obtain ⟨-, -, -, -, -, -, -, -, e40, e41⟩ := idx_facts8 t
  funext a; apply Fin.ext
  match a with
  | ⟨0, _⟩ => show win8_4.index t (0 : Fin 2) * 5000 + 1 * p.val = t.val * 5000 + p.val; omega
  | ⟨1, _⟩ => show win8_4.index t (1 : Fin 2) * 1 + 1 * q.val = q.val; omega

/-- Block t of the four input arrays, combined entry by entry, is block t of the combined arrays. -/
theorem blk_comb8 (A0 A1 A2 : S100000x1.Idx → EReal) (A3 : S1x1.Idx → EReal)
    (t : Fin cfg8.N) (p : Fin 5000) (q : Fin 1) :
    A0 (((cfg8.win 0).blk t).view.emb (ix2 p q))
        + A1 (((cfg8.win 1).blk t).view.emb (ix2 p q)) * A2 (((cfg8.win 2).blk t).view.emb (ix2 p q))
        + A3 (((cfg8.win 3).blk t).view.emb (ix2 (0 : Fin 1) q))
      = Cert.Gnn.comb1 A0 A1 A2 A3 (((cfg8.win 4).blk t).view.emb (ix2 p q)) := by
  have ht : t.val < 20 := lt_of_lt_of_eq t.isLt N_8
  have hp : p.val < 5000 := p.isLt
  have h : t.val * 5000 + p.val < 100000 := by omega
  rw [emb8_0 t p q h, emb8_1 t p q h, emb8_2 t p q h, emb8_3 t q, emb8_4 t p q h]
  rfl

/-- An index of the output array is in point t's block iff each coordinate is in the block's range on its axis. -/
theorem mem_blk8 (t : Fin cfg8.N) (i : S100000x1.Idx) :
    i ∈ ((cfg8.win 4).blk t).view.set ↔ ∀ a : Fin 2, win8_4.index t a * S5000x1.size a ≤ (i a).val
      ∧ (i a).val < win8_4.index t a * S5000x1.size a + S5000x1.size a := by
  show i ∈ ((View.whole main_v80).slice (win8_4.rect t)).set ↔ _
  rw [View.set_slice_whole, Rect.mem_set_unit]
  exact Iff.rfl

/-- Row r of the output array is in the block of point r / 5000: the twenty blocks cover the array. -/
theorem cover8 (i : S100000x1.Idx) :
    ∃ t : Fin cfg8.N, (cfg8.win 4).flush t = true ∧ i ∈ ((cfg8.win 4).blk t).view.set := by
  have hi0 : (i 0).val < 100000 := (i 0).isLt
  have hi1 : (i 1).val < 1 := (i 1).isLt
  have hN : grid8.N = 20 := N_8
  obtain ⟨t, ht⟩ : ∃ t : Fin cfg8.N, t.val = (i 0).val / 5000 :=
    ⟨⟨(i 0).val / 5000, by show _ < grid8.N; rw [hN]; omega⟩, rfl⟩
  refine ⟨t, flush8_4 t, ?_⟩
  rw [mem_blk8]
  obtain ⟨-, -, -, -, -, -, -, -, e40, e41⟩ := idx_facts8 t
  intro a
  match a with
  | ⟨0, _⟩ =>
    show win8_4.index t (0 : Fin 2) * 5000 ≤ (i 0).val ∧ (i 0).val < win8_4.index t (0 : Fin 2) * 5000 + 5000
    omega
  | ⟨1, _⟩ =>
    show win8_4.index t (1 : Fin 2) * 1 ≤ (i 1).val ∧ (i 1).val < win8_4.index t (1 : Fin 2) * 1 + 1
    omega

variable (V : (c : Dev nD) → (b : Ref sig .tc) → Buf (Elt Ideal) ((c : Thread nD τ).loc b)) (c : Dev nD)

set_option maxHeartbeats 400000 in
/-- What grid point t writes back is block t of the combined arrays. -/
theorem flushed8_eq (t : Fin cfg8.N) :
    (dat8 (F := Ideal) V c).flushed 4 t
      = ((cfg8.win 4).blk t).view.read (Elt Ideal)
          (Cert.Gnn.comb1 (V c main_v78) (V c main_v66) (V c main_v33) (V c main_v79)) := by
  show (cfg8.win 4).cut (grid8.coords t) ((dat8 V c).after 4 t) = _
  rw [after8_4]
  unfold out8_4
  rw [View.canon_unit_zero hz8]
  simp only [View.ld_unit_zero (S := S5000x1) hz8, View.ld_unit_zero (S := S1x1) hz8]
  funext j
  obtain ⟨p, q, rfl⟩ : ∃ (p : Fin 5000) (q : Fin 1), j = ix2 p q := ⟨j 0, j 1, eq_ix2 j⟩
  refine (pay8_apply _ _ _ _ p q).trans ?_
  exact blk_comb8 (V c main_v78) (V c main_v66) (V c main_v33) (V c main_v79) t p q

end HB

variable (V : (c : Dev nD) → (b : Ref sig .tc) → Buf (Elt Ideal) ((c : Thread nD τ).loc b)) (c : Dev nD)

/-- After the region the output array is the last layer's node update of the four input arrays. -/
theorem final8 : (dat8 (F := Ideal) V c).arrAt 4 cfg8.N
    = Cert.Gnn.comb1 (V c main_v78) (V c main_v66) (V c main_v33) (V c main_v79) :=
  (dat8 V c).arrAt_eq_of_cover 4 (Cert.Gnn.comb1 (V c main_v78) (V c main_v66) (V c main_v33) (V c main_v79))
    (fun t _ => HB.flushed8_eq V c t) HB.cover8

end Cert.KernelIdeal.Regions

end
-- ==== Proof.KChain.lean ====
/-
  The kernel's program, boundary by boundary: what each region's output array and each host stretch's results
  hold as functions of the argument arrays.  Three dense layers, then for every graph layer the product with the
  weights, the neighbourhood sum (host) and the node update (region); the inverse roots of the degrees, the edge
  coefficients and the squared inverse roots are computed once, by the fourth host stretch, and reused.
-/
import proofs.«130695_j11355893531404_1_alg».proof.Proof.Gen.KernelIdeal.Frame
import proofs.«130695_j11355893531404_1_alg».proof.Proof.Spec
import proofs.«130695_j11355893531404_1_alg».proof.Proof.GraphK
import proofs.«130695_j11355893531404_1_alg».proof.Proof.KSteps
import proofs.«130695_j11355893531404_1_alg».proof.Proof.RegDense0
import proofs.«130695_j11355893531404_1_alg».proof.Proof.RegDense1
import proofs.«130695_j11355893531404_1_alg».proof.Proof.RegDense2
import proofs.«130695_j11355893531404_1_alg».proof.Proof.RegLin3
import proofs.«130695_j11355893531404_1_alg».proof.Proof.RegComb4
import proofs.«130695_j11355893531404_1_alg».proof.Proof.RegLin5
import proofs.«130695_j11355893531404_1_alg».proof.Proof.RegComb6
import proofs.«130695_j11355893531404_1_alg».proof.Proof.RegLin7
import proofs.«130695_j11355893531404_1_alg».proof.Proof.RegComb8
import Idealize.ShloMosaic.Lib.Pipeline.Value
import Idealize.ShloMosaic.Lib.ValueIdx
import Idealize.ShloMosaic.Lib.StableHlo.Run

set_option maxRecDepth 16384

noncomputable section

namespace Cert.KernelIdeal.Chain

open Cert.KernelIdeal Cert.KernelIdeal.Gen Cert.KernelIdeal.GraphDefs Cert.KernelIdeal.Steps Cert.KernelIdeal.Regions
open Cert.Gnn Cert.LibMatmul
open Idealize.ShloMosaic Idealize.ShloMosaic.TcCoe Idealize.SL.Sem Idealize.ShloMosaic.StableHlo Idealize.ShloMosaic.ValueIdx

/-- A bias vector reshaped to one row holds the vector's entries. -/
theorem row_cast (b : S128.Idx → EReal) (h : S128.ShapeCasts S1x128) : shapeCast S1x128 b h = rowOf b := by
  funext j
  obtain ⟨p, q, rfl⟩ : ∃ (p : Fin 1) (q : Fin 128), j = ix2 p q := ⟨j 0, j 1, eq_ix2 j⟩
  refine shapeCast_apply b h (ix2 p q) (ix1 q) ?_
  rw [Shape.rowMajor_val_one, Shape.rowMajor_val_two]
  have : p.val = 0 := by omega
  simp [this]

/-- A one-entry bias vector reshaped to a 1×1 matrix holds that entry. -/
theorem row_cast1 (b : S1.Idx → EReal) (h : S1.ShapeCasts S1x1) : shapeCast S1x1 b h = rowOf1 b := by
  funext j
  obtain ⟨p, q, rfl⟩ : ∃ (p : Fin 1) (q : Fin 1), j = ix2 p q := ⟨j 0, j 1, eq_ix2 j⟩
  refine shapeCast_apply b h (ix2 p q) (ix1 q) ?_
  rw [Shape.rowMajor_val_one, Shape.rowMajor_val_two]
  have : p.val = 0 := by omega
  simp [this]

variable (m : (ℓ : Loc nD τ sig) → Buf (Elt Ideal) ℓ) (ρ : Dev nD → PrngReg) (c : Dev nD)

/-- An argument array at launch. -/
abbrev arg (b : Ref sig .tc) : Buf (Elt Ideal) ((c : Thread nD τ).loc b) := m ((c : Thread nD τ).loc b)

/-! ## The values, named -/

abbrev H1 : SNxD.Idx → EReal := dense (arg m c main_arg0) (arg m c main_arg2) (rowOf (arg m c main_arg3))
abbrev H2 : SNxD.Idx → EReal := dense (H1 m c) (arg m c main_arg4) (rowOf (arg m c main_arg5))
abbrev H3 : SNxD.Idx → EReal := dense (H2 m c) (arg m c main_arg6) (rowOf (arg m c main_arg7))
abbrev src : IVec S640000 32 := srcOf (arg m c main_arg1)
abbrev dst : IVec S640000 32 := dstOf (arg m c main_arg1)
abbrev dis : FVec Ideal S100000 .f32 := disOf (col (dst m c))
abbrev coef : FVec Ideal S640000 .f32 := coefOf (dis m c) (src m c) (dst m c)
abbrev D2 : SNx1.Idx → EReal := d2Of (dis m c)
abbrev L0 : SNxD.Idx → EReal := MM (H3 m c) (arg m c main_arg8)
abbrev H4 : SNxD.Idx → EReal := comb (aggOf (coef m c) (src m c) (dst m c) (L0 m c)) (L0 m c) (D2 m c) (rowOf (arg m c main_arg9))
abbrev L1 : SNxD.Idx → EReal := MM (H4 m c) (arg m c main_arg10)
abbrev H5 : SNxD.Idx → EReal := comb (aggOf (coef m c) (src m c) (dst m c) (L1 m c)) (L1 m c) (D2 m c) (rowOf (arg m c main_arg11))
abbrev L2 : SNx1.Idx → EReal := MM (H5 m c) (arg m c main_arg12)
abbrev OUT : SNx1.Idx → EReal := comb1 (aggOf1 (coef m c) (src m c) (dst m c) (L2 m c)) (L2 m c) (D2 m c) (rowOf1 (arg m c main_arg13))

/-- The named result is the network of the kernel's graph pieces. -/
theorem OUT_eq : OUT m c = net (graph (arg m c main_arg1)) (arg m c main_arg0) (arg m c main_arg2) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) := rfl

/-! ## The first stretch: the two index rows and the first bias row -/

theorem w1_v1 : W1 m ρ c (Proc.devRef .tc main_v1) = src m c := by
  show StableHlo.after hostOps0 (W0 m ρ c) (Proc.devRef .tc main_v1) = _
  after_results
  rfl

theorem w1_v3 : W1 m ρ c (Proc.devRef .tc main_v3) = dst m c := by
  show StableHlo.after hostOps0 (W0 m ρ c) (Proc.devRef .tc main_v3) = _
  after_results
  rfl

theorem w1_v4 : W1 m ρ c (Proc.devRef .tc main_v4) = rowOf (arg m c main_arg3) := by
  show StableHlo.after hostOps0 (W0 m ρ c) (Proc.devRef .tc main_v4) = _
  after_results
  exact row_cast _ _

/-! ## The dense layers -/

theorem v5 : W2 m ρ c (Proc.devRef .tc main_v5) = H1 m c :=
  (W2_arr m ρ c 3).trans ((final0 (V1 m ρ) c).trans (by
    show dense (W1 m ρ c (Proc.devRef .tc main_arg0)) (W1 m ρ c (Proc.devRef .tc main_arg2)) (W1 m ρ c (Proc.devRef .tc main_v4)) = _
    rw [arg_at1 m ρ c main_arg0 (by decide), arg_at1 m ρ c main_arg2 (by decide), w1_v4]))

theorem w3_v6 : W3 m ρ c (Proc.devRef .tc main_v6) = rowOf (arg m c main_arg5) := by
  show StableHlo.after hostOps1 (W2 m ρ c) (Proc.devRef .tc main_v6) = _
  after_results
  rw [arg_at2 m ρ c main_arg5 (by decide)]
  exact row_cast _ _

theorem v7 : W4 m ρ c (Proc.devRef .tc main_v7) = H2 m c :=
  (W4_arr m ρ c 3).trans ((final1 (V3 m ρ) c).trans (by
    show dense (W3 m ρ c (Proc.devRef .tc main_v5)) (W3 m ρ c (Proc.devRef .tc main_arg4)) (W3 m ρ c (Proc.devRef .tc main_v6)) = _
    rw [step3 m ρ c main_v5 (by decide), v5, arg_at3 m ρ c main_arg4 (by decide), w3_v6]))

theorem w5_v8 : W5 m ρ c (Proc.devRef .tc main_v8) = rowOf (arg m c main_arg7) := by
  show StableHlo.after hostOps2 (W4 m ρ c) (Proc.devRef .tc main_v8) = _
  after_results
  rw [arg_at4 m ρ c main_arg7 (by decide)]
  exact row_cast _ _

theorem v9 : W6 m ρ c (Proc.devRef .tc main_v9) = H3 m c :=
  (W6_arr m ρ c 3).trans ((final2 (V5 m ρ) c).trans (by
    show dense (W5 m ρ c (Proc.devRef .tc main_v7)) (W5 m ρ c (Proc.devRef .tc main_arg6)) (W5 m ρ c (Proc.devRef .tc main_v8)) = _
    rw [step5 m ρ c main_v7 (by decide), v7, arg_at5 m ρ c main_arg6 (by decide), w5_v8]))

/-! ## The fourth stretch: the edge coefficients and the squared inverse roots -/

set_option maxHeartbeats 1000000 in
attribute [local irreducible] Host.scatterAdd Host.gather Host.rsqrt in
theorem w7_v31 : W7 m ρ c (Proc.devRef .tc main_v31) = coef m c := by
  show StableHlo.after hostOps3 (W6 m ρ c) (Proc.devRef .tc main_v31) = _
  after_results_simp
  rw [rows_at6 m ρ c main_v1 (by decide), rows_at6 m ρ c main_v3 (by decide), w1_v1, w1_v3]
  rfl

set_option maxHeartbeats 1000000 in
attribute [local irreducible] Host.scatterAdd Host.gather Host.rsqrt in
theorem w7_v33 : W7 m ρ c (Proc.devRef .tc main_v33) = D2 m c := by
  show StableHlo.after hostOps3 (W6 m ρ c) (Proc.devRef .tc main_v33) = _
  after_results_simp
  rw [rows_at6 m ρ c main_v3 (by decide), w1_v3]
  rfl

/-! ## The first graph layer -/

theorem v34 : W8 m ρ c (Proc.devRef .tc main_v34) = L0 m c :=
  (W8_arr m ρ c 2).trans ((final3 (V7 m ρ) c).trans (by
    show MM (W7 m ρ c (Proc.devRef .tc main_v9)) (W7 m ρ c (Proc.devRef .tc main_arg8)) = _
    rw [step7 m ρ c main_v9 (by decide), v9, arg_at7 m ρ c main_arg8 (by decide)]))

set_option maxHeartbeats 1000000 in
attribute [local irreducible] Host.scatterAdd Host.gather Host.rsqrt in
theorem w9_v47 : W9 m ρ c (Proc.devRef .tc main_v47) = aggOf (coef m c) (src m c) (dst m c) (L0 m c) := by
  show StableHlo.after hostOps4 (W8 m ρ c) (Proc.devRef .tc main_v47) = _
  after_results_simp
  rw [norms_at8 m ρ c main_v31 (by decide), w7_v31, rows_at8 m ρ c main_v1 (by decide), rows_at8 m ρ c main_v3 (by decide), w1_v1, w1_v3, v34]
  rfl

theorem w9_v48 : W9 m ρ c (Proc.devRef .tc main_v48) = rowOf (arg m c main_arg9) := by
  show StableHlo.after hostOps4 (W8 m ρ c) (Proc.devRef .tc main_v48) = _
  after_results_simp
  rw [arg_at8 m ρ c main_arg9 (by decide)]
  exact row_cast _ _

theorem v49 : W10 m ρ c (Proc.devRef .tc main_v49) = H4 m c :=
  (W10_arr m ρ c 4).trans ((final4 (V9 m ρ) c).trans (by
    show comb (W9 m ρ c (Proc.devRef .tc main_v47)) (W9 m ρ c (Proc.devRef .tc main_v34)) (W9 m ρ c (Proc.devRef .tc main_v33)) (W9 m ρ c (Proc.devRef .tc main_v48)) = _
    rw [w9_v47, step9 m ρ c main_v34 (by decide), v34, norms_at9 m ρ c main_v33 (by decide), w7_v33, w9_v48]))

/-! ## The second graph layer -/

theorem v50 : W11 m ρ c (Proc.devRef .tc main_v50) = L1 m c :=
  (W11_arr m ρ c 2).trans ((final5 (V10 m ρ) c).trans (by
    show MM (W10 m ρ c (Proc.devRef .tc main_v49)) (W10 m ρ c (Proc.devRef .tc main_arg10)) = _
    rw [v49, arg_at10 m ρ c main_arg10 (by decide)]))

set_option maxHeartbeats 1000000 in
attribute [local irreducible] Host.scatterAdd Host.gather Host.rsqrt in
theorem w12_v63 : W12 m ρ c (Proc.devRef .tc main_v63) = aggOf (coef m c) (src m c) (dst m c) (L1 m c) := by
  show StableHlo.after hostOps6 (W11 m ρ c) (Proc.devRef .tc main_v63) = _
  after_results_simp
  rw [norms_at11 m ρ c main_v31 (by decide), w7_v31, rows_at11 m ρ c main_v1 (by decide), rows_at11 m ρ c main_v3 (by decide), w1_v1, w1_v3, v50]
  rfl

theorem w12_v64 : W12 m ρ c (Proc.devRef .tc main_v64) = rowOf (arg m c main_arg11) := by
  show StableHlo.after hostOps6 (W11 m ρ c) (Proc.devRef .tc main_v64) = _
  after_results_simp
  rw [arg_at11 m ρ c main_arg11 (by decide)]
  exact row_cast _ _

theorem v65 : W13 m ρ c (Proc.devRef .tc main_v65) = H5 m c :=
  (W13_arr m ρ c 4).trans ((final6 (V12 m ρ) c).trans (by
    show comb (W12 m ρ c (Proc.devRef .tc main_v63)) (W12 m ρ c (Proc.devRef .tc main_v50)) (W12 m ρ c (Proc.devRef .tc main_v33)) (W12 m ρ c (Proc.devRef .tc main_v64)) = _
    rw [w12_v63, step12 m ρ c main_v50 (by decide), v50, norms_at12 m ρ c main_v33 (by decide), w7_v33, w12_v64]))

/-! ## The last graph layer -/

theorem v66 : W14 m ρ c (Proc.devRef .tc main_v66) = L2 m c :=
  (W14_arr m ρ c 2).trans ((final7 (V13 m ρ) c).trans (by
    show MM (W13 m ρ c (Proc.devRef .tc main_v65)) (W13 m ρ c (Proc.devRef .tc main_arg12)) = _
    rw [v65, arg_at13 m ρ c main_arg12 (by decide)]))

set_option maxHeartbeats 1000000 in
attribute [local irreducible] Host.scatterAdd Host.gather Host.rsqrt in
theorem w15_v78 : W15 m ρ c (Proc.devRef .tc main_v78) = aggOf1 (coef m c) (src m c) (dst m c) (L2 m c) := by
  show StableHlo.after hostOps8 (W14 m ρ c) (Proc.devRef .tc main_v78) = _
  after_results_simp
  rw [norms_at14 m ρ c main_v31 (by decide), w7_v31, rows_at14 m ρ c main_v1 (by decide), rows_at14 m ρ c main_v3 (by decide), w1_v1, w1_v3, v66]
  rfl

theorem w15_v79 : W15 m ρ c (Proc.devRef .tc main_v79) = rowOf1 (arg m c main_arg13) := by
  show StableHlo.after hostOps8 (W14 m ρ c) (Proc.devRef .tc main_v79) = _
  after_results_simp
  rw [arg_at14 m ρ c main_arg13 (by decide)]
  exact row_cast1 _ _

/-- The result array after the last region is the network of the argument arrays. -/
theorem v80 : W16 m ρ c (Proc.devRef .tc main_v80) = OUT m c :=
  (W16_arr m ρ c 4).trans ((final8 (V15 m ρ) c).trans (by
    show comb1 (W15 m ρ c (Proc.devRef .tc main_v78)) (W15 m ρ c (Proc.devRef .tc main_v66)) (W15 m ρ c (Proc.devRef .tc main_v33)) (W15 m ρ c (Proc.devRef .tc main_v79)) = _
    rw [w15_v78, step15 m ρ c main_v66 (by decide), v66, norms_at15 m ρ c main_v33 (by decide), w7_v33, w15_v79]))

end Cert.KernelIdeal.Chain

end
-- ==== Proof.GraphR.lean ====
/-
  The graph-dependent part of the network as the reference computes it from the edge array: the two index rows, the
  inverse square roots of the node degrees (a scatter-add of ones at the destination indices, plus one, under rsqrt),
  the edge coefficients (the product of the two gathered inverse roots), the neighbourhood sum of a feature array
  (gather the source rows, scale by the coefficients, scatter-add at the destinations) and the squared inverse roots
  as one column.  The degrees are scattered at the destination indices with negative ones wrapped by the node count.
-/
import proofs.«130695_j11355893531404_1_alg».proof.Proof.Gen.ReferenceIdeal
import proofs.«130695_j11355893531404_1_alg».proof.Proof.Spec

noncomputable section

namespace Cert.ReferenceIdeal.GraphDefs

open Cert.ReferenceIdeal Cert.ReferenceIdeal.Gen Idealize.ShloMosaic

/-- Row 0 of the edge array: the source node of every edge. -/
def srcOf (e : IVec S2x640000 32) : IVec S640000 32 :=
  shapeCast S640000 (extractStridedSlice S1x640000 ![0, 0] e slices_S2x640000_S1x640000_0_0) shapeCasts_S1x640000_S640000

/-- Row 1 of the edge array: the destination node of every edge. -/
def dstOf (e : IVec S2x640000 32) : IVec S640000 32 :=
  shapeCast S640000 (extractStridedSlice S1x640000 ![1, 0] e slices_S2x640000_S1x640000_1_0) shapeCasts_S1x640000_S640000

/-- A negative index counted from the end: `v + 100000` where `v < 0` (signed), `v` elsewhere. -/
def wrap (v : IVec S640000 32) : IVec S640000 32 :=
  select (cmpi .slt v (broadcastInDim S640000 ![] bcast_S_S640000 (constantI S_ 32 0#32)))
    (addi v (broadcastInDim S640000 ![] bcast_S_S640000 (constantI S_ 32 100000#32))) v

/-- A vector of indices as the one-column array a gather or scatter takes. -/
def col (v : IVec S640000 32) : IVec S640000x1 32 := broadcastInDim S640000x1 ![0] bcast_S640000_S640000x1_0 v

/-- The inverse square roots of the degrees (self-loop counted), from the column of indices the ones are scattered at. -/
def disOf (idx : IVec S640000x1 32) : FVec Ideal S100000 .f32 :=
  Host.rsqrt (addf
    (Host.scatterAdd scatter_S100000_S640000x1_S640000_n_0_0_1
      (broadcastInDim S100000 ![] bcast_S_S100000 (constant S_ .f32 0x00000000#32)) idx
      (broadcastInDim S640000 ![] bcast_S_S640000 (constant S_ .f32 0x3F800000#32)))
    (broadcastInDim S100000 ![] bcast_S_S100000 (constant S_ .f32 0x3F800000#32)))

/-- The coefficient of every edge: the inverse root at its source times the inverse root at its destination. -/
def coefOf (dis : FVec Ideal S100000 .f32) (s d : IVec S640000 32) : FVec Ideal S640000 .f32 :=
  mulf (Host.gather gather_S100000_S640000x1_S640000_n_0_n_n_0_1_1 dis (col (wrap s)))
    (Host.gather gather_S100000_S640000x1_S640000_n_0_n_n_0_1_1 dis (col (wrap d)))

/-- The neighbourhood sum of a 128-column feature array. -/
def aggOf (coef : FVec Ideal S640000 .f32) (s d : IVec S640000 32) (h : FVec Ideal S100000x128 .f32) : FVec Ideal S100000x128 .f32 :=
  Host.scatterAdd scatter_S100000x128_S640000x1_S640000x128_1_0_0_1
    (broadcastInDim S100000x128 ![] bcast_S_S100000x128 (constant S_ .f32 0x00000000#32)) (col d)
    (mulf (Host.gather gather_S100000x128_S640000x1_S640000x128_1_0_n_n_0_1_1128 h (col (wrap s)))
      (broadcastInDim S640000x128 ![0, 1] bcast_S640000x1_S640000x128_0_1 (broadcastInDim S640000x1 ![0] bcast_S640000_S640000x1_0 coef)))

/-- The neighbourhood sum of a one-column feature array. -/
def aggOf1 (coef : FVec Ideal S640000 .f32) (s d : IVec S640000 32) (h : FVec Ideal S100000x1 .f32) : FVec Ideal S100000x1 .f32 :=
  Host.scatterAdd scatter_S100000x1_S640000x1_S640000x1_1_0_0_1
    (broadcastInDim S100000x1 ![] bcast_S_S100000x1 (constant S_ .f32 0x00000000#32)) (col d)
    (mulf (Host.gather gather_S100000x1_S640000x1_S640000x1_1_0_n_n_0_1_11 h (col (wrap s)))
      (broadcastInDim S640000x1 ![0] bcast_S640000_S640000x1_0 coef))

/-- The squared inverse roots as one column. -/
def d2Of (dis : FVec Ideal S100000 .f32) : FVec Ideal S100000x1 .f32 :=
  broadcastInDim S100000x1 ![0] bcast_S100000_S100000x1_0 (mulf dis dis)

/-- The three graph-dependent pieces of the network, from the edge array. -/
def graph (e : IVec S2x640000 32) : Cert.Gnn.Graph :=
  let s := srcOf e
  let d := dstOf e
  let dis := disOf (col (wrap d))
  let coef := coefOf dis s d
  { agg := aggOf coef s d, agg1 := aggOf1 coef s d, d2 := d2Of dis }

end Cert.ReferenceIdeal.GraphDefs

end
-- ==== Proof.GraphEq.lean ====
/-
  The graph-dependent pieces of the two programs are the same functions of the edge array once every
  destination index is non-negative: the only difference is the index the degrees are scattered at — the
  reference wraps a negative index by the node count, the kernel's host program does not — and on a
  non-negative index the wrap is the identity.  The squared inverse roots are laid out as one column by a
  broadcast in one program and by a reshape in the other: the same entries.
-/
import proofs.«130695_j11355893531404_1_alg».proof.Proof.GraphK
import proofs.«130695_j11355893531404_1_alg».proof.Proof.GraphR
import Idealize.ShloMosaic.Lib.Pipeline.Value
import Idealize.ShloMosaic.Lib.ValueIdx
import Idealize.ShloMosaic.Lib.Affine

noncomputable section

namespace Cert.GraphEq

open Idealize.ShloMosaic Idealize.ShloMosaic.ValueIdx

namespace K
export Cert.KernelIdeal.GraphDefs (srcOf dstOf wrap col disOf coefOf aggOf aggOf1 d2Of graph)
end K
namespace R
export Cert.ReferenceIdeal.GraphDefs (srcOf dstOf wrap col disOf coefOf aggOf aggOf1 d2Of graph)
end R

theorem srcOf_eq (e : IVec ⟨2, ![2, 640000]⟩ 32) : K.srcOf e = R.srcOf e := rfl
theorem dstOf_eq (e : IVec ⟨2, ![2, 640000]⟩ 32) : K.dstOf e = R.dstOf e := rfl
theorem wrap_eq (v : IVec ⟨1, ![640000]⟩ 32) : K.wrap v = R.wrap v := rfl
theorem col_eq (v : IVec ⟨1, ![640000]⟩ 32) : K.col v = R.col v := rfl

attribute [local irreducible] Host.scatterAdd Host.gather Host.rsqrt in
theorem disOf_eq (i : IVec ⟨2, ![640000, 1]⟩ 32) : K.disOf i = R.disOf i := rfl

attribute [local irreducible] Host.scatterAdd Host.gather Host.rsqrt in
theorem coefOf_eq (dis : FVec Ideal ⟨1, ![100000]⟩ .f32) (s d : IVec ⟨1, ![640000]⟩ 32) : K.coefOf dis s d = R.coefOf dis s d := rfl

attribute [local irreducible] Host.scatterAdd Host.gather Host.rsqrt in
theorem aggOf_eq (coef : FVec Ideal ⟨1, ![640000]⟩ .f32) (s d : IVec ⟨1, ![640000]⟩ 32) (h : FVec Ideal ⟨2, ![100000, 128]⟩ .f32) :
    K.aggOf coef s d h = R.aggOf coef s d h := rfl

attribute [local irreducible] Host.scatterAdd Host.gather Host.rsqrt in
theorem aggOf1_eq (coef : FVec Ideal ⟨1, ![640000]⟩ .f32) (s d : IVec ⟨1, ![640000]⟩ 32) (h : FVec Ideal ⟨2, ![100000, 1]⟩ .f32) :
    K.aggOf1 coef s d h = R.aggOf1 coef s d h := rfl

/-- On non-negative signed words the wrap of a negative index is the identity. -/
theorem wrap_of_nonneg (v : IVec ⟨1, ![640000]⟩ 32) (hv : ∀ k, 0 ≤ (v k).toInt) : R.wrap v = v := by
  funext k
  unfold Cert.ReferenceIdeal.GraphDefs.wrap
  show Scalar.select (IntOp.cmpi .slt (v k) 0#32) _ (v k) = v k
  have h0 : IntOp.cmpi .slt (v k) 0#32 = 0#1 := by
    rcases BitVec.eq_zero_or_eq_one (IntOp.cmpi .slt (v k) 0#32) with h | h
    · exact h
    · have := IntOp.cmpi_slt.1 h
      have h' := hv k
      simp at this
      omega
  rw [h0]
  exact select_zero _ _

/-- One column by a reshape or by a broadcast along a new unit axis: the same entries. -/
theorem d2Of_eq (dis : FVec Ideal ⟨1, ![100000]⟩ .f32) : K.d2Of dis = R.d2Of dis := by
  funext i
  obtain ⟨p, q, rfl⟩ : ∃ (p : Fin 100000) (q : Fin 1), i = ix2 p q := ⟨i 0, i 1, eq_ix2 i⟩
  unfold Cert.KernelIdeal.GraphDefs.d2Of Cert.ReferenceIdeal.GraphDefs.d2Of
  rw [shapeCast_apply _ _ (ix2 p q) (ix1 p) (by
        rw [Shape.rowMajor_val_one, Shape.rowMajor_val_two]
        have : q.val = 0 := by omega
        simp [this]),
      broadcastInDim_apply _ _ _ (ix2 p q) (ix1 p) (by
        intro a; match a with | ⟨0, _⟩ => rfl)]

/-- Both programs' graph pieces agree when the destination indices are non-negative. -/
theorem graph_eq (e : IVec ⟨2, ![2, 640000]⟩ 32) (h : ∀ k, 0 ≤ (R.dstOf e k).toInt) : K.graph e = R.graph e := by
  unfold Cert.KernelIdeal.GraphDefs.graph Cert.ReferenceIdeal.GraphDefs.graph
  dsimp only
  rw [wrap_of_nonneg _ h, Cert.Gnn.Graph.mk.injEq]
  refine ⟨?_, ?_, ?_⟩
  · funext x
    rw [srcOf_eq, dstOf_eq, col_eq, disOf_eq, coefOf_eq, aggOf_eq]
  · funext x
    rw [srcOf_eq, dstOf_eq, col_eq, disOf_eq, coefOf_eq, aggOf1_eq]
  · rw [dstOf_eq, col_eq, disOf_eq, d2Of_eq]

end Cert.GraphEq

end
-- ==== Proof.PreDecode.lean ====
/-
  What the precondition says of the edge array: its last conjunct is an all-reduction, by `and`, of the signed
  comparison `dst ≥ 0` over the destination row, so every destination index is non-negative.
-/
import proofs.«130695_j11355893531404_1_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

instance : Subsingleton S_.Idx := ⟨fun a b => funext fun d => d.elim0⟩

/-- Row 1 of the edge array, as the precondition spells it. -/
def dstRow (e : IVec S2x640000 32) : IVec S640000 32 :=
  shapeCast S640000 (extractStridedSlice S1x640000 ![1, 0] e slices_S2x640000_S1x640000_1_0) shapeCasts_S1x640000_S640000

variable {F : FTy → Type} [FloatOps F]

/-- Under the precondition every destination index is non-negative as a signed word. -/
theorem dst_nonneg (a0 : FVec F S100000x128 .f32) (a1 : IVec S2x640000 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (a12 : FVec F S128x1 .f32) (a13 : FVec F S1 .f32)
    (h : fn (F := F) a0 a1 a2 a3 a4 a5 a6 a7 a8 a9 a10 a11 a12 a13 = fun _ => 1#1) (k : S640000.Idx) :
    0 ≤ (dstRow a1 k).toInt := by
  have h0 := congrFun h ValueIdx.ix0
  dsimp only [fn, fn_part1, fn_part2, fn_part3, fn_part4] at h0
  obtain ⟨-, h2⟩ := IntOp.andi_eq_one.1 h0
  have h3 := Host.reduce_andi_all _ _ _ _ _ h2 k
  exact IntOp.cmpi_sge.1 h3

end Cert.Pre_finite_inputs.Decode

end
-- ==== Proof.RefOps.lean ====
/- The reference program's host operations, in program order, as lists: every statement of its printed @main with the
   step wrapper removed, each call of the activation written as the callee's seven operations over that call's buffers.
   The pieces follow the computation: the two index rows; three dense layers; per graph layer the product with the
   weights, the degrees and their inverse square roots, the edge coefficients, the neighbourhood sum, the node update. -/
import proofs.«130695_j11355893531404_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

abbrev srcDst : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000 ]
theorem srcDst_sub : (srcDst : List (HloOp τ sig (Elt F))).Forall fun op => op.bufs ⊆ tcRefs τ sig :=
  ⟨unary_bufs_sub .., reshape_bufs_sub .., unary_bufs_sub .., reshape_bufs_sub ..⟩

abbrev dense1 : List (HloOp τ sig (Elt F)) :=
  [ binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v7) main_call0.v0 main_call0.v1 (cmpf .oge),
    TRef.nullary main_call0.cst_0 (constant S_ .f32 0x3C23D70A#32),
    TRef.unary main_call0.cst_0 main_call0.v2 (broadcastInDim S100000x128 ![] bcast_S_S100000x128),
    TRef.binary main_call0.v2 (.of main_v7) main_call0.v3 mulf,
    TRef.ternary main_call0.v1 (.of main_v7) main_call0.v3 main_call0.call0.v0 select ]
theorem dense1_sub : (dense1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

abbrev dense2 : List (HloOp τ sig (Elt F)) :=
  [ binary main_v8 main_arg4 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v9 main_v11 main_v12 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v12) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (.of main_v12) main_call1.v3 mulf,
    TRef.ternary main_call1.v1 (.of main_v12) main_call1.v3 main_call1.call0.v0 select ]
theorem dense2_sub : (dense2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

abbrev dense3 : List (HloOp τ sig (Elt F)) :=
  [ binary main_v13 main_arg6 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v17) main_call2.v0 main_call2.v1 (cmpf .oge),
    TRef.nullary main_call2.cst_0 (constant S_ .f32 0x3C23D70A#32),
    TRef.unary main_call2.cst_0 main_call2.v2 (broadcastInDim S100000x128 ![] bcast_S_S100000x128),
    TRef.binary main_call2.v2 (.of main_v17) main_call2.v3 mulf,
    TRef.ternary main_call2.v1 (.of main_v17) main_call2.v3 main_call2.call0.v0 select ]
theorem dense3_sub : (dense3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

abbrev lin0 : List (HloOp τ sig (Elt F)) :=
  [ binary main_v18 main_arg8 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
theorem lin0_sub : (lin0 : List (HloOp τ sig (Elt F))).Forall fun op => op.bufs ⊆ tcRefs τ sig :=
  binary_bufs_sub ..

abbrev deg0 : List (HloOp τ sig (Elt F)) :=
  [ nullary main_cst (constant S_ .f32 0x00000000#32),
    unary main_cst main_v20 (broadcastInDim S100000 ![] bcast_S_S100000 : (⟨S_, .f32⟩ : BufTy).Contents (Elt F) → (⟨S100000, .f32⟩ : BufTy).Contents (Elt F)),
    nullary main_c (constantI S_ 32 0#32),
    unary main_c main_v21 (broadcastInDim S640000 ![] bcast_S_S640000 : (⟨S_, .i32⟩ : BufTy).Contents (Elt F) → (⟨S640000, .i32⟩ : BufTy).Contents (Elt F)),
    binary main_v3 main_v21 main_v22 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v23 (broadcastInDim S640000 ![] bcast_S_S640000 : (⟨S_, .i32⟩ : BufTy).Contents (Elt F) → (⟨S640000, .i32⟩ : BufTy).Contents (Elt F)),
    binary main_v3 main_v23 main_v24 (addi : (⟨S640000, .i32⟩ : BufTy).Contents (Elt F) → (⟨S640000, .i32⟩ : BufTy).Contents (Elt F) → (⟨S640000, .i32⟩ : BufTy).Contents (Elt F)),
    ternary main_v22 main_v24 main_v3 main_v25 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v25 main_v26 (broadcastInDim S640000x1 ![0] bcast_S640000_S640000x1_0 : (⟨S640000, .i32⟩ : BufTy).Contents (Elt F) → (⟨S640000x1, .i32⟩ : BufTy).Contents (Elt F)),
    nullary main_cst_1 (constant S_ .f32 0x3F800000#32),
    unary main_cst_1 main_v27 (broadcastInDim S640000 ![] bcast_S_S640000 : (⟨S_, .f32⟩ : BufTy).Contents (Elt F) → (⟨S640000, .f32⟩ : BufTy).Contents (Elt F)),
    ternary main_v20 main_v26 main_v27 main_v28 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_2 (constant S_ .f32 0x3F800000#32),
    unary main_cst_2 main_v29 (broadcastInDim S100000 ![] bcast_S_S100000 : (⟨S_, .f32⟩ : BufTy).Contents (Elt F) → (⟨S100000, .f32⟩ : BufTy).Contents (Elt F)),
    binary main_v28 main_v29 main_v30 (addf : (⟨S100000, .f32⟩ : BufTy).Contents (Elt F) → (⟨S100000, .f32⟩ : BufTy).Contents (Elt F) → (⟨S100000, .f32⟩ : BufTy).Contents (Elt F)),
    unary main_v30 main_v31 (Host.rsqrt : (⟨S100000, .f32⟩ : BufTy).Contents (Elt F) → (⟨S100000, .f32⟩ : BufTy).Contents (Elt F)) ]
theorem deg0_sub : (deg0 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩

abbrev coef0 : List (HloOp τ sig (Elt F)) :=
  [ nullary main_c_3 (constantI S_ 32 0#32),
    unary main_c_3 main_v32 (broadcastInDim S640000 ![] bcast_S_S640000 : (⟨S_, .i32⟩ : BufTy).Contents (Elt F) → (⟨S640000, .i32⟩ : BufTy).Contents (Elt F)),
    binary main_v1 main_v32 main_v33 (cmpi .slt : (⟨S640000, .i32⟩ : BufTy).Contents (Elt F) → (⟨S640000, .i32⟩ : BufTy).Contents (Elt F) → (⟨S640000, .i1⟩ : BufTy).Contents (Elt F)),
    nullary main_c_4 (constantI S_ 32 100000#32),
    unary main_c_4 main_v34 (broadcastInDim S640000 ![] bcast_S_S640000 : (⟨S_, .i32⟩ : BufTy).Contents (Elt F) → (⟨S640000, .i32⟩ : BufTy).Contents (Elt F)),
    binary main_v1 main_v34 main_v35 (addi : (⟨S640000, .i32⟩ : BufTy).Contents (Elt F) → (⟨S640000, .i32⟩ : BufTy).Contents (Elt F) → (⟨S640000, .i32⟩ : BufTy).Contents (Elt F)),
    ternary main_v33 main_v35 main_v1 main_v36 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v36 main_v37 (broadcastInDim S640000x1 ![0] bcast_S640000_S640000x1_0 : (⟨S640000, .i32⟩ : BufTy).Contents (Elt F) → (⟨S640000x1, .i32⟩ : BufTy).Contents (Elt F)),
    binary main_v31 main_v37 main_v38 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    nullary main_c_5 (constantI S_ 32 0#32),
    unary main_c_5 main_v39 (broadcastInDim S640000 ![] bcast_S_S640000 : (⟨S_, .i32⟩ : BufTy).Contents (Elt F) → (⟨S640000, .i32⟩ : BufTy).Contents (Elt F)),
    binary main_v3 main_v39 main_v40 (cmpi .slt : (⟨S640000, .i32⟩ : BufTy).Contents (Elt F) → (⟨S640000, .i32⟩ : BufTy).Contents (Elt F) → (⟨S640000, .i1⟩ : BufTy).Contents (Elt F)),
    nullary main_c_6 (constantI S_ 32 100000#32),
    unary main_c_6 main_v41 (broadcastInDim S640000 ![] bcast_S_S640000 : (⟨S_, .i32⟩ : BufTy).Contents (Elt F) → (⟨S640000, .i32⟩ : BufTy).Contents (Elt F)),
    binary main_v3 main_v41 main_v42 (addi : (⟨S640000, .i32⟩ : BufTy).Contents (Elt F) → (⟨S640000, .i32⟩ : BufTy).Contents (Elt F) → (⟨S640000, .i32⟩ : BufTy).Contents (Elt F)),
    ternary main_v40 main_v42 main_v3 main_v43 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v43 main_v44 (broadcastInDim S640000x1 ![0] bcast_S640000_S640000x1_0 : (⟨S640000, .i32⟩ : BufTy).Contents (Elt F) → (⟨S640000x1, .i32⟩ : BufTy).Contents (Elt F)),
    binary main_v31 main_v44 main_v45 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    binary main_v38 main_v45 main_v46 (mulf : (⟨S640000, .f32⟩ : BufTy).Contents (Elt F) → (⟨S640000, .f32⟩ : BufTy).Contents (Elt F) → (⟨S640000, .f32⟩ : BufTy).Contents (Elt F)) ]
theorem coef0_sub : (coef0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

abbrev agg0x : List (HloOp τ sig (Elt F)) :=
  [ nullary main_c_7 (constantI S_ 32 0#32),
    unary main_c_7 main_v47 (broadcastInDim S640000 ![] bcast_S_S640000 : (⟨S_, .i32⟩ : BufTy).Contents (Elt F) → (⟨S640000, .i32⟩ : BufTy).Contents (Elt F)),
    binary main_v1 main_v47 main_v48 (cmpi .slt : (⟨S640000, .i32⟩ : BufTy).Contents (Elt F) → (⟨S640000, .i32⟩ : BufTy).Contents (Elt F) → (⟨S640000, .i1⟩ : BufTy).Contents (Elt F)),
    nullary main_c_8 (constantI S_ 32 100000#32) ]
theorem agg0x_sub : (agg0x : List (HloOp τ sig (Elt F))).Forall fun op => op.bufs ⊆ tcRefs τ sig :=
  ⟨nullary_bufs_sub .., unary_bufs_sub .., binary_bufs_sub .., nullary_bufs_sub ..⟩

abbrev agg0y : List (HloOp τ sig (Elt F)) :=
  [ unary main_c_8 main_v49 (broadcastInDim S640000 ![] bcast_S_S640000 : (⟨S_, .i32⟩ : BufTy).Contents (Elt F) → (⟨S640000, .i32⟩ : BufTy).Contents (Elt F)),
    binary main_v1 main_v49 main_v50 (addi : (⟨S640000, .i32⟩ : BufTy).Contents (Elt F) → (⟨S640000, .i32⟩ : BufTy).Contents (Elt F) → (⟨S640000, .i32⟩ : BufTy).Contents (Elt F)),
    ternary main_v48 main_v50 main_v1 main_v51 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v51 main_v52 (broadcastInDim S640000x1 ![0] bcast_S640000_S640000x1_0 : (⟨S640000, .i32⟩ : BufTy).Contents (Elt F) → (⟨S640000x1, .i32⟩ : BufTy).Contents (Elt F)),
    binary main_v19 main_v52 main_v53 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    unary main_v46 main_v54 (broadcastInDim S640000x1 ![0] bcast_S640000_S640000x1_0 : (⟨S640000, .f32⟩ : BufTy).Contents (Elt F) → (⟨S640000x1, .f32⟩ : BufTy).Contents (Elt F)),
    unary main_v54 main_v55 (broadcastInDim S640000x128 ![0, 1] bcast_S640000x1_S640000x128_0_1 : (⟨S640000x1, .f32⟩ : BufTy).Contents (Elt F) → (⟨S640000x128, .f32⟩ : BufTy).Contents (Elt F)),
    binary main_v53 main_v55 main_v56 (mulf : (⟨S640000x128, .f32⟩ : BufTy).Contents (Elt F) → (⟨S640000x128, .f32⟩ : BufTy).Contents (Elt F) → (⟨S640000x128, .f32⟩ : BufTy).Contents (Elt F)),
    nullary main_cst_9 (constant S_ .f32 0x00000000#32),
    unary main_cst_9 main_v57 (broadcastInDim S100000x128 ![] bcast_S_S100000x128 : (⟨S_, .f32⟩ : BufTy).Contents (Elt F) → (⟨S100000x128, .f32⟩ : BufTy).Contents (Elt F)),
    unary main_v3 main_v58 (broadcastInDim S640000x1 ![0] bcast_S640000_S640000x1_0 : (⟨S640000, .i32⟩ : BufTy).Contents (Elt F) → (⟨S640000x1, .i32⟩ : BufTy).Contents (Elt F)),
    ternary main_v57 main_v58 main_v56 main_v59 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ]
theorem agg0y_sub : (agg0y : List (HloOp τ sig (Elt F))).Forall fun op => op.bufs ⊆ tcRefs τ sig :=
  ⟨unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

abbrev comb0 : List (HloOp τ sig (Elt F)) :=
  [ binary main_v31 main_v31 main_v60 (mulf : (⟨S100000, .f32⟩ : BufTy).Contents (Elt F) → (⟨S100000, .f32⟩ : BufTy).Contents (Elt F) → (⟨S100000, .f32⟩ : BufTy).Contents (Elt F)),
    unary main_v60 main_v61 (broadcastInDim S100000x1 ![0] bcast_S100000_S100000x1_0 : (⟨S100000, .f32⟩ : BufTy).Contents (Elt F) → (⟨S100000x1, .f32⟩ : BufTy).Contents (Elt F)),
    unary main_v61 main_v62 (broadcastInDim S100000x128 ![0, 1] bcast_S100000x1_S100000x128_0_1 : (⟨S100000x1, .f32⟩ : BufTy).Contents (Elt F) → (⟨S100000x128, .f32⟩ : BufTy).Contents (Elt F)),
    binary main_v19 main_v62 main_v63 (mulf : (⟨S100000x128, .f32⟩ : BufTy).Contents (Elt F) → (⟨S100000x128, .f32⟩ : BufTy).Contents (Elt F) → (⟨S100000x128, .f32⟩ : BufTy).Contents (Elt F)),
    binary main_v59 main_v63 main_v64 (addf : (⟨S100000x128, .f32⟩ : BufTy).Contents (Elt F) → (⟨S100000x128, .f32⟩ : BufTy).Contents (Elt F) → (⟨S100000x128, .f32⟩ : BufTy).Contents (Elt F)),
    unary main_arg9 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v64 main_v66 main_v67 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v67) main_call3.v0 main_call3.v1 (cmpf .oge),
    TRef.nullary main_call3.cst_0 (constant S_ .f32 0x3C23D70A#32),
    TRef.unary main_call3.cst_0 main_call3.v2 (broadcastInDim S100000x128 ![] bcast_S_S100000x128),
    TRef.binary main_call3.v2 (.of main_v67) main_call3.v3 mulf,
    TRef.ternary main_call3.v1 (.of main_v67) main_call3.v3 main_call3.call0.v0 select ]
theorem comb0_sub : (comb0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

abbrev lin1 : List (HloOp τ sig (Elt F)) :=
  [ binary main_v68 main_arg10 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
theorem lin1_sub : (lin1 : List (HloOp τ sig (Elt F))).Forall fun op => op.bufs ⊆ tcRefs τ sig :=
  binary_bufs_sub ..

abbrev deg1 : List (HloOp τ sig (Elt F)) :=
  [ nullary main_cst_10 (constant S_ .f32 0x00000000#32),
    unary main_cst_10 main_v70 (broadcastInDim S100000 ![] bcast_S_S100000 : (⟨S_, .f32⟩ : BufTy).Contents (Elt F) → (⟨S100000, .f32⟩ : BufTy).Contents (Elt F)),
    nullary main_c_11 (constantI S_ 32 0#32),
    unary main_c_11 main_v71 (broadcastInDim S640000 ![] bcast_S_S640000 : (⟨S_, .i32⟩ : BufTy).Contents (Elt F) → (⟨S640000, .i32⟩ : BufTy).Contents (Elt F)),
    binary main_v3 main_v71 main_v72 (cmpi .slt : (⟨S640000, .i32⟩ : BufTy).Contents (Elt F) → (⟨S640000, .i32⟩ : BufTy).Contents (Elt F) → (⟨S640000, .i1⟩ : BufTy).Contents (Elt F)),
    nullary main_c_12 (constantI S_ 32 100000#32),
    unary main_c_12 main_v73 (broadcastInDim S640000 ![] bcast_S_S640000 : (⟨S_, .i32⟩ : BufTy).Contents (Elt F) → (⟨S640000, .i32⟩ : BufTy).Contents (Elt F)),
    binary main_v3 main_v73 main_v74 (addi : (⟨S640000, .i32⟩ : BufTy).Contents (Elt F) → (⟨S640000, .i32⟩ : BufTy).Contents (Elt F) → (⟨S640000, .i32⟩ : BufTy).Contents (Elt F)),
    ternary main_v72 main_v74 main_v3 main_v75 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v75 main_v76 (broadcastInDim S640000x1 ![0] bcast_S640000_S640000x1_0 : (⟨S640000, .i32⟩ : BufTy).Contents (Elt F) → (⟨S640000x1, .i32⟩ : BufTy).Contents (Elt F)),
    nullary main_cst_13 (constant S_ .f32 0x3F800000#32),
    unary main_cst_13 main_v77 (broadcastInDim S640000 ![] bcast_S_S640000 : (⟨S_, .f32⟩ : BufTy).Contents (Elt F) → (⟨S640000, .f32⟩ : BufTy).Contents (Elt F)),
    ternary main_v70 main_v76 main_v77 main_v78 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_14 (constant S_ .f32 0x3F800000#32),
    unary main_cst_14 main_v79 (broadcastInDim S100000 ![] bcast_S_S100000 : (⟨S_, .f32⟩ : BufTy).Contents (Elt F) → (⟨S100000, .f32⟩ : BufTy).Contents (Elt F)),
    binary main_v78 main_v79 main_v80 (addf : (⟨S100000, .f32⟩ : BufTy).Contents (Elt F) → (⟨S100000, .f32⟩ : BufTy).Contents (Elt F) → (⟨S100000, .f32⟩ : BufTy).Contents (Elt F)),
    unary main_v80 main_v81 (Host.rsqrt : (⟨S100000, .f32⟩ : BufTy).Contents (Elt F) → (⟨S100000, .f32⟩ : BufTy).Contents (Elt F)) ]
theorem deg1_sub : (deg1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩

abbrev coef1 : List (HloOp τ sig (Elt F)) :=
  [ nullary main_c_15 (constantI S_ 32 0#32),
    unary main_c_15 main_v82 (broadcastInDim S640000 ![] bcast_S_S640000 : (⟨S_, .i32⟩ : BufTy).Contents (Elt F) → (⟨S640000, .i32⟩ : BufTy).Contents (Elt F)),
    binary main_v1 main_v82 main_v83 (cmpi .slt : (⟨S640000, .i32⟩ : BufTy).Contents (Elt F) → (⟨S640000, .i32⟩ : BufTy).Contents (Elt F) → (⟨S640000, .i1⟩ : BufTy).Contents (Elt F)),
    nullary main_c_16 (constantI S_ 32 100000#32),
    unary main_c_16 main_v84 (broadcastInDim S640000 ![] bcast_S_S640000 : (⟨S_, .i32⟩ : BufTy).Contents (Elt F) → (⟨S640000, .i32⟩ : BufTy).Contents (Elt F)),
    binary main_v1 main_v84 main_v85 (addi : (⟨S640000, .i32⟩ : BufTy).Contents (Elt F) → (⟨S640000, .i32⟩ : BufTy).Contents (Elt F) → (⟨S640000, .i32⟩ : BufTy).Contents (Elt F)),
    ternary main_v83 main_v85 main_v1 main_v86 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v86 main_v87 (broadcastInDim S640000x1 ![0] bcast_S640000_S640000x1_0 : (⟨S640000, .i32⟩ : BufTy).Contents (Elt F) → (⟨S640000x1, .i32⟩ : BufTy).Contents (Elt F)),
    binary main_v81 main_v87 main_v88 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    nullary main_c_17 (constantI S_ 32 0#32),
    unary main_c_17 main_v89 (broadcastInDim S640000 ![] bcast_S_S640000 : (⟨S_, .i32⟩ : BufTy).Contents (Elt F) → (⟨S640000, .i32⟩ : BufTy).Contents (Elt F)),
    binary main_v3 main_v89 main_v90 (cmpi .slt : (⟨S640000, .i32⟩ : BufTy).Contents (Elt F) → (⟨S640000, .i32⟩ : BufTy).Contents (Elt F) → (⟨S640000, .i1⟩ : BufTy).Contents (Elt F)),
    nullary main_c_18 (constantI S_ 32 100000#32),
    unary main_c_18 main_v91 (broadcastInDim S640000 ![] bcast_S_S640000 : (⟨S_, .i32⟩ : BufTy).Contents (Elt F) → (⟨S640000, .i32⟩ : BufTy).Contents (Elt F)),
    binary main_v3 main_v91 main_v92 (addi : (⟨S640000, .i32⟩ : BufTy).Contents (Elt F) → (⟨S640000, .i32⟩ : BufTy).Contents (Elt F) → (⟨S640000, .i32⟩ : BufTy).Contents (Elt F)),
    ternary main_v90 main_v92 main_v3 main_v93 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v93 main_v94 (broadcastInDim S640000x1 ![0] bcast_S640000_S640000x1_0 : (⟨S640000, .i32⟩ : BufTy).Contents (Elt F) → (⟨S640000x1, .i32⟩ : BufTy).Contents (Elt F)),
    binary main_v81 main_v94 main_v95 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    binary main_v88 main_v95 main_v96 (mulf : (⟨S640000, .f32⟩ : BufTy).Contents (Elt F) → (⟨S640000, .f32⟩ : BufTy).Contents (Elt F) → (⟨S640000, .f32⟩ : BufTy).Contents (Elt F)) ]
theorem coef1_sub : (coef1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

abbrev agg1x : List (HloOp τ sig (Elt F)) :=
  [ nullary main_c_19 (constantI S_ 32 0#32),
    unary main_c_19 main_v97 (broadcastInDim S640000 ![] bcast_S_S640000 : (⟨S_, .i32⟩ : BufTy).Contents (Elt F) → (⟨S640000, .i32⟩ : BufTy).Contents (Elt F)) ]
theorem agg1x_sub : (agg1x : List (HloOp τ sig (Elt F))).Forall fun op => op.bufs ⊆ tcRefs τ sig :=
  ⟨nullary_bufs_sub .., unary_bufs_sub ..⟩

abbrev agg1y : List (HloOp τ sig (Elt F)) :=
  [ binary main_v1 main_v97 main_v98 (cmpi .slt : (⟨S640000, .i32⟩ : BufTy).Contents (Elt F) → (⟨S640000, .i32⟩ : BufTy).Contents (Elt F) → (⟨S640000, .i1⟩ : BufTy).Contents (Elt F)),
    nullary main_c_20 (constantI S_ 32 100000#32),
    unary main_c_20 main_v99 (broadcastInDim S640000 ![] bcast_S_S640000 : (⟨S_, .i32⟩ : BufTy).Contents (Elt F) → (⟨S640000, .i32⟩ : BufTy).Contents (Elt F)),
    binary main_v1 main_v99 main_v100 (addi : (⟨S640000, .i32⟩ : BufTy).Contents (Elt F) → (⟨S640000, .i32⟩ : BufTy).Contents (Elt F) → (⟨S640000, .i32⟩ : BufTy).Contents (Elt F)),
    ternary main_v98 main_v100 main_v1 main_v101 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v101 main_v102 (broadcastInDim S640000x1 ![0] bcast_S640000_S640000x1_0 : (⟨S640000, .i32⟩ : BufTy).Contents (Elt F) → (⟨S640000x1, .i32⟩ : BufTy).Contents (Elt F)),
    binary main_v69 main_v102 main_v103 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    unary main_v96 main_v104 (broadcastInDim S640000x1 ![0] bcast_S640000_S640000x1_0 : (⟨S640000, .f32⟩ : BufTy).Contents (Elt F) → (⟨S640000x1, .f32⟩ : BufTy).Contents (Elt F)),
    unary main_v104 main_v105 (broadcastInDim S640000x128 ![0, 1] bcast_S640000x1_S640000x128_0_1 : (⟨S640000x1, .f32⟩ : BufTy).Contents (Elt F) → (⟨S640000x128, .f32⟩ : BufTy).Contents (Elt F)),
    binary main_v103 main_v105 main_v106 (mulf : (⟨S640000x128, .f32⟩ : BufTy).Contents (Elt F) → (⟨S640000x128, .f32⟩ : BufTy).Contents (Elt F) → (⟨S640000x128, .f32⟩ : BufTy).Contents (Elt F)),
    nullary main_cst_21 (constant S_ .f32 0x00000000#32),
    unary main_cst_21 main_v107 (broadcastInDim S100000x128 ![] bcast_S_S100000x128 : (⟨S_, .f32⟩ : BufTy).Contents (Elt F) → (⟨S100000x128, .f32⟩ : BufTy).Contents (Elt F)),
    unary main_v3 main_v108 (broadcastInDim S640000x1 ![0] bcast_S640000_S640000x1_0 : (⟨S640000, .i32⟩ : BufTy).Contents (Elt F) → (⟨S640000x1, .i32⟩ : BufTy).Contents (Elt F)),
    ternary main_v107 main_v108 main_v106 main_v109 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ]
theorem agg1y_sub : (agg1y : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

abbrev comb1 : List (HloOp τ sig (Elt F)) :=
  [ binary main_v81 main_v81 main_v110 (mulf : (⟨S100000, .f32⟩ : BufTy).Contents (Elt F) → (⟨S100000, .f32⟩ : BufTy).Contents (Elt F) → (⟨S100000, .f32⟩ : BufTy).Contents (Elt F)),
    unary main_v110 main_v111 (broadcastInDim S100000x1 ![0] bcast_S100000_S100000x1_0 : (⟨S100000, .f32⟩ : BufTy).Contents (Elt F) → (⟨S100000x1, .f32⟩ : BufTy).Contents (Elt F)),
    unary main_v111 main_v112 (broadcastInDim S100000x128 ![0, 1] bcast_S100000x1_S100000x128_0_1 : (⟨S100000x1, .f32⟩ : BufTy).Contents (Elt F) → (⟨S100000x128, .f32⟩ : BufTy).Contents (Elt F)),
    binary main_v69 main_v112 main_v113 (mulf : (⟨S100000x128, .f32⟩ : BufTy).Contents (Elt F) → (⟨S100000x128, .f32⟩ : BufTy).Contents (Elt F) → (⟨S100000x128, .f32⟩ : BufTy).Contents (Elt F)),
    binary main_v109 main_v113 main_v114 (addf : (⟨S100000x128, .f32⟩ : BufTy).Contents (Elt F) → (⟨S100000x128, .f32⟩ : BufTy).Contents (Elt F) → (⟨S100000x128, .f32⟩ : BufTy).Contents (Elt F)),
    unary main_arg11 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v114 main_v116 main_v117 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v117) main_call4.v0 main_call4.v1 (cmpf .oge),
    TRef.nullary main_call4.cst_0 (constant S_ .f32 0x3C23D70A#32),
    TRef.unary main_call4.cst_0 main_call4.v2 (broadcastInDim S100000x128 ![] bcast_S_S100000x128),
    TRef.binary main_call4.v2 (.of main_v117) main_call4.v3 mulf,
    TRef.ternary main_call4.v1 (.of main_v117) main_call4.v3 main_call4.call0.v0 select ]
theorem comb1_sub : (comb1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

abbrev lin2 : List (HloOp τ sig (Elt F)) :=
  [ binary main_v118 main_arg12 main_v119 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)) ]
theorem lin2_sub : (lin2 : List (HloOp τ sig (Elt F))).Forall fun op => op.bufs ⊆ tcRefs τ sig :=
  binary_bufs_sub ..

abbrev deg2 : List (HloOp τ sig (Elt F)) :=
  [ nullary main_cst_22 (constant S_ .f32 0x00000000#32),
    unary main_cst_22 main_v120 (broadcastInDim S100000 ![] bcast_S_S100000 : (⟨S_, .f32⟩ : BufTy).Contents (Elt F) → (⟨S100000, .f32⟩ : BufTy).Contents (Elt F)),
    nullary main_c_23 (constantI S_ 32 0#32),
    unary main_c_23 main_v121 (broadcastInDim S640000 ![] bcast_S_S640000 : (⟨S_, .i32⟩ : BufTy).Contents (Elt F) → (⟨S640000, .i32⟩ : BufTy).Contents (Elt F)),
    binary main_v3 main_v121 main_v122 (cmpi .slt : (⟨S640000, .i32⟩ : BufTy).Contents (Elt F) → (⟨S640000, .i32⟩ : BufTy).Contents (Elt F) → (⟨S640000, .i1⟩ : BufTy).Contents (Elt F)),
    nullary main_c_24 (constantI S_ 32 100000#32),
    unary main_c_24 main_v123 (broadcastInDim S640000 ![] bcast_S_S640000 : (⟨S_, .i32⟩ : BufTy).Contents (Elt F) → (⟨S640000, .i32⟩ : BufTy).Contents (Elt F)),
    binary main_v3 main_v123 main_v124 (addi : (⟨S640000, .i32⟩ : BufTy).Contents (Elt F) → (⟨S640000, .i32⟩ : BufTy).Contents (Elt F) → (⟨S640000, .i32⟩ : BufTy).Contents (Elt F)),
    ternary main_v122 main_v124 main_v3 main_v125 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v125 main_v126 (broadcastInDim S640000x1 ![0] bcast_S640000_S640000x1_0 : (⟨S640000, .i32⟩ : BufTy).Contents (Elt F) → (⟨S640000x1, .i32⟩ : BufTy).Contents (Elt F)),
    nullary main_cst_25 (constant S_ .f32 0x3F800000#32),
    unary main_cst_25 main_v127 (broadcastInDim S640000 ![] bcast_S_S640000 : (⟨S_, .f32⟩ : BufTy).Contents (Elt F) → (⟨S640000, .f32⟩ : BufTy).Contents (Elt F)),
    ternary main_v120 main_v126 main_v127 main_v128 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_26 (constant S_ .f32 0x3F800000#32),
    unary main_cst_26 main_v129 (broadcastInDim S100000 ![] bcast_S_S100000 : (⟨S_, .f32⟩ : BufTy).Contents (Elt F) → (⟨S100000, .f32⟩ : BufTy).Contents (Elt F)),
    binary main_v128 main_v129 main_v130 (addf : (⟨S100000, .f32⟩ : BufTy).Contents (Elt F) → (⟨S100000, .f32⟩ : BufTy).Contents (Elt F) → (⟨S100000, .f32⟩ : BufTy).Contents (Elt F)),
    unary main_v130 main_v131 (Host.rsqrt : (⟨S100000, .f32⟩ : BufTy).Contents (Elt F) → (⟨S100000, .f32⟩ : BufTy).Contents (Elt F)) ]
theorem deg2_sub : (deg2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub ..⟩

abbrev coef2 : List (HloOp τ sig (Elt F)) :=
  [ nullary main_c_27 (constantI S_ 32 0#32),
    unary main_c_27 main_v132 (broadcastInDim S640000 ![] bcast_S_S640000 : (⟨S_, .i32⟩ : BufTy).Contents (Elt F) → (⟨S640000, .i32⟩ : BufTy).Contents (Elt F)),
    binary main_v1 main_v132 main_v133 (cmpi .slt : (⟨S640000, .i32⟩ : BufTy).Contents (Elt F) → (⟨S640000, .i32⟩ : BufTy).Contents (Elt F) → (⟨S640000, .i1⟩ : BufTy).Contents (Elt F)),
    nullary main_c_28 (constantI S_ 32 100000#32),
    unary main_c_28 main_v134 (broadcastInDim S640000 ![] bcast_S_S640000 : (⟨S_, .i32⟩ : BufTy).Contents (Elt F) → (⟨S640000, .i32⟩ : BufTy).Contents (Elt F)),
    binary main_v1 main_v134 main_v135 (addi : (⟨S640000, .i32⟩ : BufTy).Contents (Elt F) → (⟨S640000, .i32⟩ : BufTy).Contents (Elt F) → (⟨S640000, .i32⟩ : BufTy).Contents (Elt F)),
    ternary main_v133 main_v135 main_v1 main_v136 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v136 main_v137 (broadcastInDim S640000x1 ![0] bcast_S640000_S640000x1_0 : (⟨S640000, .i32⟩ : BufTy).Contents (Elt F) → (⟨S640000x1, .i32⟩ : BufTy).Contents (Elt F)),
    binary main_v131 main_v137 main_v138 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    nullary main_c_29 (constantI S_ 32 0#32),
    unary main_c_29 main_v139 (broadcastInDim S640000 ![] bcast_S_S640000 : (⟨S_, .i32⟩ : BufTy).Contents (Elt F) → (⟨S640000, .i32⟩ : BufTy).Contents (Elt F)),
    binary main_v3 main_v139 main_v140 (cmpi .slt : (⟨S640000, .i32⟩ : BufTy).Contents (Elt F) → (⟨S640000, .i32⟩ : BufTy).Contents (Elt F) → (⟨S640000, .i1⟩ : BufTy).Contents (Elt F)),
    nullary main_c_30 (constantI S_ 32 100000#32),
    unary main_c_30 main_v141 (broadcastInDim S640000 ![] bcast_S_S640000 : (⟨S_, .i32⟩ : BufTy).Contents (Elt F) → (⟨S640000, .i32⟩ : BufTy).Contents (Elt F)),
    binary main_v3 main_v141 main_v142 (addi : (⟨S640000, .i32⟩ : BufTy).Contents (Elt F) → (⟨S640000, .i32⟩ : BufTy).Contents (Elt F) → (⟨S640000, .i32⟩ : BufTy).Contents (Elt F)),
    ternary main_v140 main_v142 main_v3 main_v143 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v143 main_v144 (broadcastInDim S640000x1 ![0] bcast_S640000_S640000x1_0 : (⟨S640000, .i32⟩ : BufTy).Contents (Elt F) → (⟨S640000x1, .i32⟩ : BufTy).Contents (Elt F)),
    binary main_v131 main_v144 main_v145 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    binary main_v138 main_v145 main_v146 (mulf : (⟨S640000, .f32⟩ : BufTy).Contents (Elt F) → (⟨S640000, .f32⟩ : BufTy).Contents (Elt F) → (⟨S640000, .f32⟩ : BufTy).Contents (Elt F)) ]
theorem coef2_sub : (coef2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

abbrev agg2 : List (HloOp τ sig (Elt F)) :=
  [ nullary main_c_31 (constantI S_ 32 0#32),
    unary main_c_31 main_v147 (broadcastInDim S640000 ![] bcast_S_S640000 : (⟨S_, .i32⟩ : BufTy).Contents (Elt F) → (⟨S640000, .i32⟩ : BufTy).Contents (Elt F)),
    binary main_v1 main_v147 main_v148 (cmpi .slt : (⟨S640000, .i32⟩ : BufTy).Contents (Elt F) → (⟨S640000, .i32⟩ : BufTy).Contents (Elt F) → (⟨S640000, .i1⟩ : BufTy).Contents (Elt F)),
    nullary main_c_32 (constantI S_ 32 100000#32),
    unary main_c_32 main_v149 (broadcastInDim S640000 ![] bcast_S_S640000 : (⟨S_, .i32⟩ : BufTy).Contents (Elt F) → (⟨S640000, .i32⟩ : BufTy).Contents (Elt F)),
    binary main_v1 main_v149 main_v150 (addi : (⟨S640000, .i32⟩ : BufTy).Contents (Elt F) → (⟨S640000, .i32⟩ : BufTy).Contents (Elt F) → (⟨S640000, .i32⟩ : BufTy).Contents (Elt F)),
    ternary main_v148 main_v150 main_v1 main_v151 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v151 main_v152 (broadcastInDim S640000x1 ![0] bcast_S640000_S640000x1_0 : (⟨S640000, .i32⟩ : BufTy).Contents (Elt F) → (⟨S640000x1, .i32⟩ : BufTy).Contents (Elt F)),
    binary main_v119 main_v152 main_v153 ((fun x i => Host.gather gather_S100000x1_S640000x1_S640000x1_1_0_n_n_0_1_11 x i) : (⟨S100000x1, .f32⟩ : BufTy).Contents (Elt F) → (⟨S640000x1, .i32⟩ : BufTy).Contents (Elt F) → (⟨S640000x1, .f32⟩ : BufTy).Contents (Elt F)),
    unary main_v146 main_v154 (broadcastInDim S640000x1 ![0] bcast_S640000_S640000x1_0 : (⟨S640000, .f32⟩ : BufTy).Contents (Elt F) → (⟨S640000x1, .f32⟩ : BufTy).Contents (Elt F)),
    binary main_v153 main_v154 main_v155 (mulf : (⟨S640000x1, .f32⟩ : BufTy).Contents (Elt F) → (⟨S640000x1, .f32⟩ : BufTy).Contents (Elt F) → (⟨S640000x1, .f32⟩ : BufTy).Contents (Elt F)),
    nullary main_cst_33 (constant S_ .f32 0x00000000#32),
    unary main_cst_33 main_v156 (broadcastInDim S100000x1 ![] bcast_S_S100000x1 : (⟨S_, .f32⟩ : BufTy).Contents (Elt F) → (⟨S100000x1, .f32⟩ : BufTy).Contents (Elt F)),
    unary main_v3 main_v157 (broadcastInDim S640000x1 ![0] bcast_S640000_S640000x1_0 : (⟨S640000, .i32⟩ : BufTy).Contents (Elt F) → (⟨S640000x1, .i32⟩ : BufTy).Contents (Elt F)),
    ternary main_v156 main_v157 main_v155 main_v158 ((fun x i u => Host.scatterAdd scatter_S100000x1_S640000x1_S640000x1_1_0_0_1 x i u) : (⟨S100000x1, .f32⟩ : BufTy).Contents (Elt F) → (⟨S640000x1, .i32⟩ : BufTy).Contents (Elt F) → (⟨S640000x1, .f32⟩ : BufTy).Contents (Elt F) → (⟨S100000x1, .f32⟩ : BufTy).Contents (Elt F)) ]
theorem agg2_sub : (agg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

abbrev comb2 : List (HloOp τ sig (Elt F)) :=
  [ binary main_v131 main_v131 main_v159 (mulf : (⟨S100000, .f32⟩ : BufTy).Contents (Elt F) → (⟨S100000, .f32⟩ : BufTy).Contents (Elt F) → (⟨S100000, .f32⟩ : BufTy).Contents (Elt F)),
    unary main_v159 main_v160 (broadcastInDim S100000x1 ![0] bcast_S100000_S100000x1_0 : (⟨S100000, .f32⟩ : BufTy).Contents (Elt F) → (⟨S100000x1, .f32⟩ : BufTy).Contents (Elt F)),
    binary main_v119 main_v160 main_v161 (mulf : (⟨S100000x1, .f32⟩ : BufTy).Contents (Elt F) → (⟨S100000x1, .f32⟩ : BufTy).Contents (Elt F) → (⟨S100000x1, .f32⟩ : BufTy).Contents (Elt F)),
    binary main_v158 main_v161 main_v162 (addf : (⟨S100000x1, .f32⟩ : BufTy).Contents (Elt F) → (⟨S100000x1, .f32⟩ : BufTy).Contents (Elt F) → (⟨S100000x1, .f32⟩ : BufTy).Contents (Elt F)),
    unary main_arg13 main_v163 (broadcastInDim S1x1 ![1] bcast_S1_S1x1_1 : (⟨S1, .f32⟩ : BufTy).Contents (Elt F) → (⟨S1x1, .f32⟩ : BufTy).Contents (Elt F)),
    unary main_v163 main_v164 (broadcastInDim S100000x1 ![0, 1] bcast_S1x1_S100000x1_0_1 : (⟨S1x1, .f32⟩ : BufTy).Contents (Elt F) → (⟨S100000x1, .f32⟩ : BufTy).Contents (Elt F)),
    binary main_v162 main_v164 main_v165 (addf : (⟨S100000x1, .f32⟩ : BufTy).Contents (Elt F) → (⟨S100000x1, .f32⟩ : BufTy).Contents (Elt F) → (⟨S100000x1, .f32⟩ : BufTy).Contents (Elt F)) ]
theorem comb2_sub : (comb2 : List (HloOp τ sig (Elt F))).Forall fun op => op.bufs ⊆ tcRefs τ sig :=
  ⟨binary_bufs_sub .., unary_bufs_sub .., binary_bufs_sub .., binary_bufs_sub .., unary_bufs_sub .., unary_bufs_sub .., binary_bufs_sub ..⟩

/-- The statements of each printed window of @main. -/
abbrev win0 : List (HloOp τ sig (Elt F)) := srcDst ++ dense1 ++ dense2 ++ dense3 ++ lin0 ++ deg0 ++ coef0 ++ agg0x
abbrev win1 : List (HloOp τ sig (Elt F)) := agg0y ++ comb0 ++ lin1 ++ deg1 ++ coef1 ++ agg1x
abbrev win2 : List (HloOp τ sig (Elt F)) := agg1y ++ comb1 ++ lin2 ++ deg2 ++ coef2
abbrev win3 : List (HloOp τ sig (Elt F)) := agg2 ++ comb2
/-- @main's operations, in order. -/
abbrev ops : List (HloOp τ sig (Elt F)) := win0 ++ win1 ++ win2 ++ win3

end Cert.ReferenceIdeal.RefOps

end
-- ==== Proof.RefRun.lean ====
/- The run of the reference program.

   The reference's @main is a straight line of 232 host operations (the list `ops` of RefOps.lean, cut into the four
   printed windows `win0 … win3`). This file proves
     * `main_eq`: @main is the line `seq ops`;
     * `run_main`: from any memory with zero counters every weakly fair execution of @main terminates, and each
       TensorCore buffer ends at the fold `after ops` of the operations' results over the launch contents;
     * `arg_kept` (and `arg0_kept … arg13_kept`): the fold leaves the fourteen arguments' buffers as they were.
   Nothing here looks inside an operation's function: the statements are about the order of the steps, the buffers
   they touch and the buffers they write. -/
import proofs.«130695_j11355893531404_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

/-! ## The printed windows are the lists

Each window of @main is a chain of steps, one per operation, in which a call of the activation stands for the
callee's body over that call's buffers (and the callee's own call of the selection for its one step). Sequencing
in the free monad of programs computes — a step followed by a continuation is the step with the continuation
pushed under it, a return followed by a continuation is the continuation — so a window and the line of its
operations evaluate to the same chain of steps: the equation holds by computation. -/

set_option maxRecDepth 8192 in
theorem part0_eq (c : Dev nD) : main_part0 (F := F) c = seq win0 := rfl
set_option maxRecDepth 8192 in
theorem part1_eq (c : Dev nD) : main_part1 (F := F) c = seq win1 := rfl
set_option maxRecDepth 8192 in
theorem part2_eq (c : Dev nD) : main_part2 (F := F) c = seq win2 := rfl
set_option maxRecDepth 8192 in
theorem part3_eq (c : Dev nD) : main_part3 (F := F) c = seq win3 := rfl

/-- @main runs its four windows in order; the line of a concatenation is the two lines in sequence
    (`seq_append`), and sequencing is associative. -/
theorem main_eq (c : Dev nD) : main (F := F) c = seq (ops (F := F)) := by
  have h : (seq (ops (F := F)) : Prog (TpuEff nD τ sig (Elt F) (Pipeline.Sig Λ₀ (Fin 0) fun p => (pcfgs (F := F) p).Adm) .tc) PUnit)
      = (seq win0 >>= fun _ => seq win1 >>= fun _ => seq win2 >>= fun _ => seq win3) := by
    show seq (((win0 ++ win1) ++ win2) ++ win3) = _
    rw [seq_append, seq_append, seq_append, bind_assoc, bind_assoc]
  rw [h, ← part0_eq c, ← part1_eq c, ← part2_eq c, ← part3_eq c]
  rfl

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

namespace HR

/-- A property of every element of two lists holds of every element of their concatenation. -/
theorem forall_app {α : Type} {p : α → Prop} {l₁ l₂ : List α} (h₁ : l₁.Forall p) (h₂ : l₂.Forall p) :
    (l₁ ++ l₂).Forall p := List.forall_append.mpr ⟨h₁, h₂⟩

/-- The fold over a concatenation is the fold over the second list, from the fold over the first. -/
theorem after_app {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ### Every operation touches TensorCore references only (piece by piece, then the concatenations) -/

theorem win0_sub : (win0 : List (HloOp τ sig (Elt F))).Forall fun op => op.bufs ⊆ tcRefs τ sig :=
  forall_app (forall_app (forall_app (forall_app (forall_app (forall_app (forall_app (srcDst_sub) dense1_sub) dense2_sub) dense3_sub) lin0_sub) deg0_sub) coef0_sub) agg0x_sub
theorem win1_sub : (win1 : List (HloOp τ sig (Elt F))).Forall fun op => op.bufs ⊆ tcRefs τ sig :=
  forall_app (forall_app (forall_app (forall_app (forall_app (agg0y_sub) comb0_sub) lin1_sub) deg1_sub) coef1_sub) agg1x_sub
theorem win2_sub : (win2 : List (HloOp τ sig (Elt F))).Forall fun op => op.bufs ⊆ tcRefs τ sig :=
  forall_app (forall_app (forall_app (forall_app (agg1y_sub) comb1_sub) lin2_sub) deg2_sub) coef2_sub
theorem win3_sub : (win3 : List (HloOp τ sig (Elt F))).Forall fun op => op.bufs ⊆ tcRefs τ sig :=
  forall_app (agg2_sub) comb2_sub

end HR

theorem ops_sub : (ops : List (HloOp τ sig (Elt F))).Forall fun op => op.bufs ⊆ tcRefs τ sig :=
  HR.forall_app (HR.forall_app (HR.forall_app HR.win0_sub HR.win1_sub) HR.win2_sub) HR.win3_sub

/-! ## Every operation determines its results

None of the operations leaves a written buffer's new contents open (that is what an allocation of an
uninitialised buffer does, and there is none here): for each builder the set of such buffers is empty. -/

namespace HR

theorem srcDst_fresh : (srcDst : List (HloOp τ sig (Elt F))).Forall fun op => op.fresh = ∅ := ⟨rfl, rfl, rfl, rfl⟩
theorem dense1_fresh : (dense1 : List (HloOp τ sig (Elt F))).Forall fun op => op.fresh = ∅ := ⟨rfl, rfl, rfl, rfl, rfl, rfl, rfl, rfl, rfl, rfl, rfl⟩
theorem dense2_fresh : (dense2 : List (HloOp τ sig (Elt F))).Forall fun op => op.fresh = ∅ := ⟨rfl, rfl, rfl, rfl, rfl, rfl, rfl, rfl, rfl, rfl, rfl⟩
theorem dense3_fresh : (dense3 : List (HloOp τ sig (Elt F))).Forall fun op => op.fresh = ∅ := ⟨rfl, rfl, rfl, rfl, rfl, rfl, rfl, rfl, rfl, rfl, rfl⟩
theorem lin0_fresh : (lin0 : List (HloOp τ sig (Elt F))).Forall fun op => op.fresh = ∅ := rfl
theorem deg0_fresh : (deg0 : List (HloOp τ sig (Elt F))).Forall fun op => op.fresh = ∅ := ⟨rfl, rfl, rfl, rfl, rfl, rfl, rfl, rfl, rfl, rfl, rfl, rfl, rfl, rfl, rfl, rfl, rfl⟩
theorem coef0_fresh : (coef0 : List (HloOp τ sig (Elt F))).Forall fun op => op.fresh = ∅ := ⟨rfl, rfl, rfl, rfl, rfl, rfl, rfl, rfl, rfl, rfl, rfl, rfl, rfl, rfl, rfl, rfl, rfl, rfl, rfl⟩
theorem agg0x_fresh : (agg0x : List (HloOp τ sig (Elt F))).Forall fun op => op.fresh = ∅ := ⟨rfl, rfl, rfl, rfl⟩
theorem agg0y_fresh : (agg0y : List (HloOp τ sig (Elt F))).Forall fun op => op.fresh = ∅ := ⟨rfl, rfl, rfl, rfl, rfl, rfl, rfl, rfl, rfl, rfl, rfl, rfl⟩
theorem comb0_fresh : (comb0 : List (HloOp τ sig (Elt F))).Forall fun op => op.fresh = ∅ := ⟨rfl, rfl, rfl, rfl, rfl, rfl, rfl, rfl, rfl, rfl, rfl, rfl, rfl, rfl, rfl⟩
theorem lin1_fresh : (lin1 : List (HloOp τ sig (Elt F))).Forall fun op => op.fresh = ∅ := rfl
theorem deg1_fresh : (deg1 : List (HloOp τ sig (Elt F))).Forall fun op => op.fresh = ∅ := ⟨rfl, rfl, rfl, rfl, rfl, rfl, rfl, rfl, rfl, rfl, rfl, rfl, rfl, rfl, rfl, rfl, rfl⟩
theorem coef1_fresh : (coef1 : List (HloOp τ sig (Elt F))).Forall fun op => op.fresh = ∅ := ⟨rfl, rfl, rfl, rfl, rfl, rfl, rfl, rfl, rfl, rfl, rfl, rfl, rfl, rfl, rfl, rfl, rfl, rfl, rfl⟩
theorem agg1x_fresh : (agg1x : List (HloOp τ sig (Elt F))).Forall fun op => op.fresh = ∅ := ⟨rfl, rfl⟩
theorem agg1y_fresh : (agg1y : List (HloOp τ sig (Elt F))).Forall fun op => op.fresh = ∅ := ⟨rfl, rfl, rfl, rfl, rfl, rfl, rfl, rfl, rfl, rfl, rfl, rfl, rfl, rfl⟩
theorem comb1_fresh : (comb1 : List (HloOp τ sig (Elt F))).Forall fun op => op.fresh = ∅ := ⟨rfl, rfl, rfl, rfl, rfl, rfl, rfl, rfl, rfl, rfl, rfl, rfl, rfl, rfl, rfl⟩
theorem lin2_fresh : (lin2 : List (HloOp τ sig (Elt F))).Forall fun op => op.fresh = ∅ := rfl
theorem deg2_fresh : (deg2 : List (HloOp τ sig (Elt F))).Forall fun op => op.fresh = ∅ := ⟨rfl, rfl, rfl, rfl, rfl, rfl, rfl, rfl, rfl, rfl, rfl, rfl, rfl, rfl, rfl, rfl, rfl⟩
theorem coef2_fresh : (coef2 : List (HloOp τ sig (Elt F))).Forall fun op => op.fresh = ∅ := ⟨rfl, rfl, rfl, rfl, rfl, rfl, rfl, rfl, rfl, rfl, rfl, rfl, rfl, rfl, rfl, rfl, rfl, rfl, rfl⟩
theorem agg2_fresh : (agg2 : List (HloOp τ sig (Elt F))).Forall fun op => op.fresh = ∅ := ⟨rfl, rfl, rfl, rfl, rfl, rfl, rfl, rfl, rfl, rfl, rfl, rfl, rfl, rfl, rfl⟩
theorem comb2_fresh : (comb2 : List (HloOp τ sig (Elt F))).Forall fun op => op.fresh = ∅ := ⟨rfl, rfl, rfl, rfl, rfl, rfl, rfl⟩
theorem win0_fresh : (win0 : List (HloOp τ sig (Elt F))).Forall fun op => op.fresh = ∅ :=
  forall_app (forall_app (forall_app (forall_app (forall_app (forall_app (forall_app (srcDst_fresh) dense1_fresh) dense2_fresh) dense3_fresh) lin0_fresh) deg0_fresh) coef0_fresh) agg0x_fresh
theorem win1_fresh : (win1 : List (HloOp τ sig (Elt F))).Forall fun op => op.fresh = ∅ :=
  forall_app (forall_app (forall_app (forall_app (forall_app (agg0y_fresh) comb0_fresh) lin1_fresh) deg1_fresh) coef1_fresh) agg1x_fresh
theorem win2_fresh : (win2 : List (HloOp τ sig (Elt F))).Forall fun op => op.fresh = ∅ :=
  forall_app (forall_app (forall_app (forall_app (agg1y_fresh) comb1_fresh) lin2_fresh) deg2_fresh) coef2_fresh
theorem win3_fresh : (win3 : List (HloOp τ sig (Elt F))).Forall fun op => op.fresh = ∅ :=
  forall_app (agg2_fresh) comb2_fresh
theorem ops_fresh : (ops : List (HloOp τ sig (Elt F))).Forall fun op => op.fresh = ∅ :=
  forall_app (forall_app (forall_app (win0_fresh) win1_fresh) win2_fresh) win3_fresh

end HR

/-- From any memory with zero counters every weakly fair execution of @main terminates, and every final state has
    each TensorCore buffer at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (b : DevRef τ sig) :=
  run_seq scopedRefs_eq scopedSems_eq defs main (fun _ => ops) main_eq (fun _ => ops_sub) m ρ
    (fun _ => List.forall_iff_forall_mem.mp HR.ops_fresh)

/-! ## No operation writes an argument

The fourteen arguments are the first fourteen buffers of their memory space (positions 0 … 13); every operation
writes exactly one buffer, at a position from 14 on. References at different positions are different, and
different references are different buffers of the device, so an argument's buffer is in no operation's set of
written buffers, and the fold leaves it as it was. -/

namespace HR

/-- The position of a reference among the buffers of its space. -/
def ix (r : Ref sig .tc) : Nat := r.idx.val

theorem ne_of_ix {r y : Ref sig .tc} (hr : ix r < 14) (hy : 14 ≤ ix y) : r ≠ y :=
  fun e => absurd (e ▸ hr) (Nat.not_lt.mpr hy)

/-- The operation writes no buffer at a position below 14. -/
def Spares (op : HloOp τ sig (Elt F)) : Prop :=
  ∀ r : Ref sig .tc, ix r < 14 → (Proc.devRef .tc r : DevRef τ sig) ∉ op.writes

/-- An operation whose one written buffer is at a position from 14 on. -/
theorem spares_of {op : HloOp τ sig (Elt F)} (y : Ref sig .tc) (hw : op.writes = {(Proc.devRef .tc y : DevRef τ sig)})
    (hy : 14 ≤ ix y) : Spares op := fun r hr h => by
  rw [hw, Finset.mem_singleton] at h
  exact ne_of_ix hr hy (Proc.devRef_injective _ h)

theorem srcDst_spares : (srcDst : List (HloOp τ sig (Elt F))).Forall Spares := ⟨spares_of _ rfl (by decide), spares_of _ rfl (by decide), spares_of _ rfl (by decide), spares_of _ rfl (by decide)⟩
theorem dense1_spares : (dense1 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem dense2_spares : (dense2 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem dense3_spares : (dense3 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem lin0_spares : (lin0 : List (HloOp τ sig (Elt F))).Forall Spares := spares_of _ rfl (by decide)
theorem deg0_spares : (deg0 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem coef0_spares : (coef0 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem agg0x_spares : (agg0x : List (HloOp τ sig (Elt F))).Forall Spares := ⟨spares_of _ rfl (by decide), spares_of _ rfl (by decide), spares_of _ rfl (by decide), spares_of _ rfl (by decide)⟩
theorem agg0y_spares : (agg0y : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem comb0_spares : (comb0 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem lin1_spares : (lin1 : List (HloOp τ sig (Elt F))).Forall Spares := spares_of _ rfl (by decide)
theorem deg1_spares : (deg1 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem coef1_spares : (coef1 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem agg1x_spares : (agg1x : List (HloOp τ sig (Elt F))).Forall Spares := ⟨spares_of _ rfl (by decide), spares_of _ rfl (by decide)⟩
theorem agg1y_spares : (agg1y : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem comb1_spares : (comb1 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem lin2_spares : (lin2 : List (HloOp τ sig (Elt F))).Forall Spares := spares_of _ rfl (by decide)
theorem deg2_spares : (deg2 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem coef2_spares : (coef2 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem agg2_spares : (agg2 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide), spares_of _ rfl (by decide)⟩
theorem comb2_spares : (comb2 : List (HloOp τ sig (Elt F))).Forall Spares := ⟨spares_of _ rfl (by decide), spares_of _ rfl (by decide), spares_of _ rfl (by decide), spares_of _ rfl (by decide), spares_of _ rfl (by decide), spares_of _ rfl (by decide), spares_of _ rfl (by decide)⟩
theorem win0_spares : (win0 : List (HloOp τ sig (Elt F))).Forall Spares :=
  forall_app (forall_app (forall_app (forall_app (forall_app (forall_app (forall_app (srcDst_spares) dense1_spares) dense2_spares) dense3_spares) lin0_spares) deg0_spares) coef0_spares) agg0x_spares
theorem win1_spares : (win1 : List (HloOp τ sig (Elt F))).Forall Spares :=
  forall_app (forall_app (forall_app (forall_app (forall_app (agg0y_spares) comb0_spares) lin1_spares) deg1_spares) coef1_spares) agg1x_spares
theorem win2_spares : (win2 : List (HloOp τ sig (Elt F))).Forall Spares :=
  forall_app (forall_app (forall_app (forall_app (agg1y_spares) comb1_spares) lin2_spares) deg2_spares) coef2_spares
theorem win3_spares : (win3 : List (HloOp τ sig (Elt F))).Forall Spares :=
  forall_app (agg2_spares) comb2_spares
theorem ops_spares : (ops : List (HloOp τ sig (Elt F))).Forall Spares :=
  forall_app (forall_app (forall_app (win0_spares) win1_spares) win2_spares) win3_spares

/-- The fold leaves every buffer at a position below 14 as it was. -/
theorem after_ops_low (V : Valuation τ sig (Elt F)) (r : Ref sig .tc) (hr : ix r < 14) :
    after (ops (F := F)) V (r : DevRef τ sig) = V (r : DevRef τ sig) :=
  after_of_forall_not_mem ops V fun op hop => List.forall_iff_forall_mem.mp ops_spares op hop r hr

end HR

/-- The fold leaves each of the fourteen arguments' buffers as it was. -/
theorem arg_kept (V : Valuation τ sig (Elt F)) (b : Ref sig .tc)
    (hb : b ∈ [main_arg0, main_arg1, main_arg2, main_arg3, main_arg4, main_arg5, main_arg6, main_arg7, main_arg8, main_arg9,
      main_arg10, main_arg11, main_arg12, main_arg13]) :
    after (ops (F := F)) V (b : DevRef τ sig) = V (b : DevRef τ sig) :=
  HR.after_ops_low V b ((by decide : ∀ r ∈ [main_arg0, main_arg1, main_arg2, main_arg3, main_arg4, main_arg5, main_arg6, main_arg7, main_arg8, main_arg9,
      main_arg10, main_arg11, main_arg12, main_arg13], HR.ix r < 14) b hb)

theorem arg0_kept (V : Valuation τ sig (Elt F)) : after (ops (F := F)) V (main_arg0 : DevRef τ sig) = V (main_arg0 : DevRef τ sig) :=
  HR.after_ops_low V main_arg0 (by decide)
theorem arg1_kept (V : Valuation τ sig (Elt F)) : after (ops (F := F)) V (main_arg1 : DevRef τ sig) = V (main_arg1 : DevRef τ sig) :=
  HR.after_ops_low V main_arg1 (by decide)
theorem arg2_kept (V : Valuation τ sig (Elt F)) : after (ops (F := F)) V (main_arg2 : DevRef τ sig) = V (main_arg2 : DevRef τ sig) :=
  HR.after_ops_low V main_arg2 (by decide)
theorem arg3_kept (V : Valuation τ sig (Elt F)) : after (ops (F := F)) V (main_arg3 : DevRef τ sig) = V (main_arg3 : DevRef τ sig) :=
  HR.after_ops_low V main_arg3 (by decide)
theorem arg4_kept (V : Valuation τ sig (Elt F)) : after (ops (F := F)) V (main_arg4 : DevRef τ sig) = V (main_arg4 : DevRef τ sig) :=
  HR.after_ops_low V main_arg4 (by decide)
theorem arg5_kept (V : Valuation τ sig (Elt F)) : after (ops (F := F)) V (main_arg5 : DevRef τ sig) = V (main_arg5 : DevRef τ sig) :=
  HR.after_ops_low V main_arg5 (by decide)
theorem arg6_kept (V : Valuation τ sig (Elt F)) : after (ops (F := F)) V (main_arg6 : DevRef τ sig) = V (main_arg6 : DevRef τ sig) :=
  HR.after_ops_low V main_arg6 (by decide)
theorem arg7_kept (V : Valuation τ sig (Elt F)) : after (ops (F := F)) V (main_arg7 : DevRef τ sig) = V (main_arg7 : DevRef τ sig) :=
  HR.after_ops_low V main_arg7 (by decide)
theorem arg8_kept (V : Valuation τ sig (Elt F)) : after (ops (F := F)) V (main_arg8 : DevRef τ sig) = V (main_arg8 : DevRef τ sig) :=
  HR.after_ops_low V main_arg8 (by decide)
theorem arg9_kept (V : Valuation τ sig (Elt F)) : after (ops (F := F)) V (main_arg9 : DevRef τ sig) = V (main_arg9 : DevRef τ sig) :=
  HR.after_ops_low V main_arg9 (by decide)
theorem arg10_kept (V : Valuation τ sig (Elt F)) : after (ops (F := F)) V (main_arg10 : DevRef τ sig) = V (main_arg10 : DevRef τ sig) :=
  HR.after_ops_low V main_arg10 (by decide)
theorem arg11_kept (V : Valuation τ sig (Elt F)) : after (ops (F := F)) V (main_arg11 : DevRef τ sig) = V (main_arg11 : DevRef τ sig) :=
  HR.after_ops_low V main_arg11 (by decide)
theorem arg12_kept (V : Valuation τ sig (Elt F)) : after (ops (F := F)) V (main_arg12 : DevRef τ sig) = V (main_arg12 : DevRef τ sig) :=
  HR.after_ops_low V main_arg12 (by decide)
theorem arg13_kept (V : Valuation τ sig (Elt F)) : after (ops (F := F)) V (main_arg13 : DevRef τ sig) = V (main_arg13 : DevRef τ sig) :=
  HR.after_ops_low V main_arg13 (by decide)

end Cert.ReferenceIdeal.RefRun

end
-- ==== Proof.RefGraph.lean ====
/-
  The graph-dependent pieces of the reference program, each read as a function of what the buffers held before
  it: the two index rows of the edge array, the inverse square roots of the node degrees (three times, once per
  graph layer, always from the same destination row), the edge coefficients, and the neighbourhood sums.  Each piece
  is a straight line of host operations; what its result buffer holds afterwards is the composition of the
  operations' functions over the contents of the buffers the piece reads, which is how the functions of the graph
  definitions are spelt.  The gather, scatter-add and inverse-square-root operations are never opened.
-/
import proofs.«130695_j11355893531404_1_alg».proof.Proof.RefOps
import proofs.«130695_j11355893531404_1_alg».proof.Proof.GraphR

noncomputable section

namespace Cert.ReferenceIdeal.Pieces

open Cert.ReferenceIdeal Cert.ReferenceIdeal.Gen Cert.ReferenceIdeal.RefOps Cert.ReferenceIdeal.GraphDefs
open Idealize.ShloMosaic Idealize.ShloMosaic.TcCoe Idealize.ShloMosaic.StableHlo

namespace HT

/-- Running two lines of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end HT

variable (V : Valuation τ sig (Elt Ideal))

set_option maxHeartbeats 1000000 in
attribute [local irreducible] Host.scatterAdd Host.gather Host.rsqrt in
/-- Row 0 of the edge array, flattened: the source indices. -/
theorem srcDst_v1 : after srcDst V main_v1 = srcOf (V main_arg1) := by
  after_results_simp
  rfl

set_option maxHeartbeats 1000000 in
attribute [local irreducible] Host.scatterAdd Host.gather Host.rsqrt in
/-- Row 1 of the edge array, flattened: the destination indices. -/
theorem srcDst_v3 : after srcDst V main_v3 = dstOf (V main_arg1) := by
  after_results_simp
  rfl

set_option maxHeartbeats 1000000 in
attribute [local irreducible] Host.scatterAdd Host.gather Host.rsqrt in
/-- The inverse square roots of the degrees as the first graph layer computes them. -/
theorem deg0_out : after deg0 V main_v31 = disOf (col (wrap (V main_v3))) := by
  after_results_simp
  rfl

set_option maxHeartbeats 1000000 in
attribute [local irreducible] Host.scatterAdd Host.gather Host.rsqrt in
/-- The same, as the second graph layer computes them. -/
theorem deg1_out : after deg1 V main_v81 = disOf (col (wrap (V main_v3))) := by
  after_results_simp
  rfl

set_option maxHeartbeats 1000000 in
attribute [local irreducible] Host.scatterAdd Host.gather Host.rsqrt in
/-- The same, as the third graph layer computes them. -/
theorem deg2_out : after deg2 V main_v131 = disOf (col (wrap (V main_v3))) := by
  after_results_simp
  rfl

set_option maxHeartbeats 1000000 in
attribute [local irreducible] Host.scatterAdd Host.gather Host.rsqrt in
/-- The edge coefficients of the first graph layer. -/
theorem coef0_out : after coef0 V main_v46 = coefOf (V main_v31) (V main_v1) (V main_v3) := by
  after_results_simp
  rfl

set_option maxHeartbeats 1000000 in
attribute [local irreducible] Host.scatterAdd Host.gather Host.rsqrt in
/-- The edge coefficients of the second graph layer. -/
theorem coef1_out : after coef1 V main_v96 = coefOf (V main_v81) (V main_v1) (V main_v3) := by
  after_results_simp
  rfl

set_option maxHeartbeats 1000000 in
attribute [local irreducible] Host.scatterAdd Host.gather Host.rsqrt in
/-- The edge coefficients of the third graph layer. -/
theorem coef2_out : after coef2 V main_v146 = coefOf (V main_v131) (V main_v1) (V main_v3) := by
  after_results_simp
  rfl

set_option maxHeartbeats 1000000 in
attribute [local irreducible] Host.scatterAdd Host.gather Host.rsqrt in
/-- The neighbourhood sum of the first graph layer (128 columns). -/
theorem agg0_out : after (agg0x ++ agg0y) V main_v59 = aggOf (V main_v46) (V main_v1) (V main_v3) (V main_v19) := by
  rw [HT.after_append]
  after_results_simp
  rfl

set_option maxHeartbeats 1000000 in
attribute [local irreducible] Host.scatterAdd Host.gather Host.rsqrt in
/-- The neighbourhood sum of the second graph layer (128 columns). -/
theorem agg1_out : after (agg1x ++ agg1y) V main_v109 = aggOf (V main_v96) (V main_v1) (V main_v3) (V main_v69) := by
  rw [HT.after_append]
  after_results_simp
  rfl

set_option maxHeartbeats 1000000 in
attribute [local irreducible] Host.scatterAdd Host.gather Host.rsqrt in
/-- The neighbourhood sum of the third graph layer (one column). -/
theorem agg2_out : after agg2 V main_v158 = aggOf1 (V main_v146) (V main_v1) (V main_v3) (V main_v119) := by
  after_results_simp
  rfl

end Cert.ReferenceIdeal.Pieces

end
-- ==== Proof.RefDense.lean ====
/-
  The numeric pieces of the reference program read as the network's target functions, at the ideal values and
  from arbitrary buffer contents.  A dense layer's eleven operations (the product with the weights, the bias laid
  out as a row and repeated along the rows, the sum, and the activation's seven operations: compare with zero,
  scale by the slope, select) compose to  act (x · W + b) ; a graph layer's product with its weights is the plain
  matrix product; a graph layer's node update (the squared inverse roots as a column repeated along the columns,
  times the product, plus the neighbourhood sum, plus the bias, under the activation or, for the last layer, on
  one column without it) composes to  comb  /  comb1 .  Each proof first rewrites the piece's result buffer to the
  composed term of its operations and then reads that term at an index (p, q).
-/
import proofs.«130695_j11355893531404_1_alg».proof.Proof.RefOps
import proofs.«130695_j11355893531404_1_alg».proof.Proof.GraphR
import proofs.«130695_j11355893531404_1_alg».proof.Proof.Spec
import Idealize.ShloMosaic.Lib.Pipeline.Value
import Idealize.ShloMosaic.Lib.ValueIdx

set_option maxRecDepth 16384

noncomputable section

open scoped BigOperators

namespace Cert.ReferenceIdeal.Pieces

open Cert.ReferenceIdeal Cert.ReferenceIdeal.Gen Cert.ReferenceIdeal.RefOps Cert.ReferenceIdeal.GraphDefs
open Idealize.ShloMosaic Idealize.ShloMosaic.TcCoe Idealize.ShloMosaic.StableHlo Idealize.ShloMosaic.ValueIdx Cert.LibMatmul

namespace HS

/-- A rank-0 constant broadcast to the whole array reads, at any index, the extended real its word encodes. -/
theorem splat_apply (c : BitVec 32) (i : S100000x128.Idx) :
    broadcastInDim S100000x128 ![] bcast_S_S100000x128 (constant (F := Ideal) S_ .f32 c) i = Ideal.ofBits .f32 c := by
  refine (broadcastInDim_apply _ _ _ i ix0 (fun a => a.elim0)).trans ?_
  rfl

/-- A bias vector laid out as one row and repeated along the rows reads, at (p, q), its entry q. -/
theorem bias_apply (b : FVec Ideal S128 .f32) (p : Fin 100000) (q : Fin 128) :
    broadcastInDim S100000x128 ![0, 1] bcast_S1x128_S100000x128_0_1
        (broadcastInDim S1x128 ![1] bcast_S128_S1x128_1 b) (ix2 p q) = b (ix1 q) := by
  refine (broadcastInDim_apply _ _ _ (ix2 p q) (ix2 0 q) (fun a => ?_)).trans ?_
  · match a with
    | ⟨0, _⟩ => rfl
    | ⟨1, _⟩ => rfl
  · refine broadcastInDim_apply _ _ _ (ix2 0 q) (ix1 q) (fun a => ?_)
    match a with
    | ⟨0, _⟩ => rfl

/-- The activation's seven operations read at an index: the target's activation of the entry. -/
theorem act_read (y : FVec Ideal S100000x128 .f32) (i : S100000x128.Idx) :
    select (cmpf .oge y (broadcastInDim S100000x128 ![] bcast_S_S100000x128 (constant S_ .f32 0x00000000#32))) y
        (mulf (broadcastInDim S100000x128 ![] bcast_S_S100000x128 (constant S_ .f32 0x3C23D70A#32)) y) i
      = Cert.Gnn.act (y i) := by
  rw [select_apply, cmpf_apply, mulf_apply, splat_apply, splat_apply]
  rfl

/-- A dense layer's eleven operations, composed, are the target's dense layer. -/
theorem dense_eq (x : FVec Ideal S100000x128 .f32) (w : FVec Ideal S128x128 .f32) (b : FVec Ideal S128 .f32) :
    select
        (cmpf .oge
          (addf (Host.dotGeneral dot_S100000x128_S128x128_S100000x128_1_0_0_1_n_n none x w)
            (broadcastInDim S100000x128 ![0, 1] bcast_S1x128_S100000x128_0_1 (broadcastInDim S1x128 ![1] bcast_S128_S1x128_1 b)))
          (broadcastInDim S100000x128 ![] bcast_S_S100000x128 (constant S_ .f32 0x00000000#32)))
        (addf (Host.dotGeneral dot_S100000x128_S128x128_S100000x128_1_0_0_1_n_n none x w)
          (broadcastInDim S100000x128 ![0, 1] bcast_S1x128_S100000x128_0_1 (broadcastInDim S1x128 ![1] bcast_S128_S1x128_1 b)))
        (mulf (broadcastInDim S100000x128 ![] bcast_S_S100000x128 (constant S_ .f32 0x3C23D70A#32))
          (addf (Host.dotGeneral dot_S100000x128_S128x128_S100000x128_1_0_0_1_n_n none x w)
            (broadcastInDim S100000x128 ![0, 1] bcast_S1x128_S100000x128_0_1 (broadcastInDim S1x128 ![1] bcast_S128_S1x128_1 b))))
      = Cert.Gnn.dense x w (Cert.Gnn.rowOf b) := by
  funext i
  obtain ⟨p, q, rfl⟩ : ∃ (p : Fin 100000) (q : Fin 128), i = ix2 p q := ⟨i 0, i 1, eq_ix2 i⟩
  refine (act_read _ _).trans ?_
  have hmm : Host.dotGeneral dot_S100000x128_S128x128_S100000x128_1_0_0_1_n_n none x w = MM x w :=
    Cert.LibMatmul.dotGeneral_eq dot_S100000x128_S128x128_S100000x128_1_0_0_1_n_n rfl rfl rfl rfl rfl rfl none _ x w
  rw [addf_apply, bias_apply, hmm]
  rfl

/-- A column repeated along the columns reads, at (p, q), its entry (p, 0). -/
theorem col_apply (d : FVec Ideal S100000x1 .f32) (p : Fin 100000) (q : Fin 128) :
    broadcastInDim S100000x128 ![0, 1] bcast_S100000x1_S100000x128_0_1 d (ix2 p q) = d (ix2 p 0) := by
  refine broadcastInDim_apply _ _ _ (ix2 p q) (ix2 p 0) (fun a => ?_)
  match a with
  | ⟨0, _⟩ => rfl
  | ⟨1, _⟩ => rfl

/-- A graph layer's node update with activation (fifteen operations), composed, is the target's. -/
theorem comb_eq (agg h : FVec Ideal S100000x128 .f32) (dis : FVec Ideal S100000 .f32) (b : FVec Ideal S128 .f32) :
    select
        (cmpf .oge
          (addf
            (addf agg
              (mulf h (broadcastInDim S100000x128 ![0, 1] bcast_S100000x1_S100000x128_0_1
                (broadcastInDim S100000x1 ![0] bcast_S100000_S100000x1_0 (mulf dis dis)))))
            (broadcastInDim S100000x128 ![0, 1] bcast_S1x128_S100000x128_0_1 (broadcastInDim S1x128 ![1] bcast_S128_S1x128_1 b)))
          (broadcastInDim S100000x128 ![] bcast_S_S100000x128 (constant S_ .f32 0x00000000#32)))
        (addf
          (addf agg
            (mulf h (broadcastInDim S100000x128 ![0, 1] bcast_S100000x1_S100000x128_0_1
              (broadcastInDim S100000x1 ![0] bcast_S100000_S100000x1_0 (mulf dis dis)))))
          (broadcastInDim S100000x128 ![0, 1] bcast_S1x128_S100000x128_0_1 (broadcastInDim S1x128 ![1] bcast_S128_S1x128_1 b)))
        (mulf (broadcastInDim S100000x128 ![] bcast_S_S100000x128 (constant S_ .f32 0x3C23D70A#32))
          (addf
            (addf agg
              (mulf h (broadcastInDim S100000x128 ![0, 1] bcast_S100000x1_S100000x128_0_1
                (broadcastInDim S100000x1 ![0] bcast_S100000_S100000x1_0 (mulf dis dis)))))
            (broadcastInDim S100000x128 ![0, 1] bcast_S1x128_S100000x128_0_1 (broadcastInDim S1x128 ![1] bcast_S128_S1x128_1 b))))
      = Cert.Gnn.comb agg h (d2Of dis) (Cert.Gnn.rowOf b) := by
  funext i
  obtain ⟨p, q, rfl⟩ : ∃ (p : Fin 100000) (q : Fin 128), i = ix2 p q := ⟨i 0, i 1, eq_ix2 i⟩
  refine (act_read _ _).trans ?_
  rw [addf_apply, addf_apply, mulf_apply, bias_apply, col_apply]
  rfl

/-- A one-entry bias laid out as a 1×1 matrix and repeated along the rows reads, at (p, q), its one entry. -/
theorem bias1_apply (b : FVec Ideal S1 .f32) (p : Fin 100000) (q : Fin 1) :
    broadcastInDim S100000x1 ![0, 1] bcast_S1x1_S100000x1_0_1
        (broadcastInDim S1x1 ![1] bcast_S1_S1x1_1 b) (ix2 p q) = b (ix1 q) := by
  obtain rfl : q = 0 := Subsingleton.elim _ _
  refine (broadcastInDim_apply _ _ _ (ix2 p 0) (ix2 0 0) (fun a => ?_)).trans ?_
  · match a with
    | ⟨0, _⟩ => rfl
    | ⟨1, _⟩ => rfl
  · refine broadcastInDim_apply _ _ _ (ix2 0 0) (ix1 0) (fun a => ?_)
    match a with
    | ⟨0, _⟩ => rfl

/-- The last graph layer's node update (seven operations, one column, no activation), composed, is the target's. -/
theorem comb1_eq (agg h : FVec Ideal S100000x1 .f32) (dis : FVec Ideal S100000 .f32) (b : FVec Ideal S1 .f32) :
    addf
        (addf agg (mulf h (broadcastInDim S100000x1 ![0] bcast_S100000_S100000x1_0 (mulf dis dis))))
        (broadcastInDim S100000x1 ![0, 1] bcast_S1x1_S100000x1_0_1 (broadcastInDim S1x1 ![1] bcast_S1_S1x1_1 b))
      = Cert.Gnn.comb1 agg h (d2Of dis) (Cert.Gnn.rowOf1 b) := by
  funext i
  obtain ⟨p, q, rfl⟩ : ∃ (p : Fin 100000) (q : Fin 1), i = ix2 p q := ⟨i 0, i 1, eq_ix2 i⟩
  rw [addf_apply, addf_apply, mulf_apply, bias1_apply]
  rfl

end HS

variable (V : Valuation τ sig (Elt Ideal))

set_option maxHeartbeats 400000 in
theorem dense1_out : after dense1 V main_v8 = Cert.Gnn.dense (V main_arg0) (V main_arg2) (Cert.Gnn.rowOf (V main_arg3)) := by
  after_results
  exact HS.dense_eq _ _ _

set_option maxHeartbeats 400000 in
theorem dense2_out : after dense2 V main_v13 = Cert.Gnn.dense (V main_v8) (V main_arg4) (Cert.Gnn.rowOf (V main_arg5)) := by
  after_results
  exact HS.dense_eq _ _ _

set_option maxHeartbeats 400000 in
theorem dense3_out : after dense3 V main_v18 = Cert.Gnn.dense (V main_v13) (V main_arg6) (Cert.Gnn.rowOf (V main_arg7)) := by
  after_results
  exact HS.dense_eq _ _ _

theorem lin0_out : after lin0 V main_v19 = MM (V main_v18) (V main_arg8) := by
  after_results
  exact Cert.LibMatmul.dotGeneral_eq dot_S100000x128_S128x128_S100000x128_1_0_0_1_n_n rfl rfl rfl rfl rfl rfl none _ _ _

theorem lin1_out : after lin1 V main_v69 = MM (V main_v68) (V main_arg10) := by
  after_results
  exact Cert.LibMatmul.dotGeneral_eq dot_S100000x128_S128x128_S100000x128_1_0_0_1_n_n rfl rfl rfl rfl rfl rfl none _ _ _

theorem lin2_out : after lin2 V main_v119 = MM (V main_v118) (V main_arg12) := by
  after_results
  exact Cert.LibMatmul.dotGeneral_eq dot_S100000x128_S128x1_S100000x1_1_0_0_1_n_n rfl rfl rfl rfl rfl rfl none _ _ _

set_option maxHeartbeats 400000 in
theorem comb0_out : after comb0 V main_v68
    = Cert.Gnn.comb (V main_v59) (V main_v19) (d2Of (V main_v31)) (Cert.Gnn.rowOf (V main_arg9)) := by
  after_results
  exact HS.comb_eq _ _ _ _

set_option maxHeartbeats 400000 in
theorem comb1_out : after comb1 V main_v118
    = Cert.Gnn.comb (V main_v109) (V main_v69) (d2Of (V main_v81)) (Cert.Gnn.rowOf (V main_arg11)) := by
  after_results
  exact HS.comb_eq _ _ _ _

theorem comb2_out : after comb2 V main_v165
    = Cert.Gnn.comb1 (V main_v158) (V main_v119) (d2Of (V main_v131)) (Cert.Gnn.rowOf1 (V main_arg13)) := by
  after_results
  exact HS.comb1_eq _ _ _ _

end Cert.ReferenceIdeal.Pieces

end
-- ==== Proof.RefValue.lean ====
/-
  The reference program as one function of its argument buffers: the pieces of its line of host operations composed in
  program order.  Each piece reads buffers that earlier pieces wrote (or arguments) and writes its own; a buffer that a
  piece does not write keeps its contents through it.  Walking the pieces in order, every buffer that a later piece still
  reads is a named term of the arguments' contents; the last piece's result is the network of the specification over the
  graph that the edge array defines.  The degrees are computed three times, once per graph layer, from the same
  destination row, so the three inverse-root vectors are one term and one graph serves all three layers.
-/
import proofs.«130695_j11355893531404_1_alg».proof.Proof.RefGraph
import proofs.«130695_j11355893531404_1_alg».proof.Proof.RefDense

noncomputable section

namespace Cert.ReferenceIdeal.RefValue

open Cert.ReferenceIdeal Cert.ReferenceIdeal.Gen Cert.ReferenceIdeal.RefOps Cert.ReferenceIdeal.GraphDefs Cert.ReferenceIdeal.Pieces
open Idealize.ShloMosaic Idealize.ShloMosaic.TcCoe Idealize.ShloMosaic.StableHlo

/-! ## What each piece writes

The references each piece's operations write: any other buffer keeps its contents through the piece. -/

/-- One operation's written reference is in the piece's list. -/
local macro "written_here" : tactic =>
  `(tactic| (simp only [nullary_writes, unary_writes, binary_writes, ternary_writes, reshape_writes,
      Finset.singleton_subset_iff, List.mem_toFinset]; exact List.mem_map_of_mem (by decide)))

/-- The references the operations of `srcDst` write. -/
abbrev srcDst_W : List (Ref sig .tc) :=
  [main_v0, main_v1, main_v2, main_v3]
theorem srcDst_writes : (srcDst : List (HloOp τ sig (Elt Ideal))).Forall fun op => op.writes ⊆ (srcDst_W.map (Proc.devRef (τ := τ) .tc)).toFinset := by
  simp only [List.Forall]
  repeat' apply And.intro
  all_goals written_here

/-- The references the operations of `dense1` write. -/
abbrev dense1_W : List (Ref sig .tc) :=
  [main_v4, main_v5, main_v6, main_v7, main_call0.cst.ref, main_call0.v0.ref, main_call0.v1.ref, main_call0.cst_0.ref, main_call0.v2.ref, main_call0.v3.ref, main_call0.call0.v0.ref]
theorem dense1_writes : (dense1 : List (HloOp τ sig (Elt Ideal))).Forall fun op => op.writes ⊆ (dense1_W.map (Proc.devRef (τ := τ) .tc)).toFinset := by
  simp only [List.Forall]
  repeat' apply And.intro
  all_goals written_here

/-- The references the operations of `dense2` write. -/
abbrev dense2_W : List (Ref sig .tc) :=
  [main_v9, main_v10, main_v11, main_v12, main_call1.cst.ref, main_call1.v0.ref, main_call1.v1.ref, main_call1.cst_0.ref, main_call1.v2.ref, main_call1.v3.ref, main_call1.call0.v0.ref]
theorem dense2_writes : (dense2 : List (HloOp τ sig (Elt Ideal))).Forall fun op => op.writes ⊆ (dense2_W.map (Proc.devRef (τ := τ) .tc)).toFinset := by
  simp only [List.Forall]
  repeat' apply And.intro
  all_goals written_here

/-- The references the operations of `dense3` write. -/
abbrev dense3_W : List (Ref sig .tc) :=
  [main_v14, main_v15, main_v16, main_v17, main_call2.cst.ref, main_call2.v0.ref, main_call2.v1.ref, main_call2.cst_0.ref, main_call2.v2.ref, main_call2.v3.ref, main_call2.call0.v0.ref]
theorem dense3_writes : (dense3 : List (HloOp τ sig (Elt Ideal))).Forall fun op => op.writes ⊆ (dense3_W.map (Proc.devRef (τ := τ) .tc)).toFinset := by
  simp only [List.Forall]
  repeat' apply And.intro
  all_goals written_here

/-- The references the operations of `lin0` write. -/
abbrev lin0_W : List (Ref sig .tc) :=
  [main_v19]
theorem lin0_writes : (lin0 : List (HloOp τ sig (Elt Ideal))).Forall fun op => op.writes ⊆ (lin0_W.map (Proc.devRef (τ := τ) .tc)).toFinset := by
  simp only [List.Forall]
  written_here

/-- The references the operations of `deg0` write. -/
abbrev deg0_W : List (Ref sig .tc) :=
  [main_cst, main_v20, main_c, main_v21, main_v22, main_c_0, main_v23, main_v24, main_v25, main_v26, main_cst_1, main_v27, main_v28, main_cst_2, main_v29, main_v30, main_v31]
theorem deg0_writes : (deg0 : List (HloOp τ sig (Elt Ideal))).Forall fun op => op.writes ⊆ (deg0_W.map (Proc.devRef (τ := τ) .tc)).toFinset := by
  simp only [List.Forall]
  repeat' apply And.intro
  all_goals written_here

/-- The references the operations of `coef0` write. -/
abbrev coef0_W : List (Ref sig .tc) :=
  [main_c_3, main_v32, main_v33, main_c_4, main_v34, main_v35, main_v36, main_v37, main_v38, main_c_5, main_v39, main_v40, main_c_6, main_v41, main_v42, main_v43, main_v44, main_v45, main_v46]
theorem coef0_writes : (coef0 : List (HloOp τ sig (Elt Ideal))).Forall fun op => op.writes ⊆ (coef0_W.map (Proc.devRef (τ := τ) .tc)).toFinset := by
  simp only [List.Forall]
  repeat' apply And.intro
  all_goals written_here

/-- The references the operations of `agg0x` write. -/
abbrev agg0x_W : List (Ref sig .tc) :=
  [main_c_7, main_v47, main_v48, main_c_8]
theorem agg0x_writes : (agg0x : List (HloOp τ sig (Elt Ideal))).Forall fun op => op.writes ⊆ (agg0x_W.map (Proc.devRef (τ := τ) .tc)).toFinset := by
  simp only [List.Forall]
  repeat' apply And.intro
  all_goals written_here

/-- The references the operations of `agg0y` write. -/
abbrev agg0y_W : List (Ref sig .tc) :=
  [main_v49, main_v50, main_v51, main_v52, main_v53, main_v54, main_v55, main_v56, main_cst_9, main_v57, main_v58, main_v59]
theorem agg0y_writes : (agg0y : List (HloOp τ sig (Elt Ideal))).Forall fun op => op.writes ⊆ (agg0y_W.map (Proc.devRef (τ := τ) .tc)).toFinset := by
  simp only [List.Forall]
  repeat' apply And.intro
  all_goals written_here

/-- The references the operations of `comb0` write. -/
abbrev comb0_W : List (Ref sig .tc) :=
  [main_v60, main_v61, main_v62, main_v63, main_v64, main_v65, main_v66, main_v67, main_call3.cst.ref, main_call3.v0.ref, main_call3.v1.ref, main_call3.cst_0.ref, main_call3.v2.ref, main_call3.v3.ref, main_call3.call0.v0.ref]
theorem comb0_writes : (comb0 : List (HloOp τ sig (Elt Ideal))).Forall fun op => op.writes ⊆ (comb0_W.map (Proc.devRef (τ := τ) .tc)).toFinset := by
  simp only [List.Forall]
  repeat' apply And.intro
  all_goals written_here

/-- The references the operations of `lin1` write. -/
abbrev lin1_W : List (Ref sig .tc) :=
  [main_v69]
theorem lin1_writes : (lin1 : List (HloOp τ sig (Elt Ideal))).Forall fun op => op.writes ⊆ (lin1_W.map (Proc.devRef (τ := τ) .tc)).toFinset := by
  simp only [List.Forall]
  written_here

/-- The references the operations of `deg1` write. -/
abbrev deg1_W : List (Ref sig .tc) :=
  [main_cst_10, main_v70, main_c_11, main_v71, main_v72, main_c_12, main_v73, main_v74, main_v75, main_v76, main_cst_13, main_v77, main_v78, main_cst_14, main_v79, main_v80, main_v81]
theorem deg1_writes : (deg1 : List (HloOp τ sig (Elt Ideal))).Forall fun op => op.writes ⊆ (deg1_W.map (Proc.devRef (τ := τ) .tc)).toFinset := by
  simp only [List.Forall]
  repeat' apply And.intro
  all_goals written_here

/-- The references the operations of `coef1` write. -/
abbrev coef1_W : List (Ref sig .tc) :=
  [main_c_15, main_v82, main_v83, main_c_16, main_v84, main_v85, main_v86, main_v87, main_v88, main_c_17, main_v89, main_v90, main_c_18, main_v91, main_v92, main_v93, main_v94, main_v95, main_v96]
theorem coef1_writes : (coef1 : List (HloOp τ sig (Elt Ideal))).Forall fun op => op.writes ⊆ (coef1_W.map (Proc.devRef (τ := τ) .tc)).toFinset := by
  simp only [List.Forall]
  repeat' apply And.intro
  all_goals written_here

/-- The references the operations of `agg1x` write. -/
abbrev agg1x_W : List (Ref sig .tc) :=
  [main_c_19, main_v97]
theorem agg1x_writes : (agg1x : List (HloOp τ sig (Elt Ideal))).Forall fun op => op.writes ⊆ (agg1x_W.map (Proc.devRef (τ := τ) .tc)).toFinset := by
  simp only [List.Forall]
  repeat' apply And.intro
  all_goals written_here

/-- The references the operations of `agg1y` write. -/
abbrev agg1y_W : List (Ref sig .tc) :=
  [main_v98, main_c_20, main_v99, main_v100, main_v101, main_v102, main_v103, main_v104, main_v105, main_v106, main_cst_21, main_v107, main_v108, main_v109]
theorem agg1y_writes : (agg1y : List (HloOp τ sig (Elt Ideal))).Forall fun op => op.writes ⊆ (agg1y_W.map (Proc.devRef (τ := τ) .tc)).toFinset := by
  simp only [List.Forall]
  repeat' apply And.intro
  all_goals written_here

/-- The references the operations of `comb1` write. -/
abbrev comb1_W : List (Ref sig .tc) :=
  [main_v110, main_v111, main_v112, main_v113, main_v114, main_v115, main_v116, main_v117, main_call4.cst.ref, main_call4.v0.ref, main_call4.v1.ref, main_call4.cst_0.ref, main_call4.v2.ref, main_call4.v3.ref, main_call4.call0.v0.ref]
theorem comb1_writes : (comb1 : List (HloOp τ sig (Elt Ideal))).Forall fun op => op.writes ⊆ (comb1_W.map (Proc.devRef (τ := τ) .tc)).toFinset := by
  simp only [List.Forall]
  repeat' apply And.intro
  all_goals written_here

/-- The references the operations of `lin2` write. -/
abbrev lin2_W : List (Ref sig .tc) :=
  [main_v119]
theorem lin2_writes : (lin2 : List (HloOp τ sig (Elt Ideal))).Forall fun op => op.writes ⊆ (lin2_W.map (Proc.devRef (τ := τ) .tc)).toFinset := by
  simp only [List.Forall]
  written_here

/-- The references the operations of `deg2` write. -/
abbrev deg2_W : List (Ref sig .tc) :=
  [main_cst_22, main_v120, main_c_23, main_v121, main_v122, main_c_24, main_v123, main_v124, main_v125, main_v126, main_cst_25, main_v127, main_v128, main_cst_26, main_v129, main_v130, main_v131]
theorem deg2_writes : (deg2 : List (HloOp τ sig (Elt Ideal))).Forall fun op => op.writes ⊆ (deg2_W.map (Proc.devRef (τ := τ) .tc)).toFinset := by
  simp only [List.Forall]
  repeat' apply And.intro
  all_goals written_here

/-- The references the operations of `coef2` write. -/
abbrev coef2_W : List (Ref sig .tc) :=
  [main_c_27, main_v132, main_v133, main_c_28, main_v134, main_v135, main_v136, main_v137, main_v138, main_c_29, main_v139, main_v140, main_c_30, main_v141, main_v142, main_v143, main_v144, main_v145, main_v146]
theorem coef2_writes : (coef2 : List (HloOp τ sig (Elt Ideal))).Forall fun op => op.writes ⊆ (coef2_W.map (Proc.devRef (τ := τ) .tc)).toFinset := by
  simp only [List.Forall]
  repeat' apply And.intro
  all_goals written_here

/-- The references the operations of `agg2` write. -/
abbrev agg2_W : List (Ref sig .tc) :=
  [main_c_31, main_v147, main_v148, main_c_32, main_v149, main_v150, main_v151, main_v152, main_v153, main_v154, main_v155, main_cst_33, main_v156, main_v157, main_v158]
theorem agg2_writes : (agg2 : List (HloOp τ sig (Elt Ideal))).Forall fun op => op.writes ⊆ (agg2_W.map (Proc.devRef (τ := τ) .tc)).toFinset := by
  simp only [List.Forall]
  repeat' apply And.intro
  all_goals written_here

/-- The references the operations of `comb2` write. -/
abbrev comb2_W : List (Ref sig .tc) :=
  [main_v159, main_v160, main_v161, main_v162, main_v163, main_v164, main_v165]
theorem comb2_writes : (comb2 : List (HloOp τ sig (Elt Ideal))).Forall fun op => op.writes ⊆ (comb2_W.map (Proc.devRef (τ := τ) .tc)).toFinset := by
  simp only [List.Forall]
  repeat' apply And.intro
  all_goals written_here

variable (V : Valuation τ sig (Elt Ideal))

/-! ## What each piece keeps -/

theorem keep_srcDst (r : Ref sig .tc) (h : r ∉ srcDst_W) : after srcDst V (Proc.devRef .tc r) = V (Proc.devRef .tc r) :=
  after_of_writes_sub srcDst V srcDst_writes h
theorem keep_dense1 (r : Ref sig .tc) (h : r ∉ dense1_W) : after dense1 V (Proc.devRef .tc r) = V (Proc.devRef .tc r) :=
  after_of_writes_sub dense1 V dense1_writes h
theorem keep_dense2 (r : Ref sig .tc) (h : r ∉ dense2_W) : after dense2 V (Proc.devRef .tc r) = V (Proc.devRef .tc r) :=
  after_of_writes_sub dense2 V dense2_writes h
theorem keep_dense3 (r : Ref sig .tc) (h : r ∉ dense3_W) : after dense3 V (Proc.devRef .tc r) = V (Proc.devRef .tc r) :=
  after_of_writes_sub dense3 V dense3_writes h
theorem keep_lin0 (r : Ref sig .tc) (h : r ∉ lin0_W) : after lin0 V (Proc.devRef .tc r) = V (Proc.devRef .tc r) :=
  after_of_writes_sub lin0 V lin0_writes h
theorem keep_deg0 (r : Ref sig .tc) (h : r ∉ deg0_W) : after deg0 V (Proc.devRef .tc r) = V (Proc.devRef .tc r) :=
  after_of_writes_sub deg0 V deg0_writes h
theorem keep_coef0 (r : Ref sig .tc) (h : r ∉ coef0_W) : after coef0 V (Proc.devRef .tc r) = V (Proc.devRef .tc r) :=
  after_of_writes_sub coef0 V coef0_writes h
theorem keep_agg0 (r : Ref sig .tc) (h : r ∉ agg0x_W) (h' : r ∉ agg0y_W) :
    after (agg0x ++ agg0y) V (Proc.devRef .tc r) = V (Proc.devRef .tc r) := by
  rw [Pieces.HT.after_append, after_of_writes_sub agg0y _ agg0y_writes h', after_of_writes_sub agg0x _ agg0x_writes h]
theorem keep_comb0 (r : Ref sig .tc) (h : r ∉ comb0_W) : after comb0 V (Proc.devRef .tc r) = V (Proc.devRef .tc r) :=
  after_of_writes_sub comb0 V comb0_writes h
theorem keep_lin1 (r : Ref sig .tc) (h : r ∉ lin1_W) : after lin1 V (Proc.devRef .tc r) = V (Proc.devRef .tc r) :=
  after_of_writes_sub lin1 V lin1_writes h
theorem keep_deg1 (r : Ref sig .tc) (h : r ∉ deg1_W) : after deg1 V (Proc.devRef .tc r) = V (Proc.devRef .tc r) :=
  after_of_writes_sub deg1 V deg1_writes h
theorem keep_coef1 (r : Ref sig .tc) (h : r ∉ coef1_W) : after coef1 V (Proc.devRef .tc r) = V (Proc.devRef .tc r) :=
  after_of_writes_sub coef1 V coef1_writes h
theorem keep_agg1 (r : Ref sig .tc) (h : r ∉ agg1x_W) (h' : r ∉ agg1y_W) :
    after (agg1x ++ agg1y) V (Proc.devRef .tc r) = V (Proc.devRef .tc r) := by
  rw [Pieces.HT.after_append, after_of_writes_sub agg1y _ agg1y_writes h', after_of_writes_sub agg1x _ agg1x_writes h]
theorem keep_comb1 (r : Ref sig .tc) (h : r ∉ comb1_W) : after comb1 V (Proc.devRef .tc r) = V (Proc.devRef .tc r) :=
  after_of_writes_sub comb1 V comb1_writes h
theorem keep_lin2 (r : Ref sig .tc) (h : r ∉ lin2_W) : after lin2 V (Proc.devRef .tc r) = V (Proc.devRef .tc r) :=
  after_of_writes_sub lin2 V lin2_writes h
theorem keep_deg2 (r : Ref sig .tc) (h : r ∉ deg2_W) : after deg2 V (Proc.devRef .tc r) = V (Proc.devRef .tc r) :=
  after_of_writes_sub deg2 V deg2_writes h
theorem keep_coef2 (r : Ref sig .tc) (h : r ∉ coef2_W) : after coef2 V (Proc.devRef .tc r) = V (Proc.devRef .tc r) :=
  after_of_writes_sub coef2 V coef2_writes h
theorem keep_agg2 (r : Ref sig .tc) (h : r ∉ agg2_W) : after agg2 V (Proc.devRef .tc r) = V (Proc.devRef .tc r) :=
  after_of_writes_sub agg2 V agg2_writes h
theorem keep_comb2 (r : Ref sig .tc) (h : r ∉ comb2_W) : after comb2 V (Proc.devRef .tc r) = V (Proc.devRef .tc r) :=
  after_of_writes_sub comb2 V comb2_writes h

/-! ## The values, as terms of the arguments

Every buffer a later piece reads, as a term of the argument buffers' contents. -/

/-- The source index of every edge. -/
def tS := srcOf (V main_arg1)
/-- The destination index of every edge. -/
def tD := dstOf (V main_arg1)
/-- The first dense layer's output. -/
def tH1 := Cert.Gnn.dense (V main_arg0) (V main_arg2) (Cert.Gnn.rowOf (V main_arg3))
/-- The second dense layer's output. -/
def tH2 := Cert.Gnn.dense (tH1 V) (V main_arg4) (Cert.Gnn.rowOf (V main_arg5))
/-- The third dense layer's output. -/
def tH3 := Cert.Gnn.dense (tH2 V) (V main_arg6) (Cert.Gnn.rowOf (V main_arg7))
/-- The first graph layer's product with its weights. -/
def tL0 := Cert.LibMatmul.MM (tH3 V) (V main_arg8)
/-- The inverse square roots of the node degrees (the same for all three graph layers). -/
def tDis := disOf (col (wrap (tD V)))
/-- The edge coefficients (the same for all three graph layers). -/
def tCoef := coefOf (tDis V) (tS V) (tD V)
/-- The first graph layer's neighbourhood sum. -/
def tA0 := aggOf (tCoef V) (tS V) (tD V) (tL0 V)
/-- The first graph layer's output. -/
def tH4 := Cert.Gnn.comb (tA0 V) (tL0 V) (d2Of (tDis V)) (Cert.Gnn.rowOf (V main_arg9))
/-- The second graph layer's product with its weights. -/
def tL1 := Cert.LibMatmul.MM (tH4 V) (V main_arg10)
/-- The second graph layer's neighbourhood sum. -/
def tA1 := aggOf (tCoef V) (tS V) (tD V) (tL1 V)
/-- The second graph layer's output. -/
def tH5 := Cert.Gnn.comb (tA1 V) (tL1 V) (d2Of (tDis V)) (Cert.Gnn.rowOf (V main_arg11))
/-- The third graph layer's product with its weights (one column). -/
def tL2 := Cert.LibMatmul.MM (tH5 V) (V main_arg12)
/-- The third graph layer's neighbourhood sum (one column). -/
def tA2 := aggOf1 (tCoef V) (tS V) (tD V) (tL2 V)
/-- The network's output. -/
def tOut := Cert.Gnn.comb1 (tA2 V) (tL2 V) (d2Of (tDis V)) (Cert.Gnn.rowOf1 (V main_arg13))

/-! ## The buffers after each piece -/

/-- The buffers after the piece `srcDst`. -/
def W1 : Valuation τ sig (Elt Ideal) := after srcDst V
/-- The buffers after the piece `dense1` and every piece before it. -/
def W2 : Valuation τ sig (Elt Ideal) := after dense1 (W1 V)
/-- The buffers after the piece `dense2` and every piece before it. -/
def W3 : Valuation τ sig (Elt Ideal) := after dense2 (W2 V)
/-- The buffers after the piece `dense3` and every piece before it. -/
def W4 : Valuation τ sig (Elt Ideal) := after dense3 (W3 V)
/-- The buffers after the piece `lin0` and every piece before it. -/
def W5 : Valuation τ sig (Elt Ideal) := after lin0 (W4 V)
/-- The buffers after the piece `deg0` and every piece before it. -/
def W6 : Valuation τ sig (Elt Ideal) := after deg0 (W5 V)
/-- The buffers after the piece `coef0` and every piece before it. -/
def W7 : Valuation τ sig (Elt Ideal) := after coef0 (W6 V)
/-- The buffers after the piece `agg0` and every piece before it. -/
def W8 : Valuation τ sig (Elt Ideal) := after (agg0x ++ agg0y) (W7 V)
/-- The buffers after the piece `comb0` and every piece before it. -/
def W9 : Valuation τ sig (Elt Ideal) := after comb0 (W8 V)
/-- The buffers after the piece `lin1` and every piece before it. -/
def W10 : Valuation τ sig (Elt Ideal) := after lin1 (W9 V)
/-- The buffers after the piece `deg1` and every piece before it. -/
def W11 : Valuation τ sig (Elt Ideal) := after deg1 (W10 V)
/-- The buffers after the piece `coef1` and every piece before it. -/
def W12 : Valuation τ sig (Elt Ideal) := after coef1 (W11 V)
/-- The buffers after the piece `agg1` and every piece before it. -/
def W13 : Valuation τ sig (Elt Ideal) := after (agg1x ++ agg1y) (W12 V)
/-- The buffers after the piece `comb1` and every piece before it. -/
def W14 : Valuation τ sig (Elt Ideal) := after comb1 (W13 V)
/-- The buffers after the piece `lin2` and every piece before it. -/
def W15 : Valuation τ sig (Elt Ideal) := after lin2 (W14 V)
/-- The buffers after the piece `deg2` and every piece before it. -/
def W16 : Valuation τ sig (Elt Ideal) := after deg2 (W15 V)
/-- The buffers after the piece `coef2` and every piece before it. -/
def W17 : Valuation τ sig (Elt Ideal) := after coef2 (W16 V)
/-- The buffers after the piece `agg2` and every piece before it. -/
def W18 : Valuation τ sig (Elt Ideal) := after agg2 (W17 V)
/-- The buffers after the piece `comb2` and every piece before it. -/
def W19 : Valuation τ sig (Elt Ideal) := after comb2 (W18 V)

/-! ## What each live buffer holds after each piece -/

theorem val1_main_arg0 : W1 V main_arg0 = V main_arg0 := keep_srcDst V main_arg0 (by decide)
theorem val1_main_arg2 : W1 V main_arg2 = V main_arg2 := keep_srcDst V main_arg2 (by decide)
theorem val1_main_arg3 : W1 V main_arg3 = V main_arg3 := keep_srcDst V main_arg3 (by decide)
theorem val1_main_arg4 : W1 V main_arg4 = V main_arg4 := keep_srcDst V main_arg4 (by decide)
theorem val1_main_arg5 : W1 V main_arg5 = V main_arg5 := keep_srcDst V main_arg5 (by decide)
theorem val1_main_arg6 : W1 V main_arg6 = V main_arg6 := keep_srcDst V main_arg6 (by decide)
theorem val1_main_arg7 : W1 V main_arg7 = V main_arg7 := keep_srcDst V main_arg7 (by decide)
theorem val1_main_arg8 : W1 V main_arg8 = V main_arg8 := keep_srcDst V main_arg8 (by decide)
theorem val1_main_v3 : W1 V main_v3 = tD V := srcDst_v3 V
theorem val1_main_v1 : W1 V main_v1 = tS V := srcDst_v1 V
theorem val1_main_arg9 : W1 V main_arg9 = V main_arg9 := keep_srcDst V main_arg9 (by decide)
theorem val1_main_arg10 : W1 V main_arg10 = V main_arg10 := keep_srcDst V main_arg10 (by decide)
theorem val1_main_arg11 : W1 V main_arg11 = V main_arg11 := keep_srcDst V main_arg11 (by decide)
theorem val1_main_arg12 : W1 V main_arg12 = V main_arg12 := keep_srcDst V main_arg12 (by decide)
theorem val1_main_arg13 : W1 V main_arg13 = V main_arg13 := keep_srcDst V main_arg13 (by decide)
theorem val2_main_v8 : W2 V main_v8 = tH1 V :=
  (dense1_out (W1 V)).trans (by rw [val1_main_arg0, val1_main_arg2, val1_main_arg3]; rfl)
theorem val2_main_arg4 : W2 V main_arg4 = V main_arg4 :=
  (keep_dense1 (W1 V) main_arg4 (by decide)).trans (val1_main_arg4 V)
theorem val2_main_arg5 : W2 V main_arg5 = V main_arg5 :=
  (keep_dense1 (W1 V) main_arg5 (by decide)).trans (val1_main_arg5 V)
theorem val2_main_arg6 : W2 V main_arg6 = V main_arg6 :=
  (keep_dense1 (W1 V) main_arg6 (by decide)).trans (val1_main_arg6 V)
theorem val2_main_arg7 : W2 V main_arg7 = V main_arg7 :=
  (keep_dense1 (W1 V) main_arg7 (by decide)).trans (val1_main_arg7 V)
theorem val2_main_arg8 : W2 V main_arg8 = V main_arg8 :=
  (keep_dense1 (W1 V) main_arg8 (by decide)).trans (val1_main_arg8 V)
theorem val2_main_v3 : W2 V main_v3 = tD V :=
  (keep_dense1 (W1 V) main_v3 (by decide)).trans (val1_main_v3 V)
theorem val2_main_v1 : W2 V main_v1 = tS V :=
  (keep_dense1 (W1 V) main_v1 (by decide)).trans (val1_main_v1 V)
theorem val2_main_arg9 : W2 V main_arg9 = V main_arg9 :=
  (keep_dense1 (W1 V) main_arg9 (by decide)).trans (val1_main_arg9 V)
theorem val2_main_arg10 : W2 V main_arg10 = V main_arg10 :=
  (keep_dense1 (W1 V) main_arg10 (by decide)).trans (val1_main_arg10 V)
theorem val2_main_arg11 : W2 V main_arg11 = V main_arg11 :=
  (keep_dense1 (W1 V) main_arg11 (by decide)).trans (val1_main_arg11 V)
theorem val2_main_arg12 : W2 V main_arg12 = V main_arg12 :=
  (keep_dense1 (W1 V) main_arg12 (by decide)).trans (val1_main_arg12 V)
theorem val2_main_arg13 : W2 V main_arg13 = V main_arg13 :=
  (keep_dense1 (W1 V) main_arg13 (by decide)).trans (val1_main_arg13 V)
theorem val3_main_v13 : W3 V main_v13 = tH2 V :=
  (dense2_out (W2 V)).trans (by rw [val2_main_v8, val2_main_arg4, val2_main_arg5]; rfl)
theorem val3_main_arg6 : W3 V main_arg6 = V main_arg6 :=
  (keep_dense2 (W2 V) main_arg6 (by decide)).trans (val2_main_arg6 V)
theorem val3_main_arg7 : W3 V main_arg7 = V main_arg7 :=
  (keep_dense2 (W2 V) main_arg7 (by decide)).trans (val2_main_arg7 V)
theorem val3_main_arg8 : W3 V main_arg8 = V main_arg8 :=
  (keep_dense2 (W2 V) main_arg8 (by decide)).trans (val2_main_arg8 V)
theorem val3_main_v3 : W3 V main_v3 = tD V :=
  (keep_dense2 (W2 V) main_v3 (by decide)).trans (val2_main_v3 V)
theorem val3_main_v1 : W3 V main_v1 = tS V :=
  (keep_dense2 (W2 V) main_v1 (by decide)).trans (val2_main_v1 V)
theorem val3_main_arg9 : W3 V main_arg9 = V main_arg9 :=
  (keep_dense2 (W2 V) main_arg9 (by decide)).trans (val2_main_arg9 V)
theorem val3_main_arg10 : W3 V main_arg10 = V main_arg10 :=
  (keep_dense2 (W2 V) main_arg10 (by decide)).trans (val2_main_arg10 V)
theorem val3_main_arg11 : W3 V main_arg11 = V main_arg11 :=
  (keep_dense2 (W2 V) main_arg11 (by decide)).trans (val2_main_arg11 V)
theorem val3_main_arg12 : W3 V main_arg12 = V main_arg12 :=
  (keep_dense2 (W2 V) main_arg12 (by decide)).trans (val2_main_arg12 V)
theorem val3_main_arg13 : W3 V main_arg13 = V main_arg13 :=
  (keep_dense2 (W2 V) main_arg13 (by decide)).trans (val2_main_arg13 V)
theorem val4_main_v18 : W4 V main_v18 = tH3 V :=
  (dense3_out (W3 V)).trans (by rw [val3_main_v13, val3_main_arg6, val3_main_arg7]; rfl)
theorem val4_main_arg8 : W4 V main_arg8 = V main_arg8 :=
  (keep_dense3 (W3 V) main_arg8 (by decide)).trans (val3_main_arg8 V)
theorem val4_main_v3 : W4 V main_v3 = tD V :=
  (keep_dense3 (W3 V) main_v3 (by decide)).trans (val3_main_v3 V)
theorem val4_main_v1 : W4 V main_v1 = tS V :=
  (keep_dense3 (W3 V) main_v1 (by decide)).trans (val3_main_v1 V)
theorem val4_main_arg9 : W4 V main_arg9 = V main_arg9 :=
  (keep_dense3 (W3 V) main_arg9 (by decide)).trans (val3_main_arg9 V)
theorem val4_main_arg10 : W4 V main_arg10 = V main_arg10 :=
  (keep_dense3 (W3 V) main_arg10 (by decide)).trans (val3_main_arg10 V)
theorem val4_main_arg11 : W4 V main_arg11 = V main_arg11 :=
  (keep_dense3 (W3 V) main_arg11 (by decide)).trans (val3_main_arg11 V)
theorem val4_main_arg12 : W4 V main_arg12 = V main_arg12 :=
  (keep_dense3 (W3 V) main_arg12 (by decide)).trans (val3_main_arg12 V)
theorem val4_main_arg13 : W4 V main_arg13 = V main_arg13 :=
  (keep_dense3 (W3 V) main_arg13 (by decide)).trans (val3_main_arg13 V)
theorem val5_main_v3 : W5 V main_v3 = tD V :=
  (keep_lin0 (W4 V) main_v3 (by decide)).trans (val4_main_v3 V)
theorem val5_main_v1 : W5 V main_v1 = tS V :=
  (keep_lin0 (W4 V) main_v1 (by decide)).trans (val4_main_v1 V)
theorem val5_main_v19 : W5 V main_v19 = tL0 V :=
  (lin0_out (W4 V)).trans (by rw [val4_main_v18, val4_main_arg8]; rfl)
theorem val5_main_arg9 : W5 V main_arg9 = V main_arg9 :=
  (keep_lin0 (W4 V) main_arg9 (by decide)).trans (val4_main_arg9 V)
theorem val5_main_arg10 : W5 V main_arg10 = V main_arg10 :=
  (keep_lin0 (W4 V) main_arg10 (by decide)).trans (val4_main_arg10 V)
theorem val5_main_arg11 : W5 V main_arg11 = V main_arg11 :=
  (keep_lin0 (W4 V) main_arg11 (by decide)).trans (val4_main_arg11 V)
theorem val5_main_arg12 : W5 V main_arg12 = V main_arg12 :=
  (keep_lin0 (W4 V) main_arg12 (by decide)).trans (val4_main_arg12 V)
theorem val5_main_arg13 : W5 V main_arg13 = V main_arg13 :=
  (keep_lin0 (W4 V) main_arg13 (by decide)).trans (val4_main_arg13 V)
theorem val6_main_v31 : W6 V main_v31 = tDis V :=
  (deg0_out (W5 V)).trans (by rw [val5_main_v3]; rfl)
theorem val6_main_v1 : W6 V main_v1 = tS V :=
  (keep_deg0 (W5 V) main_v1 (by decide)).trans (val5_main_v1 V)
theorem val6_main_v3 : W6 V main_v3 = tD V :=
  (keep_deg0 (W5 V) main_v3 (by decide)).trans (val5_main_v3 V)
theorem val6_main_v19 : W6 V main_v19 = tL0 V :=
  (keep_deg0 (W5 V) main_v19 (by decide)).trans (val5_main_v19 V)
theorem val6_main_arg9 : W6 V main_arg9 = V main_arg9 :=
  (keep_deg0 (W5 V) main_arg9 (by decide)).trans (val5_main_arg9 V)
theorem val6_main_arg10 : W6 V main_arg10 = V main_arg10 :=
  (keep_deg0 (W5 V) main_arg10 (by decide)).trans (val5_main_arg10 V)
theorem val6_main_arg11 : W6 V main_arg11 = V main_arg11 :=
  (keep_deg0 (W5 V) main_arg11 (by decide)).trans (val5_main_arg11 V)
theorem val6_main_arg12 : W6 V main_arg12 = V main_arg12 :=
  (keep_deg0 (W5 V) main_arg12 (by decide)).trans (val5_main_arg12 V)
theorem val6_main_arg13 : W6 V main_arg13 = V main_arg13 :=
  (keep_deg0 (W5 V) main_arg13 (by decide)).trans (val5_main_arg13 V)
theorem val7_main_v46 : W7 V main_v46 = tCoef V :=
  (coef0_out (W6 V)).trans (by rw [val6_main_v31, val6_main_v1, val6_main_v3]; rfl)
theorem val7_main_v1 : W7 V main_v1 = tS V :=
  (keep_coef0 (W6 V) main_v1 (by decide)).trans (val6_main_v1 V)
theorem val7_main_v3 : W7 V main_v3 = tD V :=
  (keep_coef0 (W6 V) main_v3 (by decide)).trans (val6_main_v3 V)
theorem val7_main_v19 : W7 V main_v19 = tL0 V :=
  (keep_coef0 (W6 V) main_v19 (by decide)).trans (val6_main_v19 V)
theorem val7_main_v31 : W7 V main_v31 = tDis V :=
  (keep_coef0 (W6 V) main_v31 (by decide)).trans (val6_main_v31 V)
theorem val7_main_arg9 : W7 V main_arg9 = V main_arg9 :=
  (keep_coef0 (W6 V) main_arg9 (by decide)).trans (val6_main_arg9 V)
theorem val7_main_arg10 : W7 V main_arg10 = V main_arg10 :=
  (keep_coef0 (W6 V) main_arg10 (by decide)).trans (val6_main_arg10 V)
theorem val7_main_arg11 : W7 V main_arg11 = V main_arg11 :=
  (keep_coef0 (W6 V) main_arg11 (by decide)).trans (val6_main_arg11 V)
theorem val7_main_arg12 : W7 V main_arg12 = V main_arg12 :=
  (keep_coef0 (W6 V) main_arg12 (by decide)).trans (val6_main_arg12 V)
theorem val7_main_arg13 : W7 V main_arg13 = V main_arg13 :=
  (keep_coef0 (W6 V) main_arg13 (by decide)).trans (val6_main_arg13 V)
theorem val8_main_v59 : W8 V main_v59 = tA0 V :=
  (agg0_out (W7 V)).trans (by rw [val7_main_v46, val7_main_v1, val7_main_v3, val7_main_v19]; rfl)
theorem val8_main_v19 : W8 V main_v19 = tL0 V :=
  (keep_agg0 (W7 V) main_v19 (by decide) (by decide)).trans (val7_main_v19 V)
theorem val8_main_v31 : W8 V main_v31 = tDis V :=
  (keep_agg0 (W7 V) main_v31 (by decide) (by decide)).trans (val7_main_v31 V)
theorem val8_main_arg9 : W8 V main_arg9 = V main_arg9 :=
  (keep_agg0 (W7 V) main_arg9 (by decide) (by decide)).trans (val7_main_arg9 V)
theorem val8_main_arg10 : W8 V main_arg10 = V main_arg10 :=
  (keep_agg0 (W7 V) main_arg10 (by decide) (by decide)).trans (val7_main_arg10 V)
theorem val8_main_v3 : W8 V main_v3 = tD V :=
  (keep_agg0 (W7 V) main_v3 (by decide) (by decide)).trans (val7_main_v3 V)
theorem val8_main_v1 : W8 V main_v1 = tS V :=
  (keep_agg0 (W7 V) main_v1 (by decide) (by decide)).trans (val7_main_v1 V)
theorem val8_main_arg11 : W8 V main_arg11 = V main_arg11 :=
  (keep_agg0 (W7 V) main_arg11 (by decide) (by decide)).trans (val7_main_arg11 V)
theorem val8_main_arg12 : W8 V main_arg12 = V main_arg12 :=
  (keep_agg0 (W7 V) main_arg12 (by decide) (by decide)).trans (val7_main_arg12 V)
theorem val8_main_arg13 : W8 V main_arg13 = V main_arg13 :=
  (keep_agg0 (W7 V) main_arg13 (by decide) (by decide)).trans (val7_main_arg13 V)
theorem val9_main_v68 : W9 V main_v68 = tH4 V :=
  (comb0_out (W8 V)).trans (by rw [val8_main_v59, val8_main_v19, val8_main_v31, val8_main_arg9]; rfl)
theorem val9_main_arg10 : W9 V main_arg10 = V main_arg10 :=
  (keep_comb0 (W8 V) main_arg10 (by decide)).trans (val8_main_arg10 V)
theorem val9_main_v3 : W9 V main_v3 = tD V :=
  (keep_comb0 (W8 V) main_v3 (by decide)).trans (val8_main_v3 V)
theorem val9_main_v1 : W9 V main_v1 = tS V :=
  (keep_comb0 (W8 V) main_v1 (by decide)).trans (val8_main_v1 V)
theorem val9_main_arg11 : W9 V main_arg11 = V main_arg11 :=
  (keep_comb0 (W8 V) main_arg11 (by decide)).trans (val8_main_arg11 V)
theorem val9_main_arg12 : W9 V main_arg12 = V main_arg12 :=
  (keep_comb0 (W8 V) main_arg12 (by decide)).trans (val8_main_arg12 V)
theorem val9_main_arg13 : W9 V main_arg13 = V main_arg13 :=
  (keep_comb0 (W8 V) main_arg13 (by decide)).trans (val8_main_arg13 V)
theorem val10_main_v3 : W10 V main_v3 = tD V :=
  (keep_lin1 (W9 V) main_v3 (by decide)).trans (val9_main_v3 V)
theorem val10_main_v1 : W10 V main_v1 = tS V :=
  (keep_lin1 (W9 V) main_v1 (by decide)).trans (val9_main_v1 V)
theorem val10_main_v69 : W10 V main_v69 = tL1 V :=
  (lin1_out (W9 V)).trans (by rw [val9_main_v68, val9_main_arg10]; rfl)
theorem val10_main_arg11 : W10 V main_arg11 = V main_arg11 :=
  (keep_lin1 (W9 V) main_arg11 (by decide)).trans (val9_main_arg11 V)
theorem val10_main_arg12 : W10 V main_arg12 = V main_arg12 :=
  (keep_lin1 (W9 V) main_arg12 (by decide)).trans (val9_main_arg12 V)
theorem val10_main_arg13 : W10 V main_arg13 = V main_arg13 :=
  (keep_lin1 (W9 V) main_arg13 (by decide)).trans (val9_main_arg13 V)
theorem val11_main_v81 : W11 V main_v81 = tDis V :=
  (deg1_out (W10 V)).trans (by rw [val10_main_v3]; rfl)
theorem val11_main_v1 : W11 V main_v1 = tS V :=
  (keep_deg1 (W10 V) main_v1 (by decide)).trans (val10_main_v1 V)
theorem val11_main_v3 : W11 V main_v3 = tD V :=
  (keep_deg1 (W10 V) main_v3 (by decide)).trans (val10_main_v3 V)
theorem val11_main_v69 : W11 V main_v69 = tL1 V :=
  (keep_deg1 (W10 V) main_v69 (by decide)).trans (val10_main_v69 V)
theorem val11_main_arg11 : W11 V main_arg11 = V main_arg11 :=
  (keep_deg1 (W10 V) main_arg11 (by decide)).trans (val10_main_arg11 V)
theorem val11_main_arg12 : W11 V main_arg12 = V main_arg12 :=
  (keep_deg1 (W10 V) main_arg12 (by decide)).trans (val10_main_arg12 V)
theorem val11_main_arg13 : W11 V main_arg13 = V main_arg13 :=
  (keep_deg1 (W10 V) main_arg13 (by decide)).trans (val10_main_arg13 V)
theorem val12_main_v96 : W12 V main_v96 = tCoef V :=
  (coef1_out (W11 V)).trans (by rw [val11_main_v81, val11_main_v1, val11_main_v3]; rfl)
theorem val12_main_v1 : W12 V main_v1 = tS V :=
  (keep_coef1 (W11 V) main_v1 (by decide)).trans (val11_main_v1 V)
theorem val12_main_v3 : W12 V main_v3 = tD V :=
  (keep_coef1 (W11 V) main_v3 (by decide)).trans (val11_main_v3 V)
theorem val12_main_v69 : W12 V main_v69 = tL1 V :=
  (keep_coef1 (W11 V) main_v69 (by decide)).trans (val11_main_v69 V)
theorem val12_main_v81 : W12 V main_v81 = tDis V :=
  (keep_coef1 (W11 V) main_v81 (by decide)).trans (val11_main_v81 V)
theorem val12_main_arg11 : W12 V main_arg11 = V main_arg11 :=
  (keep_coef1 (W11 V) main_arg11 (by decide)).trans (val11_main_arg11 V)
theorem val12_main_arg12 : W12 V main_arg12 = V main_arg12 :=
  (keep_coef1 (W11 V) main_arg12 (by decide)).trans (val11_main_arg12 V)
theorem val12_main_arg13 : W12 V main_arg13 = V main_arg13 :=
  (keep_coef1 (W11 V) main_arg13 (by decide)).trans (val11_main_arg13 V)
theorem val13_main_v109 : W13 V main_v109 = tA1 V :=
  (agg1_out (W12 V)).trans (by rw [val12_main_v96, val12_main_v1, val12_main_v3, val12_main_v69]; rfl)
theorem val13_main_v69 : W13 V main_v69 = tL1 V :=
  (keep_agg1 (W12 V) main_v69 (by decide) (by decide)).trans (val12_main_v69 V)
theorem val13_main_v81 : W13 V main_v81 = tDis V :=
  (keep_agg1 (W12 V) main_v81 (by decide) (by decide)).trans (val12_main_v81 V)
theorem val13_main_arg11 : W13 V main_arg11 = V main_arg11 :=
  (keep_agg1 (W12 V) main_arg11 (by decide) (by decide)).trans (val12_main_arg11 V)
theorem val13_main_arg12 : W13 V main_arg12 = V main_arg12 :=
  (keep_agg1 (W12 V) main_arg12 (by decide) (by decide)).trans (val12_main_arg12 V)
theorem val13_main_v3 : W13 V main_v3 = tD V :=
  (keep_agg1 (W12 V) main_v3 (by decide) (by decide)).trans (val12_main_v3 V)
theorem val13_main_v1 : W13 V main_v1 = tS V :=
  (keep_agg1 (W12 V) main_v1 (by decide) (by decide)).trans (val12_main_v1 V)
theorem val13_main_arg13 : W13 V main_arg13 = V main_arg13 :=
  (keep_agg1 (W12 V) main_arg13 (by decide) (by decide)).trans (val12_main_arg13 V)
theorem val14_main_v118 : W14 V main_v118 = tH5 V :=
  (comb1_out (W13 V)).trans (by rw [val13_main_v109, val13_main_v69, val13_main_v81, val13_main_arg11]; rfl)
theorem val14_main_arg12 : W14 V main_arg12 = V main_arg12 :=
  (keep_comb1 (W13 V) main_arg12 (by decide)).trans (val13_main_arg12 V)
theorem val14_main_v3 : W14 V main_v3 = tD V :=
  (keep_comb1 (W13 V) main_v3 (by decide)).trans (val13_main_v3 V)
theorem val14_main_v1 : W14 V main_v1 = tS V :=
  (keep_comb1 (W13 V) main_v1 (by decide)).trans (val13_main_v1 V)
theorem val14_main_arg13 : W14 V main_arg13 = V main_arg13 :=
  (keep_comb1 (W13 V) main_arg13 (by decide)).trans (val13_main_arg13 V)
theorem val15_main_v3 : W15 V main_v3 = tD V :=
  (keep_lin2 (W14 V) main_v3 (by decide)).trans (val14_main_v3 V)
theorem val15_main_v1 : W15 V main_v1 = tS V :=
  (keep_lin2 (W14 V) main_v1 (by decide)).trans (val14_main_v1 V)
theorem val15_main_v119 : W15 V main_v119 = tL2 V :=
  (lin2_out (W14 V)).trans (by rw [val14_main_v118, val14_main_arg12]; rfl)
theorem val15_main_arg13 : W15 V main_arg13 = V main_arg13 :=
  (keep_lin2 (W14 V) main_arg13 (by decide)).trans (val14_main_arg13 V)
theorem val16_main_v131 : W16 V main_v131 = tDis V :=
  (deg2_out (W15 V)).trans (by rw [val15_main_v3]; rfl)
theorem val16_main_v1 : W16 V main_v1 = tS V :=
  (keep_deg2 (W15 V) main_v1 (by decide)).trans (val15_main_v1 V)
theorem val16_main_v3 : W16 V main_v3 = tD V :=
  (keep_deg2 (W15 V) main_v3 (by decide)).trans (val15_main_v3 V)
theorem val16_main_v119 : W16 V main_v119 = tL2 V :=
  (keep_deg2 (W15 V) main_v119 (by decide)).trans (val15_main_v119 V)
theorem val16_main_arg13 : W16 V main_arg13 = V main_arg13 :=
  (keep_deg2 (W15 V) main_arg13 (by decide)).trans (val15_main_arg13 V)
theorem val17_main_v146 : W17 V main_v146 = tCoef V :=
  (coef2_out (W16 V)).trans (by rw [val16_main_v131, val16_main_v1, val16_main_v3]; rfl)
theorem val17_main_v1 : W17 V main_v1 = tS V :=
  (keep_coef2 (W16 V) main_v1 (by decide)).trans (val16_main_v1 V)
theorem val17_main_v3 : W17 V main_v3 = tD V :=
  (keep_coef2 (W16 V) main_v3 (by decide)).trans (val16_main_v3 V)
theorem val17_main_v119 : W17 V main_v119 = tL2 V :=
  (keep_coef2 (W16 V) main_v119 (by decide)).trans (val16_main_v119 V)
theorem val17_main_v131 : W17 V main_v131 = tDis V :=
  (keep_coef2 (W16 V) main_v131 (by decide)).trans (val16_main_v131 V)
theorem val17_main_arg13 : W17 V main_arg13 = V main_arg13 :=
  (keep_coef2 (W16 V) main_arg13 (by decide)).trans (val16_main_arg13 V)
theorem val18_main_v158 : W18 V main_v158 = tA2 V :=
  (agg2_out (W17 V)).trans (by rw [val17_main_v146, val17_main_v1, val17_main_v3, val17_main_v119]; rfl)
theorem val18_main_v119 : W18 V main_v119 = tL2 V :=
  (keep_agg2 (W17 V) main_v119 (by decide)).trans (val17_main_v119 V)
theorem val18_main_v131 : W18 V main_v131 = tDis V :=
  (keep_agg2 (W17 V) main_v131 (by decide)).trans (val17_main_v131 V)
theorem val18_main_arg13 : W18 V main_arg13 = V main_arg13 :=
  (keep_agg2 (W17 V) main_arg13 (by decide)).trans (val17_main_arg13 V)
theorem val19_main_v165 : W19 V main_v165 = tOut V :=
  (comb2_out (W18 V)).trans (by rw [val18_main_v158, val18_main_v119, val18_main_v131, val18_main_arg13]; rfl)

/-! ## The whole program -/

/-- The whole line of operations is the pieces one after the other. -/
theorem after_ops : after (ops (F := Ideal)) V = W19 V := by
  simp only [W19, W18, W17, W16, W15, W14, W13, W12, W11, W10, W9, W8, W7, W6, W5, W4, W3, W2, W1, Pieces.HT.after_append]

attribute [local irreducible] Cert.Gnn.dense Cert.Gnn.comb Cert.Gnn.comb1 Cert.LibMatmul.MM aggOf aggOf1 coefOf disOf d2Of srcOf dstOf in
/-- The reference program leaves, in its result buffer, the network of the argument buffers' contents over the graph of
    the edge array. -/
theorem out_eq (V : Valuation τ sig (Elt Ideal)) :
    after (ops (F := Ideal)) V main_v165
      = Cert.Gnn.net (graph (V main_arg1)) (V main_arg0) (V main_arg2) (V main_arg3) (V main_arg4) (V main_arg5) (V main_arg6) (V main_arg7) (V main_arg8) (V main_arg9) (V main_arg10) (V main_arg11) (V main_arg12) (V main_arg13) := by
  rw [after_ops, val19_main_v165]
  rfl

end Cert.ReferenceIdeal.RefValue

end
-- ==== Proof.lean ====
/-
  The certificate's five claims.

  Both idealized programs compute, at the ideal values, one network of the argument arrays: three dense layers
  act (x · W + b), two graph-convolution layers act (agg (x · W) + (x · W) · d² + b) and a last one without the
  activation, where agg sums over every node's incoming edges the source row scaled by the edge's coefficient
  (the product of the inverse square roots of the two end nodes' degrees, self-loop counted) and d² is the squared
  inverse root of the node's own degree.  The kernel runs the dense products and the node updates as row-blocked
  regions (each block of 5000 rows the same function of its rows of the inputs, the blocks tiling the array) and the
  graph-dependent pieces as host operations; the reference is one host program.  No algebraic law is needed beyond
  reading both matrix products as the same sum: the two sides are the same composition of the same functions.  The
  one difference is the index the degree count is scattered at — the reference wraps a negative destination index
  by the node count, the kernel does not — and the precondition (every destination index non-negative) makes the
  wrap the identity.  The frames of the two kernel programs are the generated ones; the reference's frame is its run
  with the result dropped; the idealization rewrote nothing.
-/
import proofs.«130695_j11355893531404_1_alg».proof.Defs
import proofs.«130695_j11355893531404_1_alg».proof.Proof.Gen.Kernel
import proofs.«130695_j11355893531404_1_alg».proof.Proof.Gen.Kernel.Skeleton
import proofs.«130695_j11355893531404_1_alg».proof.Proof.Gen.Kernel.Launch
import proofs.«130695_j11355893531404_1_alg».proof.Proof.Gen.Kernel.Points
import proofs.«130695_j11355893531404_1_alg».proof.Proof.Gen.Kernel.Frame
import proofs.«130695_j11355893531404_1_alg».proof.Proof.Gen.KernelIdeal
import proofs.«130695_j11355893531404_1_alg».proof.Proof.Gen.KernelIdeal.Skeleton
import proofs.«130695_j11355893531404_1_alg».proof.Proof.Gen.KernelIdeal.Launch
import proofs.«130695_j11355893531404_1_alg».proof.Proof.Gen.KernelIdeal.Points
import proofs.«130695_j11355893531404_1_alg».proof.Proof.Gen.KernelIdeal.Frame
import proofs.«130695_j11355893531404_1_alg».proof.Proof.Gen.ReferenceIdeal
import proofs.«130695_j11355893531404_1_alg».proof.Proof.Gen.Pre_finite_inputs
import proofs.«130695_j11355893531404_1_alg».proof.Proof.KRun
import proofs.«130695_j11355893531404_1_alg».proof.Proof.KChain
import proofs.«130695_j11355893531404_1_alg».proof.Proof.GraphEq
import proofs.«130695_j11355893531404_1_alg».proof.Proof.PreDecode
import proofs.«130695_j11355893531404_1_alg».proof.Proof.RefRun
import proofs.«130695_j11355893531404_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped: no operation writes an argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg_kept _ Cert.ReferenceIdeal.main_arg0 (by decide)),
     (h c Cert.ReferenceIdeal.main_arg1).trans (Cert.ReferenceIdeal.RefRun.arg_kept _ Cert.ReferenceIdeal.main_arg1 (by decide)),
     (h c Cert.ReferenceIdeal.main_arg2).trans (Cert.ReferenceIdeal.RefRun.arg_kept _ Cert.ReferenceIdeal.main_arg2 (by decide)),
     (h c Cert.ReferenceIdeal.main_arg3).trans (Cert.ReferenceIdeal.RefRun.arg_kept _ Cert.ReferenceIdeal.main_arg3 (by decide)),
     (h c Cert.ReferenceIdeal.main_arg4).trans (Cert.ReferenceIdeal.RefRun.arg_kept _ Cert.ReferenceIdeal.main_arg4 (by decide)),
     (h c Cert.ReferenceIdeal.main_arg5).trans (Cert.ReferenceIdeal.RefRun.arg_kept _ Cert.ReferenceIdeal.main_arg5 (by decide)),
     (h c Cert.ReferenceIdeal.main_arg6).trans (Cert.ReferenceIdeal.RefRun.arg_kept _ Cert.ReferenceIdeal.main_arg6 (by decide)),
     (h c Cert.ReferenceIdeal.main_arg7).trans (Cert.ReferenceIdeal.RefRun.arg_kept _ Cert.ReferenceIdeal.main_arg7 (by decide)),
     (h c Cert.ReferenceIdeal.main_arg8).trans (Cert.ReferenceIdeal.RefRun.arg_kept _ Cert.ReferenceIdeal.main_arg8 (by decide)),
     (h c Cert.ReferenceIdeal.main_arg9).trans (Cert.ReferenceIdeal.RefRun.arg_kept _ Cert.ReferenceIdeal.main_arg9 (by decide)),
     (h c Cert.ReferenceIdeal.main_arg10).trans (Cert.ReferenceIdeal.RefRun.arg_kept _ Cert.ReferenceIdeal.main_arg10 (by decide)),
     (h c Cert.ReferenceIdeal.main_arg11).trans (Cert.ReferenceIdeal.RefRun.arg_kept _ Cert.ReferenceIdeal.main_arg11 (by decide)),
     (h c Cert.ReferenceIdeal.main_arg12).trans (Cert.ReferenceIdeal.RefRun.arg_kept _ Cert.ReferenceIdeal.main_arg12 (by decide)),
     (h c Cert.ReferenceIdeal.main_arg13).trans (Cert.ReferenceIdeal.RefRun.arg_kept _ Cert.ReferenceIdeal.main_arg13 (by decide))⟩)
    (Cert.ReferenceIdeal.RefRun.run_main (F := Ideal) m ρ)

theorem preserves : Cert.preserves_Kernel_KernelIdeal := trivial

/-- Both runs end with the network of the argument arrays in the result: the kernel's boundary by boundary, the
    reference's piece by piece; the graph pieces agree because the destination indices are non-negative. -/
theorem algebraic : Cert.algebraic_KernelIdeal_ReferenceIdeal := by
  intro m ρ m' ρ' hpre hagree
  refine ⟨fun c => Cert.KernelIdeal.Chain.OUT m c, ?_, ?_⟩
  · exact (θ_run Cert.KernelIdeal.defs _ _).mono
      (fun r h c => ⟨(h c).1.trans (Cert.KernelIdeal.Chain.v80 m ρ c), (h c).2⟩)
      (Cert.KernelIdeal.RunNamed.run_named (F := Ideal) m ρ)
  · refine (θ_run Cert.ReferenceIdeal.defs _ _).mono (fun r h c => ⟨?_,
      (h c Cert.ReferenceIdeal.main_arg0).trans (Cert.ReferenceIdeal.RefRun.arg_kept _ Cert.ReferenceIdeal.main_arg0 (by decide)),
      (h c Cert.ReferenceIdeal.main_arg1).trans (Cert.ReferenceIdeal.RefRun.arg_kept _ Cert.ReferenceIdeal.main_arg1 (by decide)),
      (h c Cert.ReferenceIdeal.main_arg2).trans (Cert.ReferenceIdeal.RefRun.arg_kept _ Cert.ReferenceIdeal.main_arg2 (by decide)),
      (h c Cert.ReferenceIdeal.main_arg3).trans (Cert.ReferenceIdeal.RefRun.arg_kept _ Cert.ReferenceIdeal.main_arg3 (by decide)),
      (h c Cert.ReferenceIdeal.main_arg4).trans (Cert.ReferenceIdeal.RefRun.arg_kept _ Cert.ReferenceIdeal.main_arg4 (by decide)),
      (h c Cert.ReferenceIdeal.main_arg5).trans (Cert.ReferenceIdeal.RefRun.arg_kept _ Cert.ReferenceIdeal.main_arg5 (by decide)),
      (h c Cert.ReferenceIdeal.main_arg6).trans (Cert.ReferenceIdeal.RefRun.arg_kept _ Cert.ReferenceIdeal.main_arg6 (by decide)),
      (h c Cert.ReferenceIdeal.main_arg7).trans (Cert.ReferenceIdeal.RefRun.arg_kept _ Cert.ReferenceIdeal.main_arg7 (by decide)),
      (h c Cert.ReferenceIdeal.main_arg8).trans (Cert.ReferenceIdeal.RefRun.arg_kept _ Cert.ReferenceIdeal.main_arg8 (by decide)),
      (h c Cert.ReferenceIdeal.main_arg9).trans (Cert.ReferenceIdeal.RefRun.arg_kept _ Cert.ReferenceIdeal.main_arg9 (by decide)),
      (h c Cert.ReferenceIdeal.main_arg10).trans (Cert.ReferenceIdeal.RefRun.arg_kept _ Cert.ReferenceIdeal.main_arg10 (by decide)),
      (h c Cert.ReferenceIdeal.main_arg11).trans (Cert.ReferenceIdeal.RefRun.arg_kept _ Cert.ReferenceIdeal.main_arg11 (by decide)),
      (h c Cert.ReferenceIdeal.main_arg12).trans (Cert.ReferenceIdeal.RefRun.arg_kept _ Cert.ReferenceIdeal.main_arg12 (by decide)),
      (h c Cert.ReferenceIdeal.main_arg13).trans (Cert.ReferenceIdeal.RefRun.arg_kept _ Cert.ReferenceIdeal.main_arg13 (by decide))⟩)
      (Cert.ReferenceIdeal.RefRun.run_main (F := Ideal) m' ρ')
    obtain ⟨e0, e1, e2, e3, e4, e5, e6, e7, e8, e9, e10, e11, e12, e13⟩ := hagree c
    have hdst : ∀ k, 0 ≤ (Cert.ReferenceIdeal.GraphDefs.dstOf (m ((c.tc : Thread Cert.KernelIdeal.nD Cert.KernelIdeal.τ).loc Cert.KernelIdeal.main_arg1)) k).toInt :=
      fun k => Cert.Pre_finite_inputs.Decode.dst_nonneg _ _ _ _ _ _ _ _ _ _ _ _ _ _ (hpre c) k
    rw [h c Cert.ReferenceIdeal.main_v165, Cert.ReferenceIdeal.RefValue.out_eq]
    show Cert.Gnn.net (Cert.ReferenceIdeal.GraphDefs.graph (m' ((c.tc : Thread Cert.ReferenceIdeal.nD Cert.ReferenceIdeal.τ).loc Cert.ReferenceIdeal.main_arg1)))
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
      = Cert.KernelIdeal.Chain.OUT m c
    rw [e0, e1, e2, e3, e4, e5, e6, e7, e8, e9, e10, e11, e12, e13, Cert.KernelIdeal.Chain.OUT_eq, Cert.GraphEq.graph_eq _ hdst]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
